-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v270) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x9x512x512 : Shape := ⟨4, ![4, 9, 512, 512]⟩
abbrev S4x16x512x512 : Shape := ⟨4, ![4, 16, 512, 512]⟩
abbrev S_ : Shape := ⟨0, ![]⟩

class Facts : Prop where
  bcast_S_S4x9x512x512 : S_.BroadcastsInDim S4x9x512x512 (![] : Fin 0 → Fin S4x9x512x512.rank)
  reducesTo_S4x9x512x512_S_d0_1_2_3 : S4x9x512x512.ReducesTo [0, 1, 2, 3] S_
  h_S_ : 0 < S_.numel
  bcast_S_S4x16x512x512 : S_.BroadcastsInDim S4x16x512x512 (![] : Fin 0 → Fin S4x16x512x512.rank)
  reducesTo_S4x16x512x512_S_d0_1_2_3 : S4x16x512x512.ReducesTo [0, 1, 2, 3] S_

variable [Facts]

def fn {F : FTy → Type} [FloatOps F] (main_arg0 : FVec F S4x9x512x512 .f32) (main_arg1 : FVec F S4x16x512x512 .f32) : IVec S_ 1 :=
  let main_v0 : FVec F S4x9x512x512 .f32 := Host.absf main_arg0
  let main_cst : FVec F S_ .f32 := constant S_ .f32 0x7F800000#32
  let main_v1 : FVec F S4x9x512x512 .f32 := broadcastInDim S4x9x512x512 ![] bcast_S_S4x9x512x512 main_cst
  let main_v2 : IVec S4x9x512x512 1 := cmpf .olt main_v0 main_v1
  let main_c : IVec S_ 1 := constantI S_ 1 1#1
  let main_v3 : IVec S_ 1 := (fun x v => Host.reduce IntOp.andi x v reducesTo_S4x9x512x512_S_d0_1_2_3 h_S_) main_v2 main_c
  let main_v4 : FVec F S4x16x512x512 .f32 := Host.absf main_arg1
  let main_cst_0 : FVec F S_ .f32 := constant S_ .f32 0x7F800000#32
  let main_v5 : FVec F S4x16x512x512 .f32 := broadcastInDim S4x16x512x512 ![] bcast_S_S4x16x512x512 main_cst_0
  let main_v6 : IVec S4x16x512x512 1 := cmpf .olt main_v4 main_v5
  let main_c_1 : IVec S_ 1 := constantI S_ 1 1#1
  let main_v7 : IVec S_ 1 := (fun x v => Host.reduce IntOp.andi x v reducesTo_S4x16x512x512_S_d0_1_2_3 h_S_) main_v6 main_c_1
  let main_v8 : IVec S_ 1 := andi main_v3 main_v7
  main_v8
-- ==== Kernel.lean ====
abbrev S4x9x512x512 : Shape := ⟨4, ![4, 9, 512, 512]⟩
abbrev S4x16x512x512 : Shape := ⟨4, ![4, 16, 512, 512]⟩
abbrev S1x9x512x512 : Shape := ⟨4, ![1, 9, 512, 512]⟩
abbrev S1x2x512x512 : Shape := ⟨4, ![1, 2, 512, 512]⟩
abbrev S9x512x512 : Shape := ⟨3, ![9, 512, 512]⟩
abbrev S512x512 : Shape := ⟨2, ![512, 512]⟩
abbrev S1x512x512 : Shape := ⟨3, ![1, 512, 512]⟩
abbrev S2x512x512 : Shape := ⟨3, ![2, 512, 512]⟩
abbrev S2x1x512 : Shape := ⟨3, ![2, 1, 512]⟩
abbrev S2x512x1 : Shape := ⟨3, ![2, 512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4x9x512x512, .f32⟩
  | .hbm, ⟨1, _⟩ => ⟨S4x16x512x512, .f32⟩
  | .hbm, ⟨2, _⟩ => ⟨S4x16x512x512, .f32⟩
  | .local _ .vmem, ⟨0, _⟩ => ⟨S1x9x512x512, .f32⟩
  | .local _ .vmem, ⟨1, _⟩ => ⟨S1x9x512x512, .f32⟩
  | .local _ .vmem, ⟨2, _⟩ => ⟨S1x2x512x512, .f32⟩
  | .local _ .vmem, ⟨3, _⟩ => ⟨S1x2x512x512, .f32⟩
  | .local _ .vmem, ⟨4, _⟩ => ⟨S1x2x512x512, .f32⟩
  | .local _ .vmem, ⟨5, _⟩ => ⟨S1x2x512x512, .f32⟩
  | _, _ => ⟨S4x9x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x9x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x9x512x512_S1x9x512x512_0_0_0_0 : ∀ a, (![0, 0, 0, 0] : Fin 4 → Nat) a + S1x9x512x512.size a ≤ S1x9x512x512.size a
  h_S1x9x512x512 : 0 < S1x9x512x512.numel
  shapeCasts_S1x9x512x512_S9x512x512 : S1x9x512x512.ShapeCasts S9x512x512
  reduces_S9x512x512_S512x512 : S9x512x512.Reduces [0] S512x512
  shapeCasts_S512x512_S1x512x512 : S512x512.ShapeCasts S1x512x512
  broadcasts_S1x512x512_S9x512x512 : S1x512x512.Broadcasts S9x512x512
  inb_S1x2x512x512_S1x2x512x512_0_0_0_0 : ∀ a, (![0, 0, 0, 0] : Fin 4 → Nat) a + S1x2x512x512.size a ≤ S1x2x512x512.size a
  h_S1x2x512x512 : 0 < S1x2x512x512.numel
  shapeCasts_S1x2x512x512_S2x512x512 : S1x2x512x512.ShapeCasts S2x512x512
  iota_S2x512x512_d1_w32 : S2x512x512.Iotas .tc 32 [1]
  rotates_S2x512x512_d1 : S2x512x512.Rotates 1 none
  slices_S2x512x512_o0_0_0_S2x1x512 : S2x512x512.Slices ![0, 0, 0] S2x1x512
  shapeCasts_S2x1x512_S2x1x512 : S2x1x512.ShapeCasts S2x1x512
  broadcasts_S2x1x512_S2x512x512 : S2x1x512.Broadcasts S2x512x512
  iota_S2x512x512_d2_w32 : S2x512x512.Iotas .tc 32 [2]
  rotates_S2x512x512_d2 : S2x512x512.Rotates 2 none
  slices_S2x512x512_o0_0_0_S2x512x1 : S2x512x512.Slices ![0, 0, 0] S2x512x1
  shapeCasts_S2x512x1_S2x512x1 : S2x512x1.ShapeCasts S2x512x1
  broadcasts_S2x512x1_S2x512x512 : S2x512x1.Broadcasts S2x512x512
  slices_S9x512x512_o0_0_0_S1x512x512 : S9x512x512.Slices ![0, 0, 0] S1x512x512
  shapeCasts_S1x512x512_S512x512 : S1x512x512.ShapeCasts S512x512
  broadcasts_S1x512x512_S2x512x512 : S1x512x512.Broadcasts S2x512x512
  slices_S9x512x512_o1_0_0_S1x512x512 : S9x512x512.Slices ![1, 0, 0] S1x512x512
  slices_S2x512x512_o0_0_511_S2x512x1 : S2x512x512.Slices ![0, 0, 511] S2x512x1
  slices_S9x512x512_o2_0_0_S1x512x512 : S9x512x512.Slices ![2, 0, 0] S1x512x512
  slices_S9x512x512_o3_0_0_S1x512x512 : S9x512x512.Slices ![3, 0, 0] S1x512x512
  slices_S9x512x512_o4_0_0_S1x512x512 : S9x512x512.Slices ![4, 0, 0] S1x512x512
  slices_S9x512x512_o5_0_0_S1x512x512 : S9x512x512.Slices ![5, 0, 0] S1x512x512
  slices_S2x512x512_o0_511_0_S2x1x512 : S2x512x512.Slices ![0, 511, 0] S2x1x512
  slices_S9x512x512_o6_0_0_S1x512x512 : S9x512x512.Slices ![6, 0, 0] S1x512x512
  slices_S9x512x512_o7_0_0_S1x512x512 : S9x512x512.Slices ![7, 0, 0] S1x512x512
  slices_S9x512x512_o8_0_0_S1x512x512 : S9x512x512.Slices ![8, 0, 0] S1x512x512
  shapeCasts_S2x512x512_S1x2x512x512 : S2x512x512.ShapeCasts S1x2x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x9x512x512.size a ≤ S4x9x512x512.size a
  hwx0_0 : ∀ i : grid0.Coords, EltTy.bits .f32 = 32 ∨ (Rect.block (s := S4x9x512x512) S1x9x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x512x512.size a ≤ S4x16x512x512.size a
  hwx0_1 : ∀ i : grid0.Coords, EltTy.bits .f32 = 32 ∨ (Rect.block (s := S4x16x512x512) S1x2x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x512x512.size a ≤ S4x16x512x512.size a
  hwx0_2 : ∀ i : grid0.Coords, EltTy.bits .f32 = 32 ∨ (Rect.block (s := S4x16x512x512) S1x2x512x512.size (cc0_transform_2 i) (hinb0_2 i)).WholeWords (EltTy.packing .f32)

variable [Facts₀]

abbrev win0_0 : Pipeline.Window sig grid0 :=
  Pipeline.Window.ofSpec (Memref.whole main_arg0) S1x9x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x9x512x512 : Shape := ⟨4, ![4, 9, 512, 512]⟩
abbrev S4x16x512x512 : Shape := ⟨4, ![4, 16, 512, 512]⟩
abbrev S_ : Shape := ⟨0, ![]⟩
abbrev S4x512x512 : Shape := ⟨3, ![4, 512, 512]⟩
abbrev S4x1x512x512 : Shape := ⟨4, ![4, 1, 512, 512]⟩
abbrev S512 : Shape := ⟨1, ![512]⟩
abbrev S512x1 : Shape := ⟨2, ![512, 1]⟩

abbrev nBuf : Space → Nat
  | .hbm => 459
  | .vmem => 0
  | .smem => 0
  | _ => 0

abbrev hbmTy0_0 (i : Nat) : BufTy := match i % 128 with
  | 0 => ⟨S4x9x512x512, .f32⟩
  | 1 => ⟨S4x16x512x512, .f32⟩
  | 2 => ⟨S_, .f32⟩
  | 3 => ⟨S4x512x512, .f32⟩
  | 4 => ⟨S_, .f32⟩
  | 5 => ⟨S4x512x512, .f32⟩
  | 6 => ⟨S4x512x512, .f32⟩
  | 7 => ⟨S4x1x512x512, .f32⟩
  | 8 => ⟨S4x9x512x512, .f32⟩
  | 9 => ⟨S4x9x512x512, .f32⟩
  | 10 => ⟨S4x9x512x512, .f32⟩
  | 11 => ⟨S_, .f32⟩
  | 12 => ⟨S4x512x512, .f32⟩
  | 13 => ⟨S4x1x512x512, .f32⟩
  | 14 => ⟨S4x9x512x512, .f32⟩
  | 15 => ⟨S4x9x512x512, .f32⟩
  | 16 => ⟨S4x9x512x512, .f32⟩
  | 17 => ⟨S_, .f32⟩
  | 18 => ⟨S4x512x512, .f32⟩
  | 19 => ⟨S4x1x512x512, .f32⟩
  | 20 => ⟨S_, .f32⟩
  | 21 => ⟨S4x1x512x512, .f32⟩
  | 22 => ⟨S4x1x512x512, .f32⟩
  | 23 => ⟨S4x9x512x512, .f32⟩
  | 24 => ⟨S4x9x512x512, .f32⟩
  | 25 => ⟨S_, .f32⟩
  | 26 => ⟨S4x16x512x512, .f32⟩
  | 27 => ⟨S512, .i32⟩
  | 28 => ⟨S_, .i32⟩
  | 29 => ⟨S512, .i32⟩
  | 30 => ⟨S512, .i32⟩
  | 31 => ⟨S_, .i32⟩
  | 32 => ⟨S_, .i32⟩
  | 33 => ⟨S_, .i32⟩
  | 34 => ⟨S512, .i32⟩
  | 35 => ⟨S512, .i32⟩
  | 36 => ⟨S_, .i32⟩
  | 37 => ⟨S512, .i32⟩
  | 38 => ⟨S512, .i32⟩
  | 39 => ⟨S512, .i32⟩
  | 40 => ⟨S_, .i32⟩
  | 41 => ⟨S512, .i32⟩
  | 42 => ⟨S512, .i32⟩
  | 43 => ⟨S_, .i32⟩
  | 44 => ⟨S_, .i32⟩
  | 45 => ⟨S_, .i32⟩
  | 46 => ⟨S512, .i32⟩
  | 47 => ⟨S512, .i32⟩
  | 48 => ⟨S_, .i32⟩
  | 49 => ⟨S512, .i32⟩
  | 50 => ⟨S512, .i32⟩
  | 51 => ⟨S_, .i32⟩
  | 52 => ⟨S512, .i32⟩
  | 53 => ⟨S512, .i1⟩
  | 54 => ⟨S_, .i32⟩
  | 55 => ⟨S512, .i32⟩
  | 56 => ⟨S512, .i32⟩
  | 57 => ⟨S512, .i32⟩
  | 58 => ⟨S512x1, .i32⟩
  | 59 => ⟨S4x16x512x512, .f32⟩
  | 60 => ⟨S_, .i32⟩
  | 61 => ⟨S512, .i32⟩
  | 62 => ⟨S512, .i1⟩
  | 63 => ⟨S_, .i32⟩
  | 64 => ⟨S512, .i32⟩
  | 65 => ⟨S512, .i32⟩
  | 66 => ⟨S512, .i32⟩
  | 67 => ⟨S512x1, .i32⟩
  | 68 => ⟨S4x16x512x512, .f32⟩
  | 69 => ⟨S4x1x512x512, .f32⟩
  | 70 => ⟨S4x512x512, .f32⟩
  | 71 => ⟨S4x1x512x512, .f32⟩
  | 72 => ⟨S4x16x512x512, .f32⟩
  | 73 => ⟨S4x16x512x512, .f32⟩
  | 74 => ⟨S4x16x512x512, .f32⟩
  | 75 => ⟨S512, .i32⟩
  | 76 => ⟨S_, .i32⟩
  | 77 => ⟨S512, .i32⟩
  | 78 => ⟨S512, .i32⟩
  | 79 => ⟨S_, .i32⟩
  | 80 => ⟨S_, .i32⟩
  | 81 => ⟨S_, .i32⟩
  | 82 => ⟨S512, .i32⟩
  | 83 => ⟨S512, .i32⟩
  | 84 => ⟨S_, .i32⟩
  | 85 => ⟨S512, .i32⟩
  | 86 => ⟨S512, .i32⟩
  | 87 => ⟨S512, .i32⟩
  | 88 => ⟨S_, .i32⟩
  | 89 => ⟨S512, .i32⟩
  | 90 => ⟨S512, .i32⟩
  | 91 => ⟨S_, .i32⟩
  | 92 => ⟨S_, .i32⟩
  | 93 => ⟨S_, .i32⟩
  | 94 => ⟨S512, .i32⟩
  | 95 => ⟨S512, .i32⟩
  | 96 => ⟨S_, .i32⟩
  | 97 => ⟨S512, .i32⟩
  | 98 => ⟨S512, .i32⟩
  | 99 => ⟨S_, .i32⟩
  | 100 => ⟨S512, .i32⟩
  | 101 => ⟨S512, .i1⟩
  | 102 => ⟨S_, .i32⟩
  | 103 => ⟨S512, .i32⟩
  | 104 => ⟨S512, .i32⟩
  | 105 => ⟨S512, .i32⟩
  | 106 => ⟨S512x1, .i32⟩
  | 107 => ⟨S4x16x512x512, .f32⟩
  | 108 => ⟨S_, .i32⟩
  | 109 => ⟨S512, .i32⟩
  | 110 => ⟨S512, .i1⟩
  | 111 => ⟨S_, .i32⟩
  | 112 => ⟨S512, .i32⟩
  | 113 => ⟨S512, .i32⟩
  | 114 => ⟨S512, .i32⟩
  | 115 => ⟨S512x1, .i32⟩
  | 116 => ⟨S4x16x512x512, .f32⟩
  | 117 => ⟨S4x1x512x512, .f32⟩
  | 118 => ⟨S4x512x512, .f32⟩
  | 119 => ⟨S4x1x512x512, .f32⟩
  | 120 => ⟨S4x16x512x512, .f32⟩
  | 121 => ⟨S4x16x512x512, .f32⟩
  | 122 => ⟨S4x16x512x512, .f32⟩
  | 123 => ⟨S512, .i32⟩
  | 124 => ⟨S_, .i32⟩
  | 125 => ⟨S512, .i32⟩
  | 126 => ⟨S512, .i32⟩
  | 127 => ⟨S_, .i32⟩
  | _ => ⟨S4x9x512x512, .f32⟩

abbrev hbmTy0_1 (i : Nat) : BufTy := match i % 128 with
  | 0 => ⟨S_, .i32⟩
  | 1 => ⟨S_, .i32⟩
  | 2 => ⟨S512, .i32⟩
  | 3 => ⟨S512, .i32⟩
  | 4 => ⟨S_, .i32⟩
  | 5 => ⟨S512, .i32⟩
  | 6 => ⟨S512, .i32⟩
  | 7 => ⟨S512, .i32⟩
  | 8 => ⟨S_, .i32⟩
  | 9 => ⟨S512, .i32⟩
  | 10 => ⟨S512, .i32⟩
  | 11 => ⟨S_, .i32⟩
  | 12 => ⟨S_, .i32⟩
  | 13 => ⟨S_, .i32⟩
  | 14 => ⟨S512, .i32⟩
  | 15 => ⟨S512, .i32⟩
  | 16 => ⟨S_, .i32⟩
  | 17 => ⟨S512, .i32⟩
  | 18 => ⟨S512, .i32⟩
  | 19 => ⟨S_, .i32⟩
  | 20 => ⟨S512, .i32⟩
  | 21 => ⟨S512, .i1⟩
  | 22 => ⟨S_, .i32⟩
  | 23 => ⟨S512, .i32⟩
  | 24 => ⟨S512, .i32⟩
  | 25 => ⟨S512, .i32⟩
  | 26 => ⟨S512x1, .i32⟩
  | 27 => ⟨S4x16x512x512, .f32⟩
  | 28 => ⟨S_, .i32⟩
  | 29 => ⟨S512, .i32⟩
  | 30 => ⟨S512, .i1⟩
  | 31 => ⟨S_, .i32⟩
  | 32 => ⟨S512, .i32⟩
  | 33 => ⟨S512, .i32⟩
  | 34 => ⟨S512, .i32⟩
  | 35 => ⟨S512x1, .i32⟩
  | 36 => ⟨S4x16x512x512, .f32⟩
  | 37 => ⟨S4x1x512x512, .f32⟩
  | 38 => ⟨S4x512x512, .f32⟩
  | 39 => ⟨S4x1x512x512, .f32⟩
  | 40 => ⟨S4x16x512x512, .f32⟩
  | 41 => ⟨S4x16x512x512, .f32⟩
  | 42 => ⟨S4x16x512x512, .f32⟩
  | 43 => ⟨S512, .i32⟩
  | 44 => ⟨S_, .i32⟩
  | 45 => ⟨S512, .i32⟩
  | 46 => ⟨S512, .i32⟩
  | 47 => ⟨S_, .i32⟩
  | 48 => ⟨S_, .i32⟩
  | 49 => ⟨S_, .i32⟩
  | 50 => ⟨S512, .i32⟩
  | 51 => ⟨S512, .i32⟩
  | 52 => ⟨S_, .i32⟩
  | 53 => ⟨S512, .i32⟩
  | 54 => ⟨S512, .i32⟩
  | 55 => ⟨S512, .i32⟩
  | 56 => ⟨S_, .i32⟩
  | 57 => ⟨S512, .i32⟩
  | 58 => ⟨S512, .i32⟩
  | 59 => ⟨S_, .i32⟩
  | 60 => ⟨S_, .i32⟩
  | 61 => ⟨S_, .i32⟩
  | 62 => ⟨S512, .i32⟩
  | 63 => ⟨S512, .i32⟩
  | 64 => ⟨S_, .i32⟩
  | 65 => ⟨S512, .i32⟩
  | 66 => ⟨S512, .i32⟩
  | 67 => ⟨S_, .i32⟩
  | 68 => ⟨S512, .i32⟩
  | 69 => ⟨S512, .i1⟩
  | 70 => ⟨S_, .i32⟩
  | 71 => ⟨S512, .i32⟩
  | 72 => ⟨S512, .i32⟩
  | 73 => ⟨S512, .i32⟩
  | 74 => ⟨S512x1, .i32⟩
  | 75 => ⟨S4x16x512x512, .f32⟩
  | 76 => ⟨S_, .i32⟩
  | 77 => ⟨S512, .i32⟩
  | 78 => ⟨S512, .i1⟩
  | 79 => ⟨S_, .i32⟩
  | 80 => ⟨S512, .i32⟩
  | 81 => ⟨S512, .i32⟩
  | 82 => ⟨S512, .i32⟩
  | 83 => ⟨S512x1, .i32⟩
  | 84 => ⟨S4x16x512x512, .f32⟩
  | 85 => ⟨S4x1x512x512, .f32⟩
  | 86 => ⟨S4x512x512, .f32⟩
  | 87 => ⟨S4x1x512x512, .f32⟩
  | 88 => ⟨S4x16x512x512, .f32⟩
  | 89 => ⟨S4x16x512x512, .f32⟩
  | 90 => ⟨S4x16x512x512, .f32⟩
  | 91 => ⟨S512, .i32⟩
  | 92 => ⟨S_, .i32⟩
  | 93 => ⟨S512, .i32⟩
  | 94 => ⟨S512, .i32⟩
  | 95 => ⟨S_, .i32⟩
  | 96 => ⟨S_, .i32⟩
  | 97 => ⟨S_, .i32⟩
  | 98 => ⟨S512, .i32⟩
  | 99 => ⟨S512, .i32⟩
  | 100 => ⟨S_, .i32⟩
  | 101 => ⟨S512, .i32⟩
  | 102 => ⟨S512, .i32⟩
  | 103 => ⟨S512, .i32⟩
  | 104 => ⟨S_, .i32⟩
  | 105 => ⟨S512, .i32⟩
  | 106 => ⟨S512, .i32⟩
  | 107 => ⟨S_, .i32⟩
  | 108 => ⟨S_, .i32⟩
  | 109 => ⟨S_, .i32⟩
  | 110 => ⟨S512, .i32⟩
  | 111 => ⟨S512, .i32⟩
  | 112 => ⟨S_, .i32⟩
  | 113 => ⟨S512, .i32⟩
  | 114 => ⟨S512, .i32⟩
  | 115 => ⟨S_, .i32⟩
  | 116 => ⟨S512, .i32⟩
  | 117 => ⟨S512, .i1⟩
  | 118 => ⟨S_, .i32⟩
  | 119 => ⟨S512, .i32⟩
  | 120 => ⟨S512, .i32⟩
  | 121 => ⟨S512, .i32⟩
  | 122 => ⟨S512x1, .i32⟩
  | 123 => ⟨S4x16x512x512, .f32⟩
  | 124 => ⟨S_, .i32⟩
  | 125 => ⟨S512, .i32⟩
  | 126 => ⟨S512, .i1⟩
  | 127 => ⟨S_, .i32⟩
  | _ => ⟨S4x9x512x512, .f32⟩

abbrev hbmTy0_2 (i : Nat) : BufTy := match i % 128 with
  | 0 => ⟨S512, .i32⟩
  | 1 => ⟨S512, .i32⟩
  | 2 => ⟨S512, .i32⟩
  | 3 => ⟨S512x1, .i32⟩
  | 4 => ⟨S4x16x512x512, .f32⟩
  | 5 => ⟨S4x1x512x512, .f32⟩
  | 6 => ⟨S4x512x512, .f32⟩
  | 7 => ⟨S4x1x512x512, .f32⟩
  | 8 => ⟨S4x16x512x512, .f32⟩
  | 9 => ⟨S4x16x512x512, .f32⟩
  | 10 => ⟨S4x16x512x512, .f32⟩
  | 11 => ⟨S512, .i32⟩
  | 12 => ⟨S_, .i32⟩
  | 13 => ⟨S512, .i32⟩
  | 14 => ⟨S512, .i32⟩
  | 15 => ⟨S_, .i32⟩
  | 16 => ⟨S_, .i32⟩
  | 17 => ⟨S_, .i32⟩
  | 18 => ⟨S512, .i32⟩
  | 19 => ⟨S512, .i32⟩
  | 20 => ⟨S_, .i32⟩
  | 21 => ⟨S512, .i32⟩
  | 22 => ⟨S512, .i32⟩
  | 23 => ⟨S512, .i32⟩
  | 24 => ⟨S_, .i32⟩
  | 25 => ⟨S512, .i32⟩
  | 26 => ⟨S512, .i32⟩
  | 27 => ⟨S_, .i32⟩
  | 28 => ⟨S_, .i32⟩
  | 29 => ⟨S_, .i32⟩
  | 30 => ⟨S512, .i32⟩
  | 31 => ⟨S512, .i32⟩
  | 32 => ⟨S_, .i32⟩
  | 33 => ⟨S512, .i32⟩
  | 34 => ⟨S512, .i32⟩
  | 35 => ⟨S_, .i32⟩
  | 36 => ⟨S512, .i32⟩
  | 37 => ⟨S512, .i1⟩
  | 38 => ⟨S_, .i32⟩
  | 39 => ⟨S512, .i32⟩
  | 40 => ⟨S512, .i32⟩
  | 41 => ⟨S512, .i32⟩
  | 42 => ⟨S512x1, .i32⟩
  | 43 => ⟨S4x16x512x512, .f32⟩
  | 44 => ⟨S_, .i32⟩
  | 45 => ⟨S512, .i32⟩
  | 46 => ⟨S512, .i1⟩
  | 47 => ⟨S_, .i32⟩
  | 48 => ⟨S512, .i32⟩
  | 49 => ⟨S512, .i32⟩
  | 50 => ⟨S512, .i32⟩
  | 51 => ⟨S512x1, .i32⟩
  | 52 => ⟨S4x16x512x512, .f32⟩
  | 53 => ⟨S4x1x512x512, .f32⟩
  | 54 => ⟨S4x512x512, .f32⟩
  | 55 => ⟨S4x1x512x512, .f32⟩
  | 56 => ⟨S4x16x512x512, .f32⟩
  | 57 => ⟨S4x16x512x512, .f32⟩
  | 58 => ⟨S4x16x512x512, .f32⟩
  | 59 => ⟨S512, .i32⟩
  | 60 => ⟨S_, .i32⟩
  | 61 => ⟨S512, .i32⟩
  | 62 => ⟨S512, .i32⟩
  | 63 => ⟨S_, .i32⟩
  | 64 => ⟨S_, .i32⟩
  | 65 => ⟨S_, .i32⟩
  | 66 => ⟨S512, .i32⟩
  | 67 => ⟨S512, .i32⟩
  | 68 => ⟨S_, .i32⟩
  | 69 => ⟨S512, .i32⟩
  | 70 => ⟨S512, .i32⟩
  | 71 => ⟨S512, .i32⟩
  | 72 => ⟨S_, .i32⟩
  | 73 => ⟨S512, .i32⟩
  | 74 => ⟨S512, .i32⟩
  | 75 => ⟨S_, .i32⟩
  | 76 => ⟨S_, .i32⟩
  | 77 => ⟨S_, .i32⟩
  | 78 => ⟨S512, .i32⟩
  | 79 => ⟨S512, .i32⟩
  | 80 => ⟨S_, .i32⟩
  | 81 => ⟨S512, .i32⟩
  | 82 => ⟨S512, .i32⟩
  | 83 => ⟨S_, .i32⟩
  | 84 => ⟨S512, .i32⟩
  | 85 => ⟨S512, .i1⟩
  | 86 => ⟨S_, .i32⟩
  | 87 => ⟨S512, .i32⟩
  | 88 => ⟨S512, .i32⟩
  | 89 => ⟨S512, .i32⟩
  | 90 => ⟨S512x1, .i32⟩
  | 91 => ⟨S4x16x512x512, .f32⟩
  | 92 => ⟨S_, .i32⟩
  | 93 => ⟨S512, .i32⟩
  | 94 => ⟨S512, .i1⟩
  | 95 => ⟨S_, .i32⟩
  | 96 => ⟨S512, .i32⟩
  | 97 => ⟨S512, .i32⟩
  | 98 => ⟨S512, .i32⟩
  | 99 => ⟨S512x1, .i32⟩
  | 100 => ⟨S4x16x512x512, .f32⟩
  | 101 => ⟨S4x1x512x512, .f32⟩
  | 102 => ⟨S4x512x512, .f32⟩
  | 103 => ⟨S4x1x512x512, .f32⟩
  | 104 => ⟨S4x16x512x512, .f32⟩
  | 105 => ⟨S4x16x512x512, .f32⟩
  | 106 => ⟨S4x16x512x512, .f32⟩
  | 107 => ⟨S512, .i32⟩
  | 108 => ⟨S_, .i32⟩
  | 109 => ⟨S512, .i32⟩
  | 110 => ⟨S512, .i32⟩
  | 111 => ⟨S_, .i32⟩
  | 112 => ⟨S_, .i32⟩
  | 113 => ⟨S_, .i32⟩
  | 114 => ⟨S512, .i32⟩
  | 115 => ⟨S512, .i32⟩
  | 116 => ⟨S_, .i32⟩
  | 117 => ⟨S512, .i32⟩
  | 118 => ⟨S512, .i32⟩
  | 119 => ⟨S512, .i32⟩
  | 120 => ⟨S_, .i32⟩
  | 121 => ⟨S512, .i32⟩
  | 122 => ⟨S512, .i32⟩
  | 123 => ⟨S_, .i32⟩
  | 124 => ⟨S_, .i32⟩
  | 125 => ⟨S_, .i32⟩
  | 126 => ⟨S512, .i32⟩
  | 127 => ⟨S512, .i32⟩
  | _ => ⟨S4x9x512x512, .f32⟩

abbrev hbmTy0_3 (i : Nat) : BufTy := match i % 128 with
  | 0 => ⟨S_, .i32⟩
  | 1 => ⟨S512, .i32⟩
  | 2 => ⟨S512, .i32⟩
  | 3 => ⟨S_, .i32⟩
  | 4 => ⟨S512, .i32⟩
  | 5 => ⟨S512, .i1⟩
  | 6 => ⟨S_, .i32⟩
  | 7 => ⟨S512, .i32⟩
  | 8 => ⟨S512, .i32⟩
  | 9 => ⟨S512, .i32⟩
  | 10 => ⟨S512x1, .i32⟩
  | 11 => ⟨S4x16x512x512, .f32⟩
  | 12 => ⟨S_, .i32⟩
  | 13 => ⟨S512, .i32⟩
  | 14 => ⟨S512, .i1⟩
  | 15 => ⟨S_, .i32⟩
  | 16 => ⟨S512, .i32⟩
  | 17 => ⟨S512, .i32⟩
  | 18 => ⟨S512, .i32⟩
  | 19 => ⟨S512x1, .i32⟩
  | 20 => ⟨S4x16x512x512, .f32⟩
  | 21 => ⟨S4x1x512x512, .f32⟩
  | 22 => ⟨S4x512x512, .f32⟩
  | 23 => ⟨S4x1x512x512, .f32⟩
  | 24 => ⟨S4x16x512x512, .f32⟩
  | 25 => ⟨S4x16x512x512, .f32⟩
  | 26 => ⟨S4x16x512x512, .f32⟩
  | 27 => ⟨S512, .i32⟩
  | 28 => ⟨S_, .i32⟩
  | 29 => ⟨S512, .i32⟩
  | 30 => ⟨S512, .i32⟩
  | 31 => ⟨S_, .i32⟩
  | 32 => ⟨S_, .i32⟩
  | 33 => ⟨S_, .i32⟩
  | 34 => ⟨S512, .i32⟩
  | 35 => ⟨S512, .i32⟩
  | 36 => ⟨S_, .i32⟩
  | 37 => ⟨S512, .i32⟩
  | 38 => ⟨S512, .i32⟩
  | 39 => ⟨S512, .i32⟩
  | 40 => ⟨S_, .i32⟩
  | 41 => ⟨S512, .i32⟩
  | 42 => ⟨S512, .i32⟩
  | 43 => ⟨S_, .i32⟩
  | 44 => ⟨S_, .i32⟩
  | 45 => ⟨S_, .i32⟩
  | 46 => ⟨S512, .i32⟩
  | 47 => ⟨S512, .i32⟩
  | 48 => ⟨S_, .i32⟩
  | 49 => ⟨S512, .i32⟩
  | 50 => ⟨S512, .i32⟩
  | 51 => ⟨S_, .i32⟩
  | 52 => ⟨S512, .i32⟩
  | 53 => ⟨S512, .i1⟩
  | 54 => ⟨S_, .i32⟩
  | 55 => ⟨S512, .i32⟩
  | 56 => ⟨S512, .i32⟩
  | 57 => ⟨S512, .i32⟩
  | 58 => ⟨S512x1, .i32⟩
  | 59 => ⟨S4x16x512x512, .f32⟩
  | 60 => ⟨S_, .i32⟩
  | 61 => ⟨S512, .i32⟩
  | 62 => ⟨S512, .i1⟩
  | 63 => ⟨S_, .i32⟩
  | 64 => ⟨S512, .i32⟩
  | 65 => ⟨S512, .i32⟩
  | 66 => ⟨S512, .i32⟩
  | 67 => ⟨S512x1, .i32⟩
  | 68 => ⟨S4x16x512x512, .f32⟩
  | 69 => ⟨S4x1x512x512, .f32⟩
  | 70 => ⟨S4x512x512, .f32⟩
  | 71 => ⟨S4x1x512x512, .f32⟩
  | 72 => ⟨S4x16x512x512, .f32⟩
  | 73 => ⟨S4x16x512x512, .f32⟩
  | 74 => ⟨S4x16x512x512, .f32⟩
  | _ => ⟨S4x9x512x512, .f32⟩

abbrev hbmTy (i : Nat) : BufTy := match i / 128 with
  | 0 => hbmTy0_0 i
  | 1 => hbmTy0_1 i
  | 2 => hbmTy0_2 i
  | 3 => hbmTy0_3 i
  | _ => ⟨S4x9x512x512, .f32⟩

abbrev bufTy : (tb : Table) → Fin (tcTables nBuf tb) → BufTy
  | .hbm, ⟨i, _⟩ => hbmTy i
  | _, _ => ⟨S4x9x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_c_6 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v22 : Ref sig .tc := ⟨.hbm, 38, rfl⟩
abbrev main_v23 : Ref sig .tc := ⟨.hbm, 39, rfl⟩
abbrev main_c_7 : Ref sig .tc := ⟨.hbm, 40, rfl⟩
abbrev main_v24 : Ref sig .tc := ⟨.hbm, 41, rfl⟩
abbrev main_v25 : Ref sig .tc := ⟨.hbm, 42, rfl⟩
abbrev main_c_8 : Ref sig .tc := ⟨.hbm, 43, rfl⟩
abbrev main_c_9 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v26 : Ref sig .tc := ⟨.hbm, 50, rfl⟩
abbrev main_c_10 : Ref sig .tc := ⟨.hbm, 51, rfl⟩
abbrev main_v27 : Ref sig .tc := ⟨.hbm, 52, rfl⟩
abbrev main_v28 : Ref sig .tc := ⟨.hbm, 53, rfl⟩
abbrev main_c_11 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_12 : Ref sig .tc := ⟨.hbm, 60, rfl⟩
abbrev main_v34 : Ref sig .tc := ⟨.hbm, 61, rfl⟩
abbrev main_v35 : Ref sig .tc := ⟨.hbm, 62, rfl⟩
abbrev main_c_13 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_14 : Ref sig .tc := ⟨.hbm, 76, rfl⟩
abbrev main_v48 : Ref sig .tc := ⟨.hbm, 77, rfl⟩
abbrev main_v49 : Ref sig .tc := ⟨.hbm, 78, rfl⟩
abbrev main_c_15 : Ref sig .tc := ⟨.hbm, 79, rfl⟩
abbrev main_c_16 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_v50 : Ref sig .tc := ⟨.hbm, 86, rfl⟩
abbrev main_v51 : Ref sig .tc := ⟨.hbm, 87, rfl⟩
abbrev main_c_17 : Ref sig .tc := ⟨.hbm, 88, rfl⟩
abbrev main_v52 : Ref sig .tc := ⟨.hbm, 89, rfl⟩
abbrev main_v53 : Ref sig .tc := ⟨.hbm, 90, rfl⟩
abbrev main_c_18 : Ref sig .tc := ⟨.hbm, 91, rfl⟩
abbrev main_c_19 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_v54 : Ref sig .tc := ⟨.hbm, 98, rfl⟩
abbrev main_c_20 : Ref sig .tc := ⟨.hbm, 99, rfl⟩
abbrev main_v55 : Ref sig .tc := ⟨.hbm, 100, rfl⟩
abbrev main_v56 : Ref sig .tc := ⟨.hbm, 101, rfl⟩
abbrev main_c_21 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_c_22 : Ref sig .tc := ⟨.hbm, 108, rfl⟩
abbrev main_v62 : Ref sig .tc := ⟨.hbm, 109, rfl⟩
abbrev main_v63 : Ref sig .tc := ⟨.hbm, 110, rfl⟩
abbrev main_c_23 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_c_24 : Ref sig .tc := ⟨.hbm, 124, rfl⟩
abbrev main_v76 : Ref sig .tc := ⟨.hbm, 125, rfl⟩
abbrev main_v77 : Ref sig .tc := ⟨.hbm, 126, rfl⟩
abbrev main_c_25 : Ref sig .tc := ⟨.hbm, 127, rfl⟩
abbrev main_c_26 : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_v78 : Ref sig .tc := ⟨.hbm, 134, rfl⟩
abbrev main_v79 : Ref sig .tc := ⟨.hbm, 135, rfl⟩
abbrev main_c_27 : Ref sig .tc := ⟨.hbm, 136, rfl⟩
abbrev main_v80 : Ref sig .tc := ⟨.hbm, 137, rfl⟩
abbrev main_v81 : Ref sig .tc := ⟨.hbm, 138, rfl⟩
abbrev main_c_28 : Ref sig .tc := ⟨.hbm, 139, rfl⟩
abbrev main_c_29 : Ref sig .tc := ⟨.hbm, 140, rfl⟩
abbrev main_call5_v0 : Ref sig .tc := ⟨.hbm, 141, rfl⟩
abbrev main_call5_v1 : Ref sig .tc := ⟨.hbm, 142, rfl⟩
abbrev main_call5_v2 : Ref sig .tc := ⟨.hbm, 143, rfl⟩
abbrev main_call5_v3 : Ref sig .tc := ⟨.hbm, 144, rfl⟩
abbrev main_call5_v4 : Ref sig .tc := ⟨.hbm, 145, rfl⟩
abbrev main_v82 : Ref sig .tc := ⟨.hbm, 146, rfl⟩
abbrev main_c_30 : Ref sig .tc := ⟨.hbm, 147, rfl⟩
abbrev main_v83 : Ref sig .tc := ⟨.hbm, 148, rfl⟩
abbrev main_v84 : Ref sig .tc := ⟨.hbm, 149, rfl⟩
abbrev main_c_31 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_c_32 : Ref sig .tc := ⟨.hbm, 156, rfl⟩
abbrev main_v90 : Ref sig .tc := ⟨.hbm, 157, rfl⟩
abbrev main_v91 : Ref sig .tc := ⟨.hbm, 158, rfl⟩
abbrev main_c_33 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_c_34 : Ref sig .tc := ⟨.hbm, 172, rfl⟩
abbrev main_v104 : Ref sig .tc := ⟨.hbm, 173, rfl⟩
abbrev main_v105 : Ref sig .tc := ⟨.hbm, 174, rfl⟩
abbrev main_c_35 : Ref sig .tc := ⟨.hbm, 175, rfl⟩
abbrev main_c_36 : Ref sig .tc := ⟨.hbm, 176, rfl⟩
abbrev main_call6_v0 : Ref sig .tc := ⟨.hbm, 177, rfl⟩
abbrev main_call6_v1 : Ref sig .tc := ⟨.hbm, 178, rfl⟩
abbrev main_call6_v2 : Ref sig .tc := ⟨.hbm, 179, rfl⟩
abbrev main_call6_v3 : Ref sig .tc := ⟨.hbm, 180, rfl⟩
abbrev main_call6_v4 : Ref sig .tc := ⟨.hbm, 181, rfl⟩
abbrev main_v106 : Ref sig .tc := ⟨.hbm, 182, rfl⟩
abbrev main_v107 : Ref sig .tc := ⟨.hbm, 183, rfl⟩
abbrev main_c_37 : Ref sig .tc := ⟨.hbm, 184, rfl⟩
abbrev main_v108 : Ref sig .tc := ⟨.hbm, 185, rfl⟩
abbrev main_v109 : Ref sig .tc := ⟨.hbm, 186, rfl⟩
abbrev main_c_38 : Ref sig .tc := ⟨.hbm, 187, rfl⟩
abbrev main_c_39 : Ref sig .tc := ⟨.hbm, 188, rfl⟩
abbrev main_call7_v0 : Ref sig .tc := ⟨.hbm, 189, rfl⟩
abbrev main_call7_v1 : Ref sig .tc := ⟨.hbm, 190, rfl⟩
abbrev main_call7_v2 : Ref sig .tc := ⟨.hbm, 191, rfl⟩
abbrev main_call7_v3 : Ref sig .tc := ⟨.hbm, 192, rfl⟩
abbrev main_call7_v4 : Ref sig .tc := ⟨.hbm, 193, rfl⟩
abbrev main_v110 : Ref sig .tc := ⟨.hbm, 194, rfl⟩
abbrev main_c_40 : Ref sig .tc := ⟨.hbm, 195, rfl⟩
abbrev main_v111 : Ref sig .tc := ⟨.hbm, 196, rfl⟩
abbrev main_v112 : Ref sig .tc := ⟨.hbm, 197, rfl⟩
abbrev main_c_41 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_c_42 : Ref sig .tc := ⟨.hbm, 204, rfl⟩
abbrev main_v118 : Ref sig .tc := ⟨.hbm, 205, rfl⟩
abbrev main_v119 : Ref sig .tc := ⟨.hbm, 206, rfl⟩
abbrev main_c_43 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_c_44 : Ref sig .tc := ⟨.hbm, 220, rfl⟩
abbrev main_v132 : Ref sig .tc := ⟨.hbm, 221, rfl⟩
abbrev main_v133 : Ref sig .tc := ⟨.hbm, 222, rfl⟩
abbrev main_c_45 : Ref sig .tc := ⟨.hbm, 223, rfl⟩
abbrev main_c_46 : Ref sig .tc := ⟨.hbm, 224, rfl⟩
abbrev main_call8_v0 : Ref sig .tc := ⟨.hbm, 225, rfl⟩
abbrev main_call8_v1 : Ref sig .tc := ⟨.hbm, 226, rfl⟩
abbrev main_call8_v2 : Ref sig .tc := ⟨.hbm, 227, rfl⟩
abbrev main_call8_v3 : Ref sig .tc := ⟨.hbm, 228, rfl⟩
abbrev main_call8_v4 : Ref sig .tc := ⟨.hbm, 229, rfl⟩
abbrev main_v134 : Ref sig .tc := ⟨.hbm, 230, rfl⟩
abbrev main_v135 : Ref sig .tc := ⟨.hbm, 231, rfl⟩
abbrev main_c_47 : Ref sig .tc := ⟨.hbm, 232, rfl⟩
abbrev main_v136 : Ref sig .tc := ⟨.hbm, 233, rfl⟩
abbrev main_v137 : Ref sig .tc := ⟨.hbm, 234, rfl⟩
abbrev main_c_48 : Ref sig .tc := ⟨.hbm, 235, rfl⟩
abbrev main_c_49 : Ref sig .tc := ⟨.hbm, 236, rfl⟩
abbrev main_call9_v0 : Ref sig .tc := ⟨.hbm, 237, rfl⟩
abbrev main_call9_v1 : Ref sig .tc := ⟨.hbm, 238, rfl⟩
abbrev main_call9_v2 : Ref sig .tc := ⟨.hbm, 239, rfl⟩
abbrev main_call9_v3 : Ref sig .tc := ⟨.hbm, 240, rfl⟩
abbrev main_call9_v4 : Ref sig .tc := ⟨.hbm, 241, rfl⟩
abbrev main_v138 : Ref sig .tc := ⟨.hbm, 242, rfl⟩
abbrev main_c_50 : Ref sig .tc := ⟨.hbm, 243, rfl⟩
abbrev main_v139 : Ref sig .tc := ⟨.hbm, 244, rfl⟩
abbrev main_v140 : Ref sig .tc := ⟨.hbm, 245, rfl⟩
abbrev main_c_51 : Ref sig .tc := ⟨.hbm, 246, rfl⟩
abbrev main_v141 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_v145 : Ref sig .tc := ⟨.hbm, 251, rfl⟩
abbrev main_c_52 : Ref sig .tc := ⟨.hbm, 252, rfl⟩
abbrev main_v146 : Ref sig .tc := ⟨.hbm, 253, rfl⟩
abbrev main_v147 : Ref sig .tc := ⟨.hbm, 254, rfl⟩
abbrev main_c_53 : Ref sig .tc := ⟨.hbm, 255, rfl⟩
abbrev main_v148 : Ref sig .tc := ⟨.hbm, 256, rfl⟩
abbrev main_v149 : Ref sig .tc := ⟨.hbm, 257, rfl⟩
abbrev main_v150 : Ref sig .tc := ⟨.hbm, 258, rfl⟩
abbrev main_v151 : Ref sig .tc := ⟨.hbm, 259, rfl⟩
abbrev main_v152 : Ref sig .tc := ⟨.hbm, 260, rfl⟩
abbrev main_v153 : Ref sig .tc := ⟨.hbm, 261, rfl⟩
abbrev main_v154 : Ref sig .tc := ⟨.hbm, 262, rfl⟩
abbrev main_v155 : Ref sig .tc := ⟨.hbm, 263, rfl⟩
abbrev main_v156 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_c_54 : Ref sig .tc := ⟨.hbm, 268, rfl⟩
abbrev main_v160 : Ref sig .tc := ⟨.hbm, 269, rfl⟩
abbrev main_v161 : Ref sig .tc := ⟨.hbm, 270, rfl⟩
abbrev main_c_55 : Ref sig .tc := ⟨.hbm, 271, rfl⟩
abbrev main_c_56 : Ref sig .tc := ⟨.hbm, 272, rfl⟩
abbrev main_call10_v0 : Ref sig .tc := ⟨.hbm, 273, rfl⟩
abbrev main_call10_v1 : Ref sig .tc := ⟨.hbm, 274, rfl⟩
abbrev main_call10_v2 : Ref sig .tc := ⟨.hbm, 275, rfl⟩
abbrev main_call10_v3 : Ref sig .tc := ⟨.hbm, 276, rfl⟩
abbrev main_call10_v4 : Ref sig .tc := ⟨.hbm, 277, rfl⟩
abbrev main_v162 : Ref sig .tc := ⟨.hbm, 278, rfl⟩
abbrev main_v163 : Ref sig .tc := ⟨.hbm, 279, rfl⟩
abbrev main_c_57 : Ref sig .tc := ⟨.hbm, 280, rfl⟩
abbrev main_v164 : Ref sig .tc := ⟨.hbm, 281, rfl⟩
abbrev main_v165 : Ref sig .tc := ⟨.hbm, 282, rfl⟩
abbrev main_c_58 : Ref sig .tc := ⟨.hbm, 283, rfl⟩
abbrev main_c_59 : Ref sig .tc := ⟨.hbm, 284, rfl⟩
abbrev main_call11_v0 : Ref sig .tc := ⟨.hbm, 285, rfl⟩
abbrev main_call11_v1 : Ref sig .tc := ⟨.hbm, 286, rfl⟩
abbrev main_call11_v2 : Ref sig .tc := ⟨.hbm, 287, rfl⟩
abbrev main_call11_v3 : Ref sig .tc := ⟨.hbm, 288, rfl⟩
abbrev main_call11_v4 : Ref sig .tc := ⟨.hbm, 289, rfl⟩
abbrev main_v166 : Ref sig .tc := ⟨.hbm, 290, rfl⟩
abbrev main_c_60 : Ref sig .tc := ⟨.hbm, 291, rfl⟩
abbrev main_v167 : Ref sig .tc := ⟨.hbm, 292, rfl⟩
abbrev main_v168 : Ref sig .tc := ⟨.hbm, 293, rfl⟩
abbrev main_c_61 : Ref sig .tc := ⟨.hbm, 294, rfl⟩
abbrev main_v169 : Ref sig .tc := ⟨.hbm, 295, rfl⟩
abbrev main_v170 : Ref sig .tc := ⟨.hbm, 296, rfl⟩
abbrev main_v171 : Ref sig .tc := ⟨.hbm, 297, rfl⟩
abbrev main_v172 : Ref sig .tc := ⟨.hbm, 298, rfl⟩
abbrev main_v173 : Ref sig .tc := ⟨.hbm, 299, rfl⟩
abbrev main_c_62 : Ref sig .tc := ⟨.hbm, 300, rfl⟩
abbrev main_v174 : Ref sig .tc := ⟨.hbm, 301, rfl⟩
abbrev main_v175 : Ref sig .tc := ⟨.hbm, 302, rfl⟩
abbrev main_c_63 : Ref sig .tc := ⟨.hbm, 303, rfl⟩
abbrev main_v176 : Ref sig .tc := ⟨.hbm, 304, rfl⟩
abbrev main_v177 : Ref sig .tc := ⟨.hbm, 305, rfl⟩
abbrev main_v178 : Ref sig .tc := ⟨.hbm, 306, rfl⟩
abbrev main_v179 : Ref sig .tc := ⟨.hbm, 307, rfl⟩
abbrev main_v180 : Ref sig .tc := ⟨.hbm, 308, rfl⟩
abbrev main_v181 : Ref sig .tc := ⟨.hbm, 309, rfl⟩
abbrev main_v182 : Ref sig .tc := ⟨.hbm, 310, rfl⟩
abbrev main_v183 : Ref sig .tc := ⟨.hbm, 311, rfl⟩
abbrev main_v184 : Ref sig .tc := ⟨.hbm, 312, rfl⟩
abbrev main_v185 : Ref sig .tc := ⟨.hbm, 313, rfl⟩
abbrev main_v186 : Ref sig .tc := ⟨.hbm, 314, rfl⟩
abbrev main_v187 : Ref sig .tc := ⟨.hbm, 315, rfl⟩
abbrev main_c_64 : Ref sig .tc := ⟨.hbm, 316, rfl⟩
abbrev main_v188 : Ref sig .tc := ⟨.hbm, 317, rfl⟩
abbrev main_v189 : Ref sig .tc := ⟨.hbm, 318, rfl⟩
abbrev main_c_65 : Ref sig .tc := ⟨.hbm, 319, rfl⟩
abbrev main_c_66 : Ref sig .tc := ⟨.hbm, 320, rfl⟩
abbrev main_call12_v0 : Ref sig .tc := ⟨.hbm, 321, rfl⟩
abbrev main_call12_v1 : Ref sig .tc := ⟨.hbm, 322, rfl⟩
abbrev main_call12_v2 : Ref sig .tc := ⟨.hbm, 323, rfl⟩
abbrev main_call12_v3 : Ref sig .tc := ⟨.hbm, 324, rfl⟩
abbrev main_call12_v4 : Ref sig .tc := ⟨.hbm, 325, rfl⟩
abbrev main_v190 : Ref sig .tc := ⟨.hbm, 326, rfl⟩
abbrev main_v191 : Ref sig .tc := ⟨.hbm, 327, rfl⟩
abbrev main_c_67 : Ref sig .tc := ⟨.hbm, 328, rfl⟩
abbrev main_v192 : Ref sig .tc := ⟨.hbm, 329, rfl⟩
abbrev main_v193 : Ref sig .tc := ⟨.hbm, 330, rfl⟩
abbrev main_c_68 : Ref sig .tc := ⟨.hbm, 331, rfl⟩
abbrev main_c_69 : Ref sig .tc := ⟨.hbm, 332, rfl⟩
abbrev main_call13_v0 : Ref sig .tc := ⟨.hbm, 333, rfl⟩
abbrev main_call13_v1 : Ref sig .tc := ⟨.hbm, 334, rfl⟩
abbrev main_call13_v2 : Ref sig .tc := ⟨.hbm, 335, rfl⟩
abbrev main_call13_v3 : Ref sig .tc := ⟨.hbm, 336, rfl⟩
abbrev main_call13_v4 : Ref sig .tc := ⟨.hbm, 337, rfl⟩
abbrev main_v194 : Ref sig .tc := ⟨.hbm, 338, rfl⟩
abbrev main_c_70 : Ref sig .tc := ⟨.hbm, 339, rfl⟩
abbrev main_v195 : Ref sig .tc := ⟨.hbm, 340, rfl⟩
abbrev main_v196 : Ref sig .tc := ⟨.hbm, 341, rfl⟩
abbrev main_c_71 : Ref sig .tc := ⟨.hbm, 342, rfl⟩
abbrev main_v197 : Ref sig .tc := ⟨.hbm, 343, rfl⟩
abbrev main_v198 : Ref sig .tc := ⟨.hbm, 344, rfl⟩
abbrev main_v199 : Ref sig .tc := ⟨.hbm, 345, rfl⟩
abbrev main_v200 : Ref sig .tc := ⟨.hbm, 346, rfl⟩
abbrev main_v201 : Ref sig .tc := ⟨.hbm, 347, rfl⟩
abbrev main_c_72 : Ref sig .tc := ⟨.hbm, 348, rfl⟩
abbrev main_v202 : Ref sig .tc := ⟨.hbm, 349, rfl⟩
abbrev main_v203 : Ref sig .tc := ⟨.hbm, 350, rfl⟩
abbrev main_c_73 : Ref sig .tc := ⟨.hbm, 351, rfl⟩
abbrev main_v204 : Ref sig .tc := ⟨.hbm, 352, rfl⟩
abbrev main_v205 : Ref sig .tc := ⟨.hbm, 353, rfl⟩
abbrev main_v206 : Ref sig .tc := ⟨.hbm, 354, rfl⟩
abbrev main_v207 : Ref sig .tc := ⟨.hbm, 355, rfl⟩
abbrev main_v208 : Ref sig .tc := ⟨.hbm, 356, rfl⟩
abbrev main_v209 : Ref sig .tc := ⟨.hbm, 357, rfl⟩
abbrev main_v210 : Ref sig .tc := ⟨.hbm, 358, rfl⟩
abbrev main_v211 : Ref sig .tc := ⟨.hbm, 359, rfl⟩
abbrev main_v212 : Ref sig .tc := ⟨.hbm, 360, rfl⟩
abbrev main_v213 : Ref sig .tc := ⟨.hbm, 361, rfl⟩
abbrev main_v214 : Ref sig .tc := ⟨.hbm, 362, rfl⟩
abbrev main_v215 : Ref sig .tc := ⟨.hbm, 363, rfl⟩
abbrev main_c_74 : Ref sig .tc := ⟨.hbm, 364, rfl⟩
abbrev main_v216 : Ref sig .tc := ⟨.hbm, 365, rfl⟩
abbrev main_v217 : Ref sig .tc := ⟨.hbm, 366, rfl⟩
abbrev main_c_75 : Ref sig .tc := ⟨.hbm, 367, rfl⟩
abbrev main_c_76 : Ref sig .tc := ⟨.hbm, 368, rfl⟩
abbrev main_call14_v0 : Ref sig .tc := ⟨.hbm, 369, rfl⟩
abbrev main_call14_v1 : Ref sig .tc := ⟨.hbm, 370, rfl⟩
abbrev main_call14_v2 : Ref sig .tc := ⟨.hbm, 371, rfl⟩
abbrev main_call14_v3 : Ref sig .tc := ⟨.hbm, 372, rfl⟩
abbrev main_call14_v4 : Ref sig .tc := ⟨.hbm, 373, rfl⟩
abbrev main_v218 : Ref sig .tc := ⟨.hbm, 374, rfl⟩
abbrev main_v219 : Ref sig .tc := ⟨.hbm, 375, rfl⟩
abbrev main_c_77 : Ref sig .tc := ⟨.hbm, 376, rfl⟩
abbrev main_v220 : Ref sig .tc := ⟨.hbm, 377, rfl⟩
abbrev main_v221 : Ref sig .tc := ⟨.hbm, 378, rfl⟩
abbrev main_c_78 : Ref sig .tc := ⟨.hbm, 379, rfl⟩
abbrev main_c_79 : Ref sig .tc := ⟨.hbm, 380, rfl⟩
abbrev main_call15_v0 : Ref sig .tc := ⟨.hbm, 381, rfl⟩
abbrev main_call15_v1 : Ref sig .tc := ⟨.hbm, 382, rfl⟩
abbrev main_call15_v2 : Ref sig .tc := ⟨.hbm, 383, rfl⟩
abbrev main_call15_v3 : Ref sig .tc := ⟨.hbm, 384, rfl⟩
abbrev main_call15_v4 : Ref sig .tc := ⟨.hbm, 385, rfl⟩
abbrev main_v222 : Ref sig .tc := ⟨.hbm, 386, rfl⟩
abbrev main_c_80 : Ref sig .tc := ⟨.hbm, 387, rfl⟩
abbrev main_v223 : Ref sig .tc := ⟨.hbm, 388, rfl⟩
abbrev main_v224 : Ref sig .tc := ⟨.hbm, 389, rfl⟩
abbrev main_c_81 : Ref sig .tc := ⟨.hbm, 390, rfl⟩
abbrev main_v225 : Ref sig .tc := ⟨.hbm, 391, rfl⟩
abbrev main_v226 : Ref sig .tc := ⟨.hbm, 392, rfl⟩
abbrev main_v227 : Ref sig .tc := ⟨.hbm, 393, rfl⟩
abbrev main_v228 : Ref sig .tc := ⟨.hbm, 394, rfl⟩
abbrev main_v229 : Ref sig .tc := ⟨.hbm, 395, rfl⟩
abbrev main_c_82 : Ref sig .tc := ⟨.hbm, 396, rfl⟩
abbrev main_v230 : Ref sig .tc := ⟨.hbm, 397, rfl⟩
abbrev main_v231 : Ref sig .tc := ⟨.hbm, 398, rfl⟩
abbrev main_c_83 : Ref sig .tc := ⟨.hbm, 399, rfl⟩
abbrev main_v232 : Ref sig .tc := ⟨.hbm, 400, rfl⟩
abbrev main_v233 : Ref sig .tc := ⟨.hbm, 401, rfl⟩
abbrev main_v234 : Ref sig .tc := ⟨.hbm, 402, rfl⟩
abbrev main_v235 : Ref sig .tc := ⟨.hbm, 403, rfl⟩
abbrev main_v236 : Ref sig .tc := ⟨.hbm, 404, rfl⟩
abbrev main_v237 : Ref sig .tc := ⟨.hbm, 405, rfl⟩
abbrev main_v238 : Ref sig .tc := ⟨.hbm, 406, rfl⟩
abbrev main_v239 : Ref sig .tc := ⟨.hbm, 407, rfl⟩
abbrev main_v240 : Ref sig .tc := ⟨.hbm, 408, rfl⟩
abbrev main_v241 : Ref sig .tc := ⟨.hbm, 409, rfl⟩
abbrev main_v242 : Ref sig .tc := ⟨.hbm, 410, rfl⟩
abbrev main_v243 : Ref sig .tc := ⟨.hbm, 411, rfl⟩
abbrev main_c_84 : Ref sig .tc := ⟨.hbm, 412, rfl⟩
abbrev main_v244 : Ref sig .tc := ⟨.hbm, 413, rfl⟩
abbrev main_v245 : Ref sig .tc := ⟨.hbm, 414, rfl⟩
abbrev main_c_85 : Ref sig .tc := ⟨.hbm, 415, rfl⟩
abbrev main_c_86 : Ref sig .tc := ⟨.hbm, 416, rfl⟩
abbrev main_call16_v0 : Ref sig .tc := ⟨.hbm, 417, rfl⟩
abbrev main_call16_v1 : Ref sig .tc := ⟨.hbm, 418, rfl⟩
abbrev main_call16_v2 : Ref sig .tc := ⟨.hbm, 419, rfl⟩
abbrev main_call16_v3 : Ref sig .tc := ⟨.hbm, 420, rfl⟩
abbrev main_call16_v4 : Ref sig .tc := ⟨.hbm, 421, rfl⟩
abbrev main_v246 : Ref sig .tc := ⟨.hbm, 422, rfl⟩
abbrev main_v247 : Ref sig .tc := ⟨.hbm, 423, rfl⟩
abbrev main_c_87 : Ref sig .tc := ⟨.hbm, 424, rfl⟩
abbrev main_v248 : Ref sig .tc := ⟨.hbm, 425, rfl⟩
abbrev main_v249 : Ref sig .tc := ⟨.hbm, 426, rfl⟩
abbrev main_c_88 : Ref sig .tc := ⟨.hbm, 427, rfl⟩
abbrev main_c_89 : Ref sig .tc := ⟨.hbm, 428, rfl⟩
abbrev main_call17_v0 : Ref sig .tc := ⟨.hbm, 429, rfl⟩
abbrev main_call17_v1 : Ref sig .tc := ⟨.hbm, 430, rfl⟩
abbrev main_call17_v2 : Ref sig .tc := ⟨.hbm, 431, rfl⟩
abbrev main_call17_v3 : Ref sig .tc := ⟨.hbm, 432, rfl⟩
abbrev main_call17_v4 : Ref sig .tc := ⟨.hbm, 433, rfl⟩
abbrev main_v250 : Ref sig .tc := ⟨.hbm, 434, rfl⟩
abbrev main_c_90 : Ref sig .tc := ⟨.hbm, 435, rfl⟩
abbrev main_v251 : Ref sig .tc := ⟨.hbm, 436, rfl⟩
abbrev main_v252 : Ref sig .tc := ⟨.hbm, 437, rfl⟩
abbrev main_c_91 : Ref sig .tc := ⟨.hbm, 438, rfl⟩
abbrev main_v253 : Ref sig .tc := ⟨.hbm, 439, rfl⟩
abbrev main_v254 : Ref sig .tc := ⟨.hbm, 440, rfl⟩
abbrev main_v255 : Ref sig .tc := ⟨.hbm, 441, rfl⟩
abbrev main_v256 : Ref sig .tc := ⟨.hbm, 442, rfl⟩
abbrev main_v257 : Ref sig .tc := ⟨.hbm, 443, rfl⟩
abbrev main_c_92 : Ref sig .tc := ⟨.hbm, 444, rfl⟩
abbrev main_v258 : Ref sig .tc := ⟨.hbm, 445, rfl⟩
abbrev main_v259 : Ref sig .tc := ⟨.hbm, 446, rfl⟩
abbrev main_c_93 : Ref sig .tc := ⟨.hbm, 447, rfl⟩
abbrev main_v260 : Ref sig .tc := ⟨.hbm, 448, rfl⟩
abbrev main_v261 : Ref sig .tc := ⟨.hbm, 449, rfl⟩
abbrev main_v262 : Ref sig .tc := ⟨.hbm, 450, rfl⟩
abbrev main_v263 : Ref sig .tc := ⟨.hbm, 451, rfl⟩
abbrev main_v264 : Ref sig .tc := ⟨.hbm, 452, rfl⟩
abbrev main_v265 : Ref sig .tc := ⟨.hbm, 453, rfl⟩
abbrev main_v266 : Ref sig .tc := ⟨.hbm, 454, rfl⟩
abbrev main_v267 : Ref sig .tc := ⟨.hbm, 455, rfl⟩
abbrev main_v268 : Ref sig .tc := ⟨.hbm, 456, rfl⟩
abbrev main_v269 : Ref sig .tc := ⟨.hbm, 457, rfl⟩
abbrev main_v270 : Ref sig .tc := ⟨.hbm, 458, rfl⟩

abbrev nD : Nat := 1
abbrev τ : Topo := Topo.v7x

variable {F : FTy → Type} [FloatOps F]

class Facts₀ : Prop where
  reducesTo_S4x9x512x512_S4x512x512_d1 : S4x9x512x512.ReducesTo [1] S4x512x512
  h_S_ : 0 < S_.numel
  bcast_S_S4x512x512 : S_.BroadcastsInDim S4x512x512 (![] : Fin 0 → Fin S4x512x512.rank)
  bcast_S4x512x512_S4x1x512x512_0_2_3 : S4x512x512.BroadcastsInDim S4x1x512x512 (![0, 2, 3] : Fin 3 → Fin S4x1x512x512.rank)
  bcast_S4x1x512x512_S4x9x512x512_0_1_2_3 : S4x1x512x512.BroadcastsInDim S4x9x512x512 (![0, 1, 2, 3] : Fin 4 → Fin S4x9x512x512.rank)
  bcast_S_S4x1x512x512 : S_.BroadcastsInDim S4x1x512x512 (![] : Fin 0 → Fin S4x1x512x512.rank)
  bcast_S_S4x16x512x512 : S_.BroadcastsInDim S4x16x512x512 (![] : Fin 0 → Fin S4x16x512x512.rank)
  bcast_S_S512 : S_.BroadcastsInDim S512 (![] : Fin 0 → Fin S512.rank)
  bcast_S512_S512x1_0 : S512.BroadcastsInDim S512x1 (![0] : Fin 1 → Fin S512x1.rank)
  slices_S4x9x512x512_S4x1x512x512_0_0_0_0 : S4x9x512x512.Slices ![0, 0, 0, 0] S4x1x512x512
  shapeCasts_S4x1x512x512_S4x512x512 : S4x1x512x512.ShapeCasts S4x512x512
  bcast_S4x1x512x512_S4x16x512x512_0_1_2_3 : S4x1x512x512.BroadcastsInDim S4x16x512x512 (![0, 1, 2, 3] : Fin 4 → Fin S4x16x512x512.rank)
  slices_S4x9x512x512_S4x1x512x512_0_1_0_0 : S4x9x512x512.Slices ![0, 1, 0, 0] S4x1x512x512
  slices_S4x9x512x512_S4x1x512x512_0_2_0_0 : S4x9x512x512.Slices ![0, 2, 0, 0] S4x1x512x512
  slices_S4x9x512x512_S4x1x512x512_0_3_0_0 : S4x9x512x512.Slices ![0, 3, 0, 0] S4x1x512x512
  slices_S4x9x512x512_S4x1x512x512_0_4_0_0 : S4x9x512x512.Slices ![0, 4, 0, 0] S4x1x512x512
  slices_S4x9x512x512_S4x1x512x512_0_5_0_0 : S4x9x512x512.Slices ![0, 5, 0, 0] S4x1x512x512
  slices_S4x9x512x512_S4x1x512x512_0_6_0_0 : S4x9x512x512.Slices ![0, 6, 0, 0] S4x1x512x512
  slices_S4x9x512x512_S4x1x512x512_0_7_0_0 : S4x9x512x512.Slices ![0, 7, 0, 0] S4x1x512x512
  slices_S4x9x512x512_S4x1x512x512_0_8_0_0 : S4x9x512x512.Slices ![0, 8, 0, 0] S4x1x512x512
  gather_S4x16x512x512_S512x1_S4x16x512x512_013_2_n_n_2_1_4161512_wf : GatherDims.WF S4x16x512x512 S512x1 S4x16x512x512 [0, 1, 3] [2] [] [2] [] 1 ![4, 16, 1, 512]
  gather_S4x16x512x512_S512x1_S4x16x512x512_012_3_n_n_3_1_4165121_wf : GatherDims.WF S4x16x512x512 S512x1 S4x16x512x512 [0, 1, 2] [3] [] [3] [] 1 ![4, 16, 512, 1]

variable [Facts₀]

def gather_S4x16x512x512_S512x1_S4x16x512x512_013_2_n_n_2_1_4161512 : GatherDims S4x16x512x512 S512x1 S4x16x512x512 where
  offsetDims := [0, 1, 3]
  collapsedSliceDims := [2]
  operandBatchingDims := []
  startIndicesBatchingDims := []
  startIndexMap := [2]
  indexVectorDim := 1
  sliceSizes := ![4, 16, 1, 512]
  wf := gather_S4x16x512x512_S512x1_S4x16x512x512_013_2_n_n_2_1_4161512_wf
def gather_S4x16x512x512_S512x1_S4x16x512x512_012_3_n_n_3_1_4165121 : GatherDims S4x16x512x512 S512x1 S4x16x512x512 where
  offsetDims := [0, 1, 2]
  collapsedSliceDims := [3]
  operandBatchingDims := []
  startIndicesBatchingDims := []
  startIndexMap := [3]
  indexVectorDim := 1
  sliceSizes := ![4, 16, 512, 1]
  wf := gather_S4x16x512x512_S512x1_S4x16x512x512_012_3_n_n_3_1_4165121_wf

class Facts : Prop extends Facts₀ where

variable [Facts]
-- ==== Proof.Spec.lean ====
/-
  The mathematics of the affinity-weighted 3×3 averaging, stated once, away from both programs.

  For every pixel (b, h, w) the nine affinities a₀ … a₈ (the channel axis of the first argument) are turned into weights:
  a softmax over the nine — eₖ = exp (aₖ − max a), softₖ = eₖ / Σ e — and then an L¹ normalisation with a floor,
  Aₖ = softₖ / max (Σ |soft|) ε. The result at (b, c, h, w) is the weighted sum, in a fixed order starting from the zero
  word, of the nine neighbours of the second argument's plane (b, c) around (h, w), the neighbour coordinates clamped into
  the plane (replicate padding): Σₖ E(clamp (h + dyₖ), clamp (w + dxₖ)) · Aₖ with (dy, dx) running over {−1, 0, 1}², rows first.
  No law of the extended reals is needed to join the two programs: both compute this very expression tree; what differs is
  how each spells the neighbour (a rotation with the edge row patched in, against a gather at clamped indices) and the
  reductions (folds over the nine).
-/
import Idealize.ShloMosaic.PureOps.Ideal
import Idealize.ShloMosaic.PureOps.Ideal.Laws
import Idealize.ShloMosaic.Lib.ValueIdx

noncomputable section

namespace Cert.Affinity

open Idealize.ShloMosaic Idealize.ShloMosaic.ValueIdx

/-- The three float words the programs share: −∞ (the maxima start from it), zero (the sums start from it) and the
    floor ε of the L¹ norm. They are never evaluated: the same word stands on both sides. -/
abbrev negInf : EReal := Ideal.ofBits .f32 0xFF800000#32
abbrev zeroW : EReal := Ideal.ofBits .f32 0x00000000#32
abbrev epsW : EReal := Ideal.ofBits .f32 0x2B8CBCCC#32

/-- The largest of the nine, folded from −∞. -/
def max9 (a : Fin 9 → EReal) : EReal := (Finset.univ : Finset (Fin 9)).fold max negInf a

/-- eₖ = exp (aₖ − max a). -/
def expShift (a : Fin 9 → EReal) (k : Fin 9) : EReal := Ideal.exp (a k - max9 a)

/-- softₖ = eₖ / Σ e. -/
def soft (a : Fin 9 → EReal) (k : Fin 9) : EReal := Ideal.div (expShift a k) (∑ j : Fin 9, expShift a j)

/-- The weight Aₖ = softₖ / max (Σ |soft|) ε, the absolute value spelt max x (−x). -/
def weight (a : Fin 9 → EReal) (k : Fin 9) : EReal :=
  Ideal.div (soft a k) (max (∑ j : Fin 9, max (soft a j) (-(soft a j))) epsW)

/-- Row or column i − 1, clamped at 0. -/
def prev (i : Fin 512) : Fin 512 := ⟨i.val - 1, by have := i.isLt; omega⟩
/-- Row or column i + 1, clamped at 511. -/
def next (i : Fin 512) : Fin 512 := ⟨min (i.val + 1) 511, by omega⟩

/-- The weighted sum of the nine neighbours of (h, w) in the plane E, rows first, accumulated from the zero word in the
    order both programs use. -/
def stencil (E : Fin 512 → Fin 512 → EReal) (A : Fin 9 → EReal) (h w : Fin 512) : EReal :=
  zeroW + E (prev h) (prev w) * A 0 + E (prev h) w * A 1 + E (prev h) (next w) * A 2
    + E h (prev w) * A 3 + E h w * A 4 + E h (next w) * A 5
    + E (next h) (prev w) * A 6 + E (next h) w * A 7 + E (next h) (next w) * A 8

/-- The whole result as one function of the two argument arrays, index by index. -/
def G (x0 : (⟨4, ![4, 9, 512, 512]⟩ : Shape).Idx → EReal) (x1 : (⟨4, ![4, 16, 512, 512]⟩ : Shape).Idx → EReal) :
    (⟨4, ![4, 16, 512, 512]⟩ : Shape).Idx → EReal :=
  fun i => stencil (fun h w => x1 (ix4 (i 0) (i 1) h w)) (weight fun k => x0 (ix4 (i 0) k (i 2) (i 3))) (i 2) (i 3)

/-- A select on "this coordinate is n": the comparison of two 32-bit words that are both small numbers is the comparison
    of the numbers. -/
theorem select_coord_eq {α : Type} (h n : Nat) (hh : h < 2 ^ 32) (hn : n < 2 ^ 32) (A B : α) :
    Scalar.select (IntOp.cmpi .eq (BitVec.ofNat 32 h) (BitVec.ofNat 32 n)) A B = if h = n then A else B := by
  show (if BitVec.ofBool (BitVec.ofNat 32 h == BitVec.ofNat 32 n) = 1#1 then A else B) = _
  by_cases e : h = n
  · subst e; rw [if_pos rfl, beq_self_eq_true]; exact if_pos rfl
  · have hne : BitVec.ofNat 32 h ≠ BitVec.ofNat 32 n := by
      intro e'
      have := congrArg BitVec.toNat e'
      rw [BitVec.toNat_ofNat, BitVec.toNat_ofNat, Nat.mod_eq_of_lt hh, Nat.mod_eq_of_lt hn] at this
      exact e this
    rw [beq_eq_false_iff_ne.mpr hne, if_neg e]; exact if_neg (by decide)

end Cert.Affinity

end
-- ==== Proof.Shift.lean ====
/-
  A plane's rows or columns moved by one with the edge repeated, the way the kernel spells it: the cyclic rotation of the
  block along the axis, and, selected in where the coordinate is the edge (0 for a move towards higher coordinates, 511 the
  other way), the edge row or column itself, cut out and broadcast back over the axis. Read at an index this is the block at
  the clamped neighbour coordinate: the rotation alone is right everywhere but at the edge, where it wraps around, and
  there the select takes the edge.
-/
import Idealize.ShloMosaic.Lib.Pipeline.Value
import Idealize.ShloMosaic.Lib.ValueIdx
import proofs.«165728_j69587060129919_1_alg».proof.Proof.Spec

noncomputable section

namespace Cert.Affinity

open Idealize.ShloMosaic Idealize.ShloMosaic.ValueIdx

/-- A channel pair's planes, and one row / one column of each. -/
abbrev P3 : Shape := ⟨3, ![2, 512, 512]⟩
abbrev P3row : Shape := ⟨3, ![2, 1, 512]⟩
abbrev P3col : Shape := ⟨3, ![2, 512, 1]⟩

variable {α : Type}

/-- Every row replaced by the one before it (row 0 by itself); likewise the one after (row 511 by itself); and the columns. -/
def rowsPrev (x : P3.Idx → α) : P3.Idx → α := fun j => x (ix3 (j 0) (prev (j 1)) (j 2))
def rowsNext (x : P3.Idx → α) : P3.Idx → α := fun j => x (ix3 (j 0) (next (j 1)) (j 2))
def colsPrev (x : P3.Idx → α) : P3.Idx → α := fun j => x (ix3 (j 0) (j 1) (prev (j 2)))
def colsNext (x : P3.Idx → α) : P3.Idx → α := fun j => x (ix3 (j 0) (j 1) (next (j 2)))

/-- Rotation by one along the rows with row 0 selected in at coordinate 0: every row is the previous one, clamped. -/
theorem rotate_patch_rowsPrev (x : P3.Idx → α) (hi : P3.Iotas .tc 32 [1]) (hs : P3.Slices ![0, 0, 0] P3row)
    (hc : P3row.ShapeCasts P3row) (hb : P3row.Broadcasts P3) (hr : P3.Rotates 1 none) :
    select (cmpi .eq (iota .tc P3 32 [1] hi) (broadcast P3 0#32))
        (broadcastTo P3 (shapeCast P3row (extractStridedSlice P3row ![0, 0, 0] x hs) hc) hb) (dynamicRotate 1 1#32 none x hr)
      = rowsPrev x := by
  funext j
  obtain ⟨q, h, w, rfl⟩ : ∃ (q : Fin 2) (h w : Fin 512), j = ix3 q h w := ⟨j 0, j 1, j 2, eq_ix3 j⟩
  show Scalar.select (IntOp.cmpi .eq (iota .tc P3 32 [1] hi (ix3 q h w)) (BitVec.ofNat 32 0)) _ _ = _
  rw [iota_single_apply, select_coord_eq _ _ (by have := h.isLt; show h.val < _; omega) (by omega)]
  by_cases h0 : h.val = 0
  · rw [if_pos h0, shapeCast_self]
    refine (broadcastTo_apply _ hb (ix3 q h w) (ix3 q ⟨0, by decide⟩ w) (fun a => ?_)).trans ?_
    · match a with
      | ⟨0, _⟩ => show q.val = if (2 : Nat) = 1 then 0 else q.val; rw [if_neg (by decide)]
      | ⟨1, _⟩ => show 0 = if (1 : Nat) = 1 then 0 else h.val; rw [if_pos rfl]
      | ⟨2, _⟩ => show w.val = if (512 : Nat) = 1 then 0 else w.val; rw [if_neg (by decide)]
    refine (extractStridedSlice_apply ![0, 0, 0] x hs _ (ix3 q ⟨0, by decide⟩ w) (fun a => ?_)).trans ?_
    · match a with
      | ⟨0, _⟩ => show q.val = 0 + q.val; omega
      | ⟨1, _⟩ => show 0 = 0 + 0; omega
      | ⟨2, _⟩ => show w.val = 0 + w.val; omega
    exact congrArg x (congrArg (fun r => ix3 q r w) (Fin.ext (by show 0 = h.val - 1; omega)))
  · rw [if_neg h0]
    unfold dynamicRotate rowsPrev
    refine congrArg x (funext fun b => Fin.ext ?_)
    match b with
    | ⟨0, _⟩ => rfl
    | ⟨1, _⟩ =>
      show (h.val + 512 - (1 + 0) % 512) % 512 = h.val - 1
      have := h.isLt; omega
    | ⟨2, _⟩ => rfl

/-- Rotation by 511 (one step the other way) along the rows with row 511 selected in at coordinate 511: every row is the next one, clamped. -/
theorem rotate_patch_rowsNext (x : P3.Idx → α) (hi : P3.Iotas .tc 32 [1]) (hs : P3.Slices ![0, 511, 0] P3row)
    (hc : P3row.ShapeCasts P3row) (hb : P3row.Broadcasts P3) (hr : P3.Rotates 1 none) :
    select (cmpi .eq (iota .tc P3 32 [1] hi) (broadcast P3 511#32))
        (broadcastTo P3 (shapeCast P3row (extractStridedSlice P3row ![0, 511, 0] x hs) hc) hb) (dynamicRotate 1 511#32 none x hr)
      = rowsNext x := by
  funext j
  obtain ⟨q, h, w, rfl⟩ : ∃ (q : Fin 2) (h w : Fin 512), j = ix3 q h w := ⟨j 0, j 1, j 2, eq_ix3 j⟩
  show Scalar.select (IntOp.cmpi .eq (iota .tc P3 32 [1] hi (ix3 q h w)) (BitVec.ofNat 32 511)) _ _ = _
  rw [iota_single_apply, select_coord_eq _ _ (by have := h.isLt; show h.val < _; omega) (by omega)]
  by_cases h0 : h.val = 511
  · rw [if_pos h0, shapeCast_self]
    refine (broadcastTo_apply _ hb (ix3 q h w) (ix3 q ⟨0, by decide⟩ w) (fun a => ?_)).trans ?_
    · match a with
      | ⟨0, _⟩ => show q.val = if (2 : Nat) = 1 then 0 else q.val; rw [if_neg (by decide)]
      | ⟨1, _⟩ => show 0 = if (1 : Nat) = 1 then 0 else h.val; rw [if_pos rfl]
      | ⟨2, _⟩ => show w.val = if (512 : Nat) = 1 then 0 else w.val; rw [if_neg (by decide)]
    refine (extractStridedSlice_apply ![0, 511, 0] x hs _ (ix3 q ⟨511, by decide⟩ w) (fun a => ?_)).trans ?_
    · match a with
      | ⟨0, _⟩ => show q.val = 0 + q.val; omega
      | ⟨1, _⟩ => show 511 = 511 + 0; omega
      | ⟨2, _⟩ => show w.val = 0 + w.val; omega
    exact congrArg x (congrArg (fun r => ix3 q r w) (Fin.ext (by show 511 = min (h.val + 1) 511; omega)))
  · rw [if_neg h0]
    unfold dynamicRotate rowsNext
    refine congrArg x (funext fun b => Fin.ext ?_)
    match b with
    | ⟨0, _⟩ => rfl
    | ⟨1, _⟩ =>
      show (h.val + 512 - (511 + 0) % 512) % 512 = min (h.val + 1) 511
      have := h.isLt; omega
    | ⟨2, _⟩ => rfl

/-- Rotation by one along the columns with column 0 selected in at coordinate 0: every column is the previous one, clamped. -/
theorem rotate_patch_colsPrev (x : P3.Idx → α) (hi : P3.Iotas .tc 32 [2]) (hs : P3.Slices ![0, 0, 0] P3col)
    (hc : P3col.ShapeCasts P3col) (hb : P3col.Broadcasts P3) (hr : P3.Rotates 2 none) :
    select (cmpi .eq (iota .tc P3 32 [2] hi) (broadcast P3 0#32))
        (broadcastTo P3 (shapeCast P3col (extractStridedSlice P3col ![0, 0, 0] x hs) hc) hb) (dynamicRotate 2 1#32 none x hr)
      = colsPrev x := by
  funext j
  obtain ⟨q, h, w, rfl⟩ : ∃ (q : Fin 2) (h w : Fin 512), j = ix3 q h w := ⟨j 0, j 1, j 2, eq_ix3 j⟩
  show Scalar.select (IntOp.cmpi .eq (iota .tc P3 32 [2] hi (ix3 q h w)) (BitVec.ofNat 32 0)) _ _ = _
  rw [iota_single_apply, select_coord_eq _ _ (by have := w.isLt; show w.val < _; omega) (by omega)]
  by_cases h0 : w.val = 0
  · rw [if_pos h0, shapeCast_self]
    refine (broadcastTo_apply _ hb (ix3 q h w) (ix3 q h ⟨0, by decide⟩) (fun a => ?_)).trans ?_
    · match a with
      | ⟨0, _⟩ => show q.val = if (2 : Nat) = 1 then 0 else q.val; rw [if_neg (by decide)]
      | ⟨1, _⟩ => show h.val = if (512 : Nat) = 1 then 0 else h.val; rw [if_neg (by decide)]
      | ⟨2, _⟩ => show 0 = if (1 : Nat) = 1 then 0 else w.val; rw [if_pos rfl]
    refine (extractStridedSlice_apply ![0, 0, 0] x hs _ (ix3 q h ⟨0, by decide⟩) (fun a => ?_)).trans ?_
    · match a with
      | ⟨0, _⟩ => show q.val = 0 + q.val; omega
      | ⟨1, _⟩ => show h.val = 0 + h.val; omega
      | ⟨2, _⟩ => show 0 = 0 + 0; omega
    exact congrArg x (congrArg (fun r => ix3 q h r) (Fin.ext (by show 0 = w.val - 1; omega)))
  · rw [if_neg h0]
    unfold dynamicRotate colsPrev
    refine congrArg x (funext fun b => Fin.ext ?_)
    match b with
    | ⟨0, _⟩ => rfl
    | ⟨1, _⟩ => rfl
    | ⟨2, _⟩ =>
      show (w.val + 512 - (1 + 0) % 512) % 512 = w.val - 1
      have := w.isLt; omega

/-- Rotation by 511 (one step the other way) along the columns with column 511 selected in at coordinate 511: every column is the next one, clamped. -/
theorem rotate_patch_colsNext (x : P3.Idx → α) (hi : P3.Iotas .tc 32 [2]) (hs : P3.Slices ![0, 0, 511] P3col)
    (hc : P3col.ShapeCasts P3col) (hb : P3col.Broadcasts P3) (hr : P3.Rotates 2 none) :
    select (cmpi .eq (iota .tc P3 32 [2] hi) (broadcast P3 511#32))
        (broadcastTo P3 (shapeCast P3col (extractStridedSlice P3col ![0, 0, 511] x hs) hc) hb) (dynamicRotate 2 511#32 none x hr)
      = colsNext x := by
  funext j
  obtain ⟨q, h, w, rfl⟩ : ∃ (q : Fin 2) (h w : Fin 512), j = ix3 q h w := ⟨j 0, j 1, j 2, eq_ix3 j⟩
  show Scalar.select (IntOp.cmpi .eq (iota .tc P3 32 [2] hi (ix3 q h w)) (BitVec.ofNat 32 511)) _ _ = _
  rw [iota_single_apply, select_coord_eq _ _ (by have := w.isLt; show w.val < _; omega) (by omega)]
  by_cases h0 : w.val = 511
  · rw [if_pos h0, shapeCast_self]
    refine (broadcastTo_apply _ hb (ix3 q h w) (ix3 q h ⟨0, by decide⟩) (fun a => ?_)).trans ?_
    · match a with
      | ⟨0, _⟩ => show q.val = if (2 : Nat) = 1 then 0 else q.val; rw [if_neg (by decide)]
      | ⟨1, _⟩ => show h.val = if (512 : Nat) = 1 then 0 else h.val; rw [if_neg (by decide)]
      | ⟨2, _⟩ => show 0 = if (1 : Nat) = 1 then 0 else w.val; rw [if_pos rfl]
    refine (extractStridedSlice_apply ![0, 0, 511] x hs _ (ix3 q h ⟨511, by decide⟩) (fun a => ?_)).trans ?_
    · match a with
      | ⟨0, _⟩ => show q.val = 0 + q.val; omega
      | ⟨1, _⟩ => show h.val = 0 + h.val; omega
      | ⟨2, _⟩ => show 511 = 511 + 0; omega
    exact congrArg x (congrArg (fun r => ix3 q h r) (Fin.ext (by show 511 = min (w.val + 1) 511; omega)))
  · rw [if_neg h0]
    unfold dynamicRotate colsNext
    refine congrArg x (funext fun b => Fin.ext ?_)
    match b with
    | ⟨0, _⟩ => rfl
    | ⟨1, _⟩ => rfl
    | ⟨2, _⟩ =>
      show (w.val + 512 - (511 + 0) % 512) % 512 = min (w.val + 1) 511
      have := w.isLt; omega

end Cert.Affinity

end
-- ==== Proof.SoftmaxBlock.lean ====
/-
  The kernel's weights, over an arbitrary block of nine planes: the maximum over the nine (a reduction along the leading
  axis, re-shaped to one plane and broadcast back over the nine), the exponentials of the differences, their sum the same
  way, the quotient, the sum of the quotients' absolute values, floored at ε, and the second quotient. Read at plane k,
  pixel (h, w), it is the weight Aₖ of the nine entries at that pixel. Also here: how one plane of a stack, cut out, re-shaped
  and broadcast over a channel pair, reads.
-/
import Idealize.ShloMosaic.Lib.Pipeline.Value
import Idealize.ShloMosaic.Lib.ValueIdx
import Idealize.ShloMosaic.PureOps.Ideal.Laws
import proofs.«165728_j69587060129919_1_alg».proof.Proof.Spec

noncomputable section

namespace Cert.Affinity

open Idealize.ShloMosaic Idealize.ShloMosaic.ValueIdx

/-- Nine planes; one plane; one plane as a stack of one; a channel pair's planes. -/
abbrev A3 : Shape := ⟨3, ![9, 512, 512]⟩
abbrev Pl : Shape := ⟨2, ![512, 512]⟩
abbrev Pl1 : Shape := ⟨3, ![1, 512, 512]⟩
abbrev C3 : Shape := ⟨3, ![2, 512, 512]⟩

variable {α : Type}

/-- A plane, as a stack of one, broadcast over n planes: every plane is that plane. -/
theorem bcast_stack1 (n : Nat) (z : Pl1.Idx → α) (hb : Pl1.Broadcasts ⟨3, ![n, 512, 512]⟩) (k : Fin n) (h w : Fin 512) :
    broadcastTo ⟨3, ![n, 512, 512]⟩ z hb (ix3 k h w) = z (ix3 ⟨0, Nat.one_pos⟩ h w) :=
  broadcastTo_apply z hb (ix3 k h w) (ix3 ⟨0, Nat.one_pos⟩ h w) (fun a => by
    match a with
    | ⟨0, _⟩ => show 0 = if (1 : Nat) = 1 then 0 else k.val; rw [if_pos rfl]
    | ⟨1, _⟩ => show h.val = if (512 : Nat) = 1 then 0 else h.val; rw [if_neg (by decide)]
    | ⟨2, _⟩ => show w.val = if (512 : Nat) = 1 then 0 else w.val; rw [if_neg (by decide)])

/-- A plane re-shaped to a stack of one reads the plane. -/
theorem plane_as_stack1 (y : Pl.Idx → α) (hc : Pl.ShapeCasts Pl1) (h w : Fin 512) :
    shapeCast Pl1 y hc (ix3 ⟨0, Nat.one_pos⟩ h w) = y (ix2 h w) :=
  (shapeCast_addUnit_apply ![512, 512] y hc (ix3 ⟨0, Nat.one_pos⟩ h w)).trans
    (congrArg y (funext fun a => by match a with | ⟨0, _⟩ => rfl | ⟨1, _⟩ => rfl))

/-- The index (h, w) of the reduced planes with plane k put back is (k, h, w). -/
theorem lift_plane (hr : A3.Reduces [0] Pl) (h w : Fin 512) (k : Fin 9) : hr.lift (ix2 h w) k = ix3 k h w := by
  funext a; apply Fin.ext
  match a with
  | ⟨0, _⟩ => rfl
  | ⟨1, _⟩ => rfl
  | ⟨2, _⟩ => rfl

/-- The kernel's weights over a block of nine planes A, each intermediate vector named (M the maximum broadcast back, Ev the
    exponentials, S their sum broadcast back, Sf the softmax, L the L¹ norm as a stack of one): at plane k, pixel
    (h, w), the result is the weight Aₖ of the nine entries of A at that pixel. -/
theorem weights_of_block (A M Ev S Sf : FVec Ideal A3 .f32) (L : FVec Ideal Pl1 .f32) (hr : A3.Reduces [0] Pl) (hφ : FKind.Formats .f32)
    (hm : (0xFF800000#32 : BitVec 32) = FKind.maximumf.neutral .f32 hφ) (ha : (0x00000000#32 : BitVec 32) = FKind.add.neutral .f32 hφ)
    (hc : Pl.ShapeCasts Pl1) (hb : Pl1.Broadcasts A3)
    (hM : M = broadcastTo A3 (shapeCast Pl1 (multiReduction .maximumf [0] Pl A 0xFF800000#32 hr hφ hm) hc) hb)
    (hE : Ev = exp (subf A M))
    (hS : S = broadcastTo A3 (shapeCast Pl1 (multiReduction .add [0] Pl Ev 0x00000000#32 hr hφ ha) hc) hb)
    (hSf : Sf = divf Ev S)
    (hL : L = shapeCast Pl1 (multiReduction .add [0] Pl (absf Sf) 0x00000000#32 hr hφ ha) hc) :
    divf Sf (broadcastTo A3 (maximumf L (broadcast Pl1 (Scalar.ofBits .f32 0x2B8CBCCC#32))) hb)
      = fun j => weight (fun k => A (ix3 k (j 1) (j 2))) (j 0) := by
  funext j
  obtain ⟨k, h, w, rfl⟩ : ∃ (k : Fin 9) (h w : Fin 512), j = ix3 k h w := ⟨j 0, j 1, j 2, eq_ix3 j⟩
  show _ = weight (fun k' => A (ix3 k' h w)) k
  generalize hae : (fun k' : Fin 9 => A (ix3 k' h w)) = a
  have hA : ∀ k' : Fin 9, A (ix3 k' h w) = a k' := fun k' => congrFun hae k'
  have hmax : ∀ k' : Fin 9, M (ix3 k' h w) = max9 a := by
    intro k'
    rw [hM, bcast_stack1 9 _ hb k' h w, plane_as_stack1 _ hc h w, Ideal.multiReduction_maximumf_single A _ hr hφ hm]
    exact congrArg (fun f => Finset.fold max (Ideal.ofBits .f32 0xFF800000#32) f (Finset.univ : Finset (Fin 9)))
      (funext fun k'' => (congrArg A (lift_plane hr h w k'')).trans (hA k''))
  have he : ∀ k' : Fin 9, Ev (ix3 k' h w) = expShift a k' := by
    intro k'
    rw [hE]
    show Ideal.exp (A (ix3 k' h w) - M (ix3 k' h w)) = _
    rw [hmax k', hA k']; rfl
  have hs : ∀ k' : Fin 9, S (ix3 k' h w) = ∑ j : Fin 9, expShift a j := by
    intro k'
    rw [hS, bcast_stack1 9 _ hb k' h w, plane_as_stack1 _ hc h w, Ideal.multiReduction_add_single Ev _ hr hφ ha]
    exact Finset.sum_congr rfl fun k'' _ => by rw [lift_plane hr h w k'']; exact he k''
  have hsf : ∀ k' : Fin 9, Sf (ix3 k' h w) = soft a k' := by
    intro k'
    rw [hSf]
    show Ideal.div (Ev (ix3 k' h w)) (S (ix3 k' h w)) = _
    rw [he k', hs k']; rfl
  have hl : L (ix3 ⟨0, Nat.one_pos⟩ h w) = ∑ j : Fin 9, max (soft a j) (-(soft a j)) := by
    rw [hL, plane_as_stack1 _ hc h w, Ideal.multiReduction_add_single (absf Sf) _ hr hφ ha]
    refine Finset.sum_congr rfl fun k'' _ => ?_
    rw [lift_plane hr h w k'']
    show max (Sf (ix3 k'' h w)) (-(Sf (ix3 k'' h w))) = _
    rw [hsf k'']
  show Ideal.div (Sf (ix3 k h w)) (broadcastTo A3 (maximumf L (broadcast Pl1 (Scalar.ofBits .f32 0x2B8CBCCC#32))) hb (ix3 k h w)) = _
  rw [hsf k, bcast_stack1 9 _ hb k h w]
  show Ideal.div (soft a k) (max (L (ix3 ⟨0, Nat.one_pos⟩ h w)) epsW) = _
  rw [hl]; rfl

/-- Plane k of a stack of nine, cut out, re-shaped to a plane and back to a stack of one, and broadcast over a channel pair:
    at (q, h, w) it is the stack at (k, h, w). -/
theorem plane_of_stack (W : A3.Idx → α) (k : Nat) (hs : A3.Slices ![k, 0, 0] Pl1) (hc1 : Pl1.ShapeCasts Pl) (hc : Pl.ShapeCasts Pl1)
    (hb : Pl1.Broadcasts C3) (hk : k < 9) :
    broadcastTo C3 (shapeCast Pl1 (shapeCast Pl (extractStridedSlice Pl1 ![k, 0, 0] W hs) hc1) hc) hb
      = fun j => W (ix3 ⟨k, hk⟩ (j 1) (j 2)) := by
  funext j
  obtain ⟨q, h, w, rfl⟩ : ∃ (q : Fin 2) (h w : Fin 512), j = ix3 q h w := ⟨j 0, j 1, j 2, eq_ix3 j⟩
  rw [bcast_stack1 2 _ hb q h w, plane_as_stack1 _ hc h w]
  refine (shapeCast_dropUnit_apply ![512, 512] _ hc1 (ix2 h w)).trans ?_
  refine (extractStridedSlice_apply ![k, 0, 0] W hs _ (ix3 ⟨k, hk⟩ h w) (fun a => ?_))
  match a with
  | ⟨0, _⟩ => show k = k + 0; omega
  | ⟨1, _⟩ => show h.val = 0 + h.val; omega
  | ⟨2, _⟩ => show w.val = 0 + w.val; omega

end Cert.Affinity

end
-- ==== Proof.KernelPixel.lean ====
/-
  What the kernel body leaves in the output block, pixel by pixel: with W the weights of the nine affinity planes of the
  block (SoftmaxBlock) and E the channel pair's two planes, the stored block at (q, h, w) is the nine-neighbour weighted sum
  of E's plane q around (h, w) with the weights at (h, w) — each neighbour the body's rotation with the edge selected in
  (Shift), each weight plane cut out of W and broadcast over the pair (SoftmaxBlock), multiplied and added in the
  program's order.
-/
import proofs.«165728_j69587060129919_1_alg».proof.Proof.Gen.KernelIdeal.Frame
import proofs.«165728_j69587060129919_1_alg».proof.Proof.Spec
import proofs.«165728_j69587060129919_1_alg».proof.Proof.Shift
import proofs.«165728_j69587060129919_1_alg».proof.Proof.SoftmaxBlock
import Idealize.ShloMosaic.Lib.Pipeline.Value
import Idealize.ShloMosaic.Lib.ValueIdx

noncomputable section

namespace Cert.KernelIdeal.Pixel

open Cert.KernelIdeal Cert.KernelIdeal.Gen Cert.Affinity Idealize.ShloMosaic Idealize.ShloMosaic.ValueIdx

/-- The channel pair's planes of the loaded block. -/
theorem pay2_apply (x1 : Vec Ideal S1x2x512x512 .f32) (j : S2x512x512.Idx) :
    k0_pay2 x1 j = x1 (Fin.cons ⟨0, Nat.one_pos⟩ j) :=
  shapeCast_dropUnit_apply ![2, 512, 512] x1 _ j

/-- The weights of the loaded block of nine planes. -/
theorem pay1_eq (x0 : Vec Ideal S1x9x512x512 .f32) :
    k0_pay1 x0 = fun j => weight (fun k => x0 (Fin.cons ⟨0, Nat.one_pos⟩ (ix3 k (j 1) (j 2)))) (j 0) := by
  refine (weights_of_block (shapeCast S9x512x512 x0 shapeCasts_S1x9x512x512_S9x512x512) _ _ _ _ _ reduces_S9x512x512_S512x512 (.inl rfl) rfl rfl
    shapeCasts_S512x512_S1x512x512 broadcasts_S1x512x512_S9x512x512 rfl rfl rfl rfl rfl).trans ?_
  funext j
  exact congrArg (fun a => weight a (j 0))
    (funext fun k => shapeCast_dropUnit_apply ![9, 512, 512] x0 shapeCasts_S1x9x512x512_S9x512x512 (ix3 k (j 1) (j 2)))

theorem pay4_eq (x1 : Vec Ideal S1x2x512x512 .f32) : k0_pay4 x1 = rowsPrev (k0_pay2 x1) := by
  unfold k0_pay4
  exact rotate_patch_rowsPrev (k0_pay2 x1) _ _ _ _ _

theorem pay5_eq (x1 : Vec Ideal S1x2x512x512 .f32) : k0_pay5 x1 = colsPrev (rowsPrev (k0_pay2 x1)) := by
  unfold k0_pay5
  rw [pay4_eq]
  exact rotate_patch_colsPrev _ _ _ _ _ _

theorem pay6_eq (x0 : Vec Ideal S1x9x512x512 .f32) : k0_pay6 x0 = fun j => k0_pay1 x0 (ix3 ⟨0, by decide⟩ (j 1) (j 2)) := by
  unfold k0_pay6
  exact plane_of_stack (k0_pay1 x0) 0 _ _ _ _ (by decide)

theorem pay8_eq (E : FVec Ideal S2x512x512 .f32) : k0_pay8 E = colsNext E := by
  unfold k0_pay8
  exact rotate_patch_colsNext E _ _ _ _ _

theorem pay9_eq (W : FVec Ideal S9x512x512 .f32) : k0_pay9 W = fun j => W (ix3 ⟨5, by decide⟩ (j 1) (j 2)) := by
  unfold k0_pay9
  exact plane_of_stack W 5 _ _ _ _ (by decide)

theorem pay7_eq (W : FVec Ideal S9x512x512 .f32) (E z r1 r2 a0 : FVec Ideal S2x512x512 .f32) :
    k0_pay7 W E z r1 r2 a0 = fun j => z j + r2 j * a0 j + r1 j * W (ix3 ⟨1, by decide⟩ (j 1) (j 2))
      + colsNext r1 j * W (ix3 ⟨2, by decide⟩ (j 1) (j 2)) + colsPrev E j * W (ix3 ⟨3, by decide⟩ (j 1) (j 2))
      + E j * W (ix3 ⟨4, by decide⟩ (j 1) (j 2)) := by
  unfold k0_pay7
  dsimp only
  rw [rotate_patch_colsNext r1, rotate_patch_colsPrev E, plane_of_stack W 1 _ _ _ _ (by decide), plane_of_stack W 2 _ _ _ _ (by decide),
    plane_of_stack W 3 _ _ _ _ (by decide), plane_of_stack W 4 _ _ _ _ (by decide)]
  rfl

theorem pay10_eq (W : FVec Ideal S9x512x512 .f32) (E v82 v90 v94 : FVec Ideal S2x512x512 .f32) :
    k0_pay10 W E v82 v90 v94 = shapeCast S1x2x512x512 (fun j => v82 j + v90 j * v94 j
      + colsPrev (rowsNext E) j * W (ix3 ⟨6, by decide⟩ (j 1) (j 2)) + rowsNext E j * W (ix3 ⟨7, by decide⟩ (j 1) (j 2))
      + colsNext (rowsNext E) j * W (ix3 ⟨8, by decide⟩ (j 1) (j 2))) shapeCasts_S2x512x512_S1x2x512x512 := by
  unfold k0_pay10
  dsimp only
  rw [rotate_patch_rowsNext E, rotate_patch_colsPrev (rowsNext E), rotate_patch_colsNext (rowsNext E),
    plane_of_stack W 6 _ _ _ _ (by decide), plane_of_stack W 7 _ _ _ _ (by decide), plane_of_stack W 8 _ _ _ _ (by decide)]
  rfl

/-- THE STORED BLOCK AT A PIXEL: plane q of the channel pair, pixel (h, w), is the nine-neighbour weighted sum of that plane of
    the loaded embedding block with the weights of the loaded affinity block at the pixel. -/
theorem payload_pixel (x0 : Vec Ideal S1x9x512x512 .f32) (x1 : Vec Ideal S1x2x512x512 .f32) (q : Fin 2) (h w : Fin 512) :
    k0_pay10 (k0_pay1 x0) (k0_pay2 x1) (k0_pay7 (k0_pay1 x0) (k0_pay2 x1) (k0_pay3 (F := Ideal)) (k0_pay4 x1) (k0_pay5 x1) (k0_pay6 x0))
        (k0_pay8 (k0_pay2 x1)) (k0_pay9 (k0_pay1 x0)) (ix4 ⟨0, Nat.one_pos⟩ q h w)
      = stencil (fun h' w' => x1 (Fin.cons ⟨0, Nat.one_pos⟩ (ix3 q h' w')))
          (weight fun k => x0 (Fin.cons ⟨0, Nat.one_pos⟩ (ix3 k h w))) h w := by
  rw [pay10_eq, pay7_eq, pay8_eq, pay9_eq, pay4_eq, pay5_eq, pay6_eq, pay1_eq, funext (pay2_apply x1)]
  refine (shapeCast_addUnit_apply ![2, 512, 512] _ _ (ix4 ⟨0, Nat.one_pos⟩ q h w)).trans ?_
  have hj : (fun a : Fin 3 => ix4 (⟨0, Nat.one_pos⟩ : Fin 1) q h w a.succ) = ix3 q h w :=
    funext fun a => by match a with | ⟨0, _⟩ => rfl | ⟨1, _⟩ => rfl | ⟨2, _⟩ => rfl
  rw [hj]
  unfold stencil colsPrev colsNext rowsPrev rowsNext
  dsimp only
  rfl

end Cert.KernelIdeal.Pixel

end
-- ==== Proof.KernelValue.lean ====
/-
  From the blocks to the whole output array. The grid has 4 × 8 points; point (b, c) stages affinity block b (all nine
  planes), embedding channels 2c and 2c + 1 of batch b, and writes back the same two channels of the output. With the
  stored block known pixel by pixel (KernelPixel), block t of the output is block t of the specification G of the two
  argument arrays: an input block's coordinate is the block index times the block extent plus the coordinate inside the
  block, and the 3 × 3 neighbourhood never leaves a plane, which every block holds whole. The 32 blocks tile the array.
-/
import proofs.«165728_j69587060129919_1_alg».proof.Proof.Gen.KernelIdeal.Value
import proofs.«165728_j69587060129919_1_alg».proof.Proof.KernelPixel
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Value Cert.KernelIdeal.Pixel Cert.Affinity
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl

/-- The printed index maps, decided over the 32 grid points: the affinity window follows the output's batch index and
    stays at zero elsewhere; the embedding window is the output window; planes are never split. -/
theorem idx_facts : ∀ t : Fin cfg0.N, win0_0.index t (0 : Fin 4) = win0_2.index t (0 : Fin 4)
    ∧ win0_0.index t (1 : Fin 4) = 0 ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (2 : Fin 4) = 0 ∧ win0_2.index t (3 : Fin 4) = 0
    ∧ win0_2.index t (0 : Fin 4) ≤ 3 ∧ win0_2.index t (1 : Fin 4) ≤ 7 :=
  (by decide +kernel : ∀ t : Fin grid0.N, _)

/-- Every (batch, channel pair) is some point's output block. -/
theorem idx_onto : ∀ (q0 : Fin 4) (q1 : Fin 8), ∃ t : Fin cfg0.N, win0_2.index t = ![q0.val, q1.val, 0, 0] :=
  (by decide +kernel : ∀ (q0 : Fin 4) (q1 : Fin 8), ∃ t : Fin grid0.N, win0_2.index t = ![q0.val, q1.val, 0, 0])

/-- WHAT POINT t WRITES BACK is block t of the specification of the argument arrays. -/
theorem flushed_eq (c : Dev nD) (t : Fin cfg0.N) :
    (dats m 0 c).flushed 2 t = ((cfg0.win 2).blk t).view.read (Elt Ideal) (G (V m c main_arg0) (V m c main_arg1)) := by
  rw [flushed2]
  unfold out0_2
  rw [View.canon_unit_zero hz4]
  simp only [View.ld_unit_zero (S := S1x9x512x512) hz4, View.ld_unit_zero (S := S1x2x512x512) hz4]
  obtain ⟨e0, e1, e2, e3, e4, e5, e6, e7, e8, e9, e10, e11⟩ := idx_facts t
  funext j
  obtain ⟨p, q, h, w, rfl⟩ : ∃ (p : Fin 1) (q : Fin 2) (h w : Fin 512), j = ix4 p q h w := ⟨j 0, j 1, j 2, j 3, eq_ix4 j⟩
  obtain rfl : p = ⟨0, Nat.one_pos⟩ := Subsingleton.elim _ _
  have hemb : ((cfg0.win 2).blk t).view.emb (ix4 (⟨0, Nat.one_pos⟩ : Fin 1) q h w)
      = ix4 (⟨win0_2.index t (0 : Fin 4), by omega⟩ : Fin 4) (⟨win0_2.index t (1 : Fin 4) * 2 + q.val, by have := q.isLt; omega⟩ : Fin 16) h w := by
    funext a; apply Fin.ext
    match a with
    | ⟨0, _⟩ => show win0_2.index t (0 : Fin 4) * 1 + 1 * 0 = win0_2.index t (0 : Fin 4); omega
    | ⟨1, _⟩ => show win0_2.index t (1 : Fin 4) * 2 + 1 * q.val = win0_2.index t (1 : Fin 4) * 2 + q.val; omega
    | ⟨2, _⟩ => show win0_2.index t (2 : Fin 4) * 512 + 1 * h.val = h.val; omega
    | ⟨3, _⟩ => show win0_2.index t (3 : Fin 4) * 512 + 1 * w.val = w.val; omega
  change _ = G (V m c main_arg0) (V m c main_arg1) (((cfg0.win 2).blk t).view.emb (ix4 (⟨0, Nat.one_pos⟩ : Fin 1) q h w))
  rw [hemb]
  refine (payload_pixel (iblk m c 0 t) (iblk m c 1 t) q h w).trans ?_
  have hE : (fun h' w' : Fin 512 => iblk m c 1 t (Fin.cons ⟨0, Nat.one_pos⟩ (ix3 q h' w')))
      = fun h' w' => V m c main_arg1 (ix4 (⟨win0_2.index t (0 : Fin 4), by omega⟩ : Fin 4) (⟨win0_2.index t (1 : Fin 4) * 2 + q.val, by have := q.isLt; omega⟩ : Fin 16) h' w') := by
    funext h' w'
    show V m c main_arg1 (((cfg0.win 1).blk t).view.emb (Fin.cons ⟨0, Nat.one_pos⟩ (ix3 q h' w'))) = _
    refine congrArg _ (funext fun a => Fin.ext ?_)
    match a with
    | ⟨0, _⟩ => show win0_1.index t (0 : Fin 4) * 1 + 1 * 0 = win0_2.index t (0 : Fin 4); omega
    | ⟨1, _⟩ => show win0_1.index t (1 : Fin 4) * 2 + 1 * q.val = win0_2.index t (1 : Fin 4) * 2 + q.val; omega
    | ⟨2, _⟩ => show win0_1.index t (2 : Fin 4) * 512 + 1 * h'.val = h'.val; omega
    | ⟨3, _⟩ => show win0_1.index t (3 : Fin 4) * 512 + 1 * w'.val = w'.val; omega
  have hW : (fun k : Fin 9 => iblk m c 0 t (Fin.cons ⟨0, Nat.one_pos⟩ (ix3 k h w)))
      = fun k => V m c main_arg0 (ix4 (⟨win0_2.index t (0 : Fin 4), by omega⟩ : Fin 4) k h w) := by
    funext k
    show V m c main_arg0 (((cfg0.win 0).blk t).view.emb (Fin.cons ⟨0, Nat.one_pos⟩ (ix3 k h w))) = _
    refine congrArg _ (funext fun a => Fin.ext ?_)
    match a with
    | ⟨0, _⟩ => show win0_0.index t (0 : Fin 4) * 1 + 1 * 0 = win0_2.index t (0 : Fin 4); omega
    | ⟨1, _⟩ => show win0_0.index t (1 : Fin 4) * 9 + 1 * k.val = k.val; omega
    | ⟨2, _⟩ => show win0_0.index t (2 : Fin 4) * 512 + 1 * h.val = h.val; omega
    | ⟨3, _⟩ => show win0_0.index t (3 : Fin 4) * 512 + 1 * w.val = w.val; omega
  rw [hE, hW]
  rfl

/-- An index of the output is in point t's block iff each coordinate is in the block's range on its axis. -/
theorem mem_blk (t : Fin cfg0.N) (i : S4x16x512x512.Idx) :
    i ∈ ((cfg0.win 2).blk t).view.set ↔ ∀ a : Fin 4, win0_2.index t a * S1x2x512x512.size a ≤ (i a).val
      ∧ (i a).val < win0_2.index t a * S1x2x512x512.size a + S1x2x512x512.size a := by
  show i ∈ ((View.whole main_v0).slice (win0_2.rect t)).set ↔ _
  rw [View.set_slice_whole, Rect.mem_set_unit]
  exact Iff.rfl

/-- The 32 blocks tile the output: index (b, ch, h, w) is in the block of the point with batch b and channel pair ch / 2. -/
theorem cover (i : S4x16x512x512.Idx) : ∃ t : Fin cfg0.N, (cfg0.win 2).flush t = true ∧ i ∈ ((cfg0.win 2).blk t).view.set := by
  have hi0 : (i 0).val < 4 := (i 0).isLt
  have hi1 : (i 1).val < 16 := (i 1).isLt
  have hi2 : (i 2).val < 512 := (i 2).isLt
  have hi3 : (i 3).val < 512 := (i 3).isLt
  obtain ⟨t, ht⟩ := idx_onto ⟨(i 0).val, hi0⟩ ⟨(i 1).val / 2, by omega⟩
  have q0 : win0_2.index t (0 : Fin 4) = (i 0).val := congrFun ht 0
  have q1 : win0_2.index t (1 : Fin 4) = (i 1).val / 2 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 2 ≤ (i 1).val ∧ (i 1).val < win0_2.index t (1 : Fin 4) * 2 + 2; omega
  | ⟨2, _⟩ => show win0_2.index t (2 : Fin 4) * 512 ≤ (i 2).val ∧ (i 2).val < win0_2.index t (2 : Fin 4) * 512 + 512; omega
  | ⟨3, _⟩ => show win0_2.index t (3 : Fin 4) * 512 ≤ (i 3).val ∧ (i 3).val < win0_2.index t (3 : Fin 4) * 512 + 512; omega

/-- THE OUTPUT ARRAY after the run is the specification of the argument arrays as launched. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) cover

/-- The kernel's run, read: every weakly fair execution ends with the output at the specification of the arguments and the
    arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefOps.lean ====
/-
  The reference's @main as a list of its host operations — every result buffer written once, each operation a pure function
  of buffers written before it — and the three facts a straight-line program's run is read from: @main IS the sequence of
  these operations, the signature scopes nothing, and every buffer an operation touches is a TensorCore buffer.
-/
import proofs.«165728_j69587060129919_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
/-- @main's 457 operations, in order; the six operations of each of the eighteen clip calls stand in the call's place, over the
    call's own buffers. -/
abbrev ops : List (HloOp τ sig (Elt F)) :=
  [ nullary main_cst (constant S_ .f32 0xFF800000#32),
    binary main_arg0 main_cst main_v0 ((fun x v => Host.reduce FloatOps.maximumf x v reducesTo_S4x9x512x512_S4x512x512_d1 h_S_) : (⟨S4x9x512x512, .f32⟩ : BufTy).Contents (Elt F) → (⟨S_, .f32⟩ : BufTy).Contents (Elt F) → (⟨S4x512x512, .f32⟩ : BufTy).Contents (Elt F)),
    nullary main_cst_0 (constant S_ .f32 0xFF800000#32),
    unary main_cst_0 main_v1 (broadcastInDim S4x512x512 ![] bcast_S_S4x512x512 : (⟨S_, .f32⟩ : BufTy).Contents (Elt F) → (⟨S4x512x512, .f32⟩ : BufTy).Contents (Elt F)),
    binary main_v1 main_v0 main_v2 (maximumf : (⟨S4x512x512, .f32⟩ : BufTy).Contents (Elt F) → (⟨S4x512x512, .f32⟩ : BufTy).Contents (Elt F) → (⟨S4x512x512, .f32⟩ : BufTy).Contents (Elt F)),
    unary main_v2 main_v3 (broadcastInDim S4x1x512x512 ![0, 2, 3] bcast_S4x512x512_S4x1x512x512_0_2_3 : (⟨S4x512x512, .f32⟩ : BufTy).Contents (Elt F) → (⟨S4x1x512x512, .f32⟩ : BufTy).Contents (Elt F)),
    unary main_v3 main_v4 (broadcastInDim S4x9x512x512 ![0, 1, 2, 3] bcast_S4x1x512x512_S4x9x512x512_0_1_2_3 : (⟨S4x1x512x512, .f32⟩ : BufTy).Contents (Elt F) → (⟨S4x9x512x512, .f32⟩ : BufTy).Contents (Elt F)),
    binary main_arg0 main_v4 main_v5 (subf : (⟨S4x9x512x512, .f32⟩ : BufTy).Contents (Elt F) → (⟨S4x9x512x512, .f32⟩ : BufTy).Contents (Elt F) → (⟨S4x9x512x512, .f32⟩ : BufTy).Contents (Elt F)),
    unary main_v5 main_v6 (Host.exp : (⟨S4x9x512x512, .f32⟩ : BufTy).Contents (Elt F) → (⟨S4x9x512x512, .f32⟩ : BufTy).Contents (Elt F)),
    nullary main_cst_1 (constant S_ .f32 0x00000000#32),
    binary main_v6 main_cst_1 main_v7 ((fun x v => Host.reduceAdd x v reducesTo_S4x9x512x512_S4x512x512_d1 h_S_) : (⟨S4x9x512x512, .f32⟩ : BufTy).Contents (Elt F) → (⟨S_, .f32⟩ : BufTy).Contents (Elt F) → (⟨S4x512x512, .f32⟩ : BufTy).Contents (Elt F)),
    unary main_v7 main_v8 (broadcastInDim S4x1x512x512 ![0, 2, 3] bcast_S4x512x512_S4x1x512x512_0_2_3 : (⟨S4x512x512, .f32⟩ : BufTy).Contents (Elt F) → (⟨S4x1x512x512, .f32⟩ : BufTy).Contents (Elt F)),
    unary main_v8 main_v9 (broadcastInDim S4x9x512x512 ![0, 1, 2, 3] bcast_S4x1x512x512_S4x9x512x512_0_1_2_3 : (⟨S4x1x512x512, .f32⟩ : BufTy).Contents (Elt F) → (⟨S4x9x512x512, .f32⟩ : BufTy).Contents (Elt F)),
    binary main_v6 main_v9 main_v10 (Host.divf : (⟨S4x9x512x512, .f32⟩ : BufTy).Contents (Elt F) → (⟨S4x9x512x512, .f32⟩ : BufTy).Contents (Elt F) → (⟨S4x9x512x512, .f32⟩ : BufTy).Contents (Elt F)),
    unary main_v10 main_v11 (Host.absf : (⟨S4x9x512x512, .f32⟩ : BufTy).Contents (Elt F) → (⟨S4x9x512x512, .f32⟩ : BufTy).Contents (Elt F)),
    nullary main_cst_2 (constant S_ .f32 0x00000000#32),
    binary main_v11 main_cst_2 main_v12 ((fun x v => Host.reduceAdd x v reducesTo_S4x9x512x512_S4x512x512_d1 h_S_) : (⟨S4x9x512x512, .f32⟩ : BufTy).Contents (Elt F) → (⟨S_, .f32⟩ : BufTy).Contents (Elt F) → (⟨S4x512x512, .f32⟩ : BufTy).Contents (Elt F)),
    unary main_v12 main_v13 (broadcastInDim S4x1x512x512 ![0, 2, 3] bcast_S4x512x512_S4x1x512x512_0_2_3 : (⟨S4x512x512, .f32⟩ : BufTy).Contents (Elt F) → (⟨S4x1x512x512, .f32⟩ : BufTy).Contents (Elt F)),
    nullary main_cst_3 (constant S_ .f32 0x2B8CBCCC#32),
    unary main_cst_3 main_v14 (broadcastInDim S4x1x512x512 ![] bcast_S_S4x1x512x512 : (⟨S_, .f32⟩ : BufTy).Contents (Elt F) → (⟨S4x1x512x512, .f32⟩ : BufTy).Contents (Elt F)),
    binary main_v13 main_v14 main_v15 (maximumf : (⟨S4x1x512x512, .f32⟩ : BufTy).Contents (Elt F) → (⟨S4x1x512x512, .f32⟩ : BufTy).Contents (Elt F) → (⟨S4x1x512x512, .f32⟩ : BufTy).Contents (Elt F)),
    unary main_v15 main_v16 (broadcastInDim S4x9x512x512 ![0, 1, 2, 3] bcast_S4x1x512x512_S4x9x512x512_0_1_2_3 : (⟨S4x1x512x512, .f32⟩ : BufTy).Contents (Elt F) → (⟨S4x9x512x512, .f32⟩ : BufTy).Contents (Elt F)),
    binary main_v10 main_v16 main_v17 (Host.divf : (⟨S4x9x512x512, .f32⟩ : BufTy).Contents (Elt F) → (⟨S4x9x512x512, .f32⟩ : BufTy).Contents (Elt F) → (⟨S4x9x512x512, .f32⟩ : BufTy).Contents (Elt F)),
    nullary main_cst_4 (constant S_ .f32 0x00000000#32),
    unary main_cst_4 main_v18 (broadcastInDim S4x16x512x512 ![] bcast_S_S4x16x512x512 : (⟨S_, .f32⟩ : BufTy).Contents (Elt F) → (⟨S4x16x512x512, .f32⟩ : BufTy).Contents (Elt F)),
    nullary main_v19 (iotaInDim S512 32 0),
    nullary main_c (constantI S_ 32 4294967295#32),
    unary main_c main_v20 (broadcastInDim S512 ![] bcast_S_S512 : (⟨S_, .i32⟩ : BufTy).Contents (Elt F) → (⟨S512, .i32⟩ : BufTy).Contents (Elt F)),
    binary main_v19 main_v20 main_v21 (addi : (⟨S512, .i32⟩ : BufTy).Contents (Elt F) → (⟨S512, .i32⟩ : BufTy).Contents (Elt F) → (⟨S512, .i32⟩ : BufTy).Contents (Elt F)),
    nullary main_c_5 (constantI S_ 32 0#32),
    nullary main_c_6 (constantI S_ 32 511#32),
    unary main_c_5 main_call0_v0 (id : (⟨S_, .i32⟩ : BufTy).Contents (Elt F) → (⟨S_, .i32⟩ : BufTy).Contents (Elt F)),
    unary main_call0_v0 main_call0_v1 ((broadcastInDim S512 ![] bcast_S_S512) : (⟨S_, .i32⟩ : BufTy).Contents (Elt F) → (⟨S512, .i32⟩ : BufTy).Contents (Elt F)),
    binary main_call0_v1 main_v21 main_call0_v2 (maxsi : (⟨S512, .i32⟩ : BufTy).Contents (Elt F) → (⟨S512, .i32⟩ : BufTy).Contents (Elt F) → (⟨S512, .i32⟩ : BufTy).Contents (Elt F)),
    unary main_c_6 main_call0_v3 (id : (⟨S_, .i32⟩ : BufTy).Contents (Elt F) → (⟨S_, .i32⟩ : BufTy).Contents (Elt F)),
    unary main_call0_v3 main_call0_v4 ((broadcastInDim S512 ![] bcast_S_S512) : (⟨S_, .i32⟩ : BufTy).Contents (Elt F) → (⟨S512, .i32⟩ : BufTy).Contents (Elt F)),
    binary main_call0_v4 main_call0_v2 main_v22 (minsi : (⟨S512, .i32⟩ : BufTy).Contents (Elt F) → (⟨S512, .i32⟩ : BufTy).Contents (Elt F) → (⟨S512, .i32⟩ : BufTy).Contents (Elt F)),
    nullary main_v23 (iotaInDim S512 32 0),
    nullary main_c_7 (constantI S_ 32 4294967295#32),
    unary main_c_7 main_v24 (broadcastInDim S512 ![] bcast_S_S512 : (⟨S_, .i32⟩ : BufTy).Contents (Elt F) → (⟨S512, .i32⟩ : BufTy).Contents (Elt F)),
    binary main_v23 main_v24 main_v25 (addi : (⟨S512, .i32⟩ : BufTy).Contents (Elt F) → (⟨S512, .i32⟩ : BufTy).Contents (Elt F) → (⟨S512, .i32⟩ : BufTy).Contents (Elt F)),
    nullary main_c_8 (constantI S_ 32 0#32),
    nullary main_c_9 (constantI S_ 32 511#32),
    unary main_c_8 main_call1_v0 (id : (⟨S_, .i32⟩ : BufTy).Contents (Elt F) → (⟨S_, .i32⟩ : BufTy).Contents (Elt F)),
    unary main_call1_v0 main_call1_v1 ((broadcastInDim S512 ![] bcast_S_S512) : (⟨S_, .i32⟩ : BufTy).Contents (Elt F) → (⟨S512, .i32⟩ : BufTy).Contents (Elt F)),
    binary main_call1_v1 main_v25 main_call1_v2 (maxsi : (⟨S512, .i32⟩ : BufTy).Contents (Elt F) → (⟨S512, .i32⟩ : BufTy).Contents (Elt F) → (⟨S512, .i32⟩ : BufTy).Contents (Elt F)),
    unary main_c_9 main_call1_v3 (id : (⟨S_, .i32⟩ : BufTy).Contents (Elt F) → (⟨S_, .i32⟩ : BufTy).Contents (Elt F)),
    unary main_call1_v3 main_call1_v4 ((broadcastInDim S512 ![] bcast_S_S512) : (⟨S_, .i32⟩ : BufTy).Contents (Elt F) → (⟨S512, .i32⟩ : BufTy).Contents (Elt F)),
    binary main_call1_v4 main_call1_v2 main_v26 (minsi : (⟨S512, .i32⟩ : BufTy).Contents (Elt F) → (⟨S512, .i32⟩ : BufTy).Contents (Elt F) → (⟨S512, .i32⟩ : BufTy).Contents (Elt F)),
    nullary main_c_10 (constantI S_ 32 0#32),
    unary main_c_10 main_v27 (broadcastInDim S512 ![] bcast_S_S512 : (⟨S_, .i32⟩ : BufTy).Contents (Elt F) → (⟨S512, .i32⟩ : BufTy).Contents (Elt F)),
    binary main_v22 main_v27 main_v28 (cmpi .slt : (⟨S512, .i32⟩ : BufTy).Contents (Elt F) → (⟨S512, .i32⟩ : BufTy).Contents (Elt F) → (⟨S512, .i1⟩ : BufTy).Contents (Elt F)),
    nullary main_c_11 (constantI S_ 32 512#32),
    unary main_c_11 main_v29 (broadcastInDim S512 ![] bcast_S_S512 : (⟨S_, .i32⟩ : BufTy).Contents (Elt F) → (⟨S512, .i32⟩ : BufTy).Contents (Elt F)),
    binary main_v22 main_v29 main_v30 (addi : (⟨S512, .i32⟩ : BufTy).Contents (Elt F) → (⟨S512, .i32⟩ : BufTy).Contents (Elt F) → (⟨S512, .i32⟩ : BufTy).Contents (Elt F)),
    ternary main_v28 main_v30 main_v22 main_v31 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v31 main_v32 (broadcastInDim S512x1 ![0] bcast_S512_S512x1_0 : (⟨S512, .i32⟩ : BufTy).Contents (Elt F) → (⟨S512x1, .i32⟩ : BufTy).Contents (Elt F)),
    binary main_arg1 main_v32 main_v33 ((fun x i => Host.gather gather_S4x16x512x512_S512x1_S4x16x512x512_013_2_n_n_2_1_4161512 x i) : (⟨S4x16x512x512, .f32⟩ : BufTy).Contents (Elt F) → (⟨S512x1, .i32⟩ : BufTy).Contents (Elt F) → (⟨S4x16x512x512, .f32⟩ : BufTy).Contents (Elt F)),
    nullary main_c_12 (constantI S_ 32 0#32),
    unary main_c_12 main_v34 (broadcastInDim S512 ![] bcast_S_S512 : (⟨S_, .i32⟩ : BufTy).Contents (Elt F) → (⟨S512, .i32⟩ : BufTy).Contents (Elt F)),
    binary main_v26 main_v34 main_v35 (cmpi .slt : (⟨S512, .i32⟩ : BufTy).Contents (Elt F) → (⟨S512, .i32⟩ : BufTy).Contents (Elt F) → (⟨S512, .i1⟩ : BufTy).Contents (Elt F)),
    nullary main_c_13 (constantI S_ 32 512#32),
    unary main_c_13 main_v36 (broadcastInDim S512 ![] bcast_S_S512 : (⟨S_, .i32⟩ : BufTy).Contents (Elt F) → (⟨S512, .i32⟩ : BufTy).Contents (Elt F)),
    binary main_v26 main_v36 main_v37 (addi : (⟨S512, .i32⟩ : BufTy).Contents (Elt F) → (⟨S512, .i32⟩ : BufTy).Contents (Elt F) → (⟨S512, .i32⟩ : BufTy).Contents (Elt F)),
    ternary main_v35 main_v37 main_v26 main_v38 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v38 main_v39 (broadcastInDim S512x1 ![0] bcast_S512_S512x1_0 : (⟨S512, .i32⟩ : BufTy).Contents (Elt F) → (⟨S512x1, .i32⟩ : BufTy).Contents (Elt F)),
    binary main_v33 main_v39 main_v40 ((fun x i => Host.gather gather_S4x16x512x512_S512x1_S4x16x512x512_012_3_n_n_3_1_4165121 x i) : (⟨S4x16x512x512, .f32⟩ : BufTy).Contents (Elt F) → (⟨S512x1, .i32⟩ : BufTy).Contents (Elt F) → (⟨S4x16x512x512, .f32⟩ : BufTy).Contents (Elt F)),
    unary main_v17 main_v41 ((extractStridedSlice S4x1x512x512 ![0, 0, 0, 0] · slices_S4x9x512x512_S4x1x512x512_0_0_0_0) : (⟨S4x9x512x512, .f32⟩ : BufTy).Contents (Elt F) → (⟨S4x1x512x512, .f32⟩ : BufTy).Contents (Elt F)),
    reshape main_v41 main_v42 rfl shapeCasts_S4x1x512x512_S4x512x512,
    unary main_v42 main_v43 (broadcastInDim S4x1x512x512 ![0, 2, 3] bcast_S4x512x512_S4x1x512x512_0_2_3 : (⟨S4x512x512, .f32⟩ : BufTy).Contents (Elt F) → (⟨S4x1x512x512, .f32⟩ : BufTy).Contents (Elt F)),
    unary main_v43 main_v44 (broadcastInDim S4x16x512x512 ![0, 1, 2, 3] bcast_S4x1x512x512_S4x16x512x512_0_1_2_3 : (⟨S4x1x512x512, .f32⟩ : BufTy).Contents (Elt F) → (⟨S4x16x512x512, .f32⟩ : BufTy).Contents (Elt F)),
    binary main_v40 main_v44 main_v45 (mulf : (⟨S4x16x512x512, .f32⟩ : BufTy).Contents (Elt F) → (⟨S4x16x512x512, .f32⟩ : BufTy).Contents (Elt F) → (⟨S4x16x512x512, .f32⟩ : BufTy).Contents (Elt F)),
    binary main_v18 main_v45 main_v46 (addf : (⟨S4x16x512x512, .f32⟩ : BufTy).Contents (Elt F) → (⟨S4x16x512x512, .f32⟩ : BufTy).Contents (Elt F) → (⟨S4x16x512x512, .f32⟩ : BufTy).Contents (Elt F)),
    nullary main_v47 (iotaInDim S512 32 0),
    nullary main_c_14 (constantI S_ 32 4294967295#32),
    unary main_c_14 main_v48 (broadcastInDim S512 ![] bcast_S_S512 : (⟨S_, .i32⟩ : BufTy).Contents (Elt F) → (⟨S512, .i32⟩ : BufTy).Contents (Elt F)),
    binary main_v47 main_v48 main_v49 (addi : (⟨S512, .i32⟩ : BufTy).Contents (Elt F) → (⟨S512, .i32⟩ : BufTy).Contents (Elt F) → (⟨S512, .i32⟩ : BufTy).Contents (Elt F)),
    nullary main_c_15 (constantI S_ 32 0#32),
    nullary main_c_16 (constantI S_ 32 511#32),
    unary main_c_15 main_call2_v0 (id : (⟨S_, .i32⟩ : BufTy).Contents (Elt F) → (⟨S_, .i32⟩ : BufTy).Contents (Elt F)),
    unary main_call2_v0 main_call2_v1 ((broadcastInDim S512 ![] bcast_S_S512) : (⟨S_, .i32⟩ : BufTy).Contents (Elt F) → (⟨S512, .i32⟩ : BufTy).Contents (Elt F)),
    binary main_call2_v1 main_v49 main_call2_v2 (maxsi : (⟨S512, .i32⟩ : BufTy).Contents (Elt F) → (⟨S512, .i32⟩ : BufTy).Contents (Elt F) → (⟨S512, .i32⟩ : BufTy).Contents (Elt F)),
    unary main_c_16 main_call2_v3 (id : (⟨S_, .i32⟩ : BufTy).Contents (Elt F) → (⟨S_, .i32⟩ : BufTy).Contents (Elt F)),
    unary main_call2_v3 main_call2_v4 ((broadcastInDim S512 ![] bcast_S_S512) : (⟨S_, .i32⟩ : BufTy).Contents (Elt F) → (⟨S512, .i32⟩ : BufTy).Contents (Elt F)),
    binary main_call2_v4 main_call2_v2 main_v50 (minsi : (⟨S512, .i32⟩ : BufTy).Contents (Elt F) → (⟨S512, .i32⟩ : BufTy).Contents (Elt F) → (⟨S512, .i32⟩ : BufTy).Contents (Elt F)),
    nullary main_v51 (iotaInDim S512 32 0),
    nullary main_c_17 (constantI S_ 32 0#32),
    unary main_c_17 main_v52 (broadcastInDim S512 ![] bcast_S_S512 : (⟨S_, .i32⟩ : BufTy).Contents (Elt F) → (⟨S512, .i32⟩ : BufTy).Contents (Elt F)),
    binary main_v51 main_v52 main_v53 (addi : (⟨S512, .i32⟩ : BufTy).Contents (Elt F) → (⟨S512, .i32⟩ : BufTy).Contents (Elt F) → (⟨S512, .i32⟩ : BufTy).Contents (Elt F)),
    nullary main_c_18 (constantI S_ 32 0#32),
    nullary main_c_19 (constantI S_ 32 511#32),
    unary main_c_18 main_call3_v0 (id : (⟨S_, .i32⟩ : BufTy).Contents (Elt F) → (⟨S_, .i32⟩ : BufTy).Contents (Elt F)),
    unary main_call3_v0 main_call3_v1 ((broadcastInDim S512 ![] bcast_S_S512) : (⟨S_, .i32⟩ : BufTy).Contents (Elt F) → (⟨S512, .i32⟩ : BufTy).Contents (Elt F)),
    binary main_call3_v1 main_v53 main_call3_v2 (maxsi : (⟨S512, .i32⟩ : BufTy).Contents (Elt F) → (⟨S512, .i32⟩ : BufTy).Contents (Elt F) → (⟨S512, .i32⟩ : BufTy).Contents (Elt F)),
    unary main_c_19 main_call3_v3 (id : (⟨S_, .i32⟩ : BufTy).Contents (Elt F) → (⟨S_, .i32⟩ : BufTy).Contents (Elt F)),
    unary main_call3_v3 main_call3_v4 ((broadcastInDim S512 ![] bcast_S_S512) : (⟨S_, .i32⟩ : BufTy).Contents (Elt F) → (⟨S512, .i32⟩ : BufTy).Contents (Elt F)),
    binary main_call3_v4 main_call3_v2 main_v54 (minsi : (⟨S512, .i32⟩ : BufTy).Contents (Elt F) → (⟨S512, .i32⟩ : BufTy).Contents (Elt F) → (⟨S512, .i32⟩ : BufTy).Contents (Elt F)),
    nullary main_c_20 (constantI S_ 32 0#32),
    unary main_c_20 main_v55 (broadcastInDim S512 ![] bcast_S_S512 : (⟨S_, .i32⟩ : BufTy).Contents (Elt F) → (⟨S512, .i32⟩ : BufTy).Contents (Elt F)),
    binary main_v50 main_v55 main_v56 (cmpi .slt : (⟨S512, .i32⟩ : BufTy).Contents (Elt F) → (⟨S512, .i32⟩ : BufTy).Contents (Elt F) → (⟨S512, .i1⟩ : BufTy).Contents (Elt F)),
    nullary main_c_21 (constantI S_ 32 512#32),
    unary main_c_21 main_v57 (broadcastInDim S512 ![] bcast_S_S512 : (⟨S_, .i32⟩ : BufTy).Contents (Elt F) → (⟨S512, .i32⟩ : BufTy).Contents (Elt F)),
    binary main_v50 main_v57 main_v58 (addi : (⟨S512, .i32⟩ : BufTy).Contents (Elt F) → (⟨S512, .i32⟩ : BufTy).Contents (Elt F) → (⟨S512, .i32⟩ : BufTy).Contents (Elt F)),
    ternary main_v56 main_v58 main_v50 main_v59 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v59 main_v60 (broadcastInDim S512x1 ![0] bcast_S512_S512x1_0 : (⟨S512, .i32⟩ : BufTy).Contents (Elt F) → (⟨S512x1, .i32⟩ : BufTy).Contents (Elt F)),
    binary main_arg1 main_v60 main_v61 ((fun x i => Host.gather gather_S4x16x512x512_S512x1_S4x16x512x512_013_2_n_n_2_1_4161512 x i) : (⟨S4x16x512x512, .f32⟩ : BufTy).Contents (Elt F) → (⟨S512x1, .i32⟩ : BufTy).Contents (Elt F) → (⟨S4x16x512x512, .f32⟩ : BufTy).Contents (Elt F)),
    nullary main_c_22 (constantI S_ 32 0#32),
    unary main_c_22 main_v62 (broadcastInDim S512 ![] bcast_S_S512 : (⟨S_, .i32⟩ : BufTy).Contents (Elt F) → (⟨S512, .i32⟩ : BufTy).Contents (Elt F)),
    binary main_v54 main_v62 main_v63 (cmpi .slt : (⟨S512, .i32⟩ : BufTy).Contents (Elt F) → (⟨S512, .i32⟩ : BufTy).Contents (Elt F) → (⟨S512, .i1⟩ : BufTy).Contents (Elt F)),
    nullary main_c_23 (constantI S_ 32 512#32),
    unary main_c_23 main_v64 (broadcastInDim S512 ![] bcast_S_S512 : (⟨S_, .i32⟩ : BufTy).Contents (Elt F) → (⟨S512, .i32⟩ : BufTy).Contents (Elt F)),
    binary main_v54 main_v64 main_v65 (addi : (⟨S512, .i32⟩ : BufTy).Contents (Elt F) → (⟨S512, .i32⟩ : BufTy).Contents (Elt F) → (⟨S512, .i32⟩ : BufTy).Contents (Elt F)),
    ternary main_v63 main_v65 main_v54 main_v66 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v66 main_v67 (broadcastInDim S512x1 ![0] bcast_S512_S512x1_0 : (⟨S512, .i32⟩ : BufTy).Contents (Elt F) → (⟨S512x1, .i32⟩ : BufTy).Contents (Elt F)),
    binary main_v61 main_v67 main_v68 ((fun x i => Host.gather gather_S4x16x512x512_S512x1_S4x16x512x512_012_3_n_n_3_1_4165121 x i) : (⟨S4x16x512x512, .f32⟩ : BufTy).Contents (Elt F) → (⟨S512x1, .i32⟩ : BufTy).Contents (Elt F) → (⟨S4x16x512x512, .f32⟩ : BufTy).Contents (Elt F)),
    unary main_v17 main_v69 ((extractStridedSlice S4x1x512x512 ![0, 1, 0, 0] · slices_S4x9x512x512_S4x1x512x512_0_1_0_0) : (⟨S4x9x512x512, .f32⟩ : BufTy).Contents (Elt F) → (⟨S4x1x512x512, .f32⟩ : BufTy).Contents (Elt F)),
    reshape main_v69 main_v70 rfl shapeCasts_S4x1x512x512_S4x512x512,
    unary main_v70 main_v71 (broadcastInDim S4x1x512x512 ![0, 2, 3] bcast_S4x512x512_S4x1x512x512_0_2_3 : (⟨S4x512x512, .f32⟩ : BufTy).Contents (Elt F) → (⟨S4x1x512x512, .f32⟩ : BufTy).Contents (Elt F)),
    unary main_v71 main_v72 (broadcastInDim S4x16x512x512 ![0, 1, 2, 3] bcast_S4x1x512x512_S4x16x512x512_0_1_2_3 : (⟨S4x1x512x512, .f32⟩ : BufTy).Contents (Elt F) → (⟨S4x16x512x512, .f32⟩ : BufTy).Contents (Elt F)),
    binary main_v68 main_v72 main_v73 (mulf : (⟨S4x16x512x512, .f32⟩ : BufTy).Contents (Elt F) → (⟨S4x16x512x512, .f32⟩ : BufTy).Contents (Elt F) → (⟨S4x16x512x512, .f32⟩ : BufTy).Contents (Elt F)),
    binary main_v46 main_v73 main_v74 (addf : (⟨S4x16x512x512, .f32⟩ : BufTy).Contents (Elt F) → (⟨S4x16x512x512, .f32⟩ : BufTy).Contents (Elt F) → (⟨S4x16x512x512, .f32⟩ : BufTy).Contents (Elt F)),
    nullary main_v75 (iotaInDim S512 32 0),
    nullary main_c_24 (constantI S_ 32 4294967295#32),
    unary main_c_24 main_v76 (broadcastInDim S512 ![] bcast_S_S512 : (⟨S_, .i32⟩ : BufTy).Contents (Elt F) → (⟨S512, .i32⟩ : BufTy).Contents (Elt F)),
    binary main_v75 main_v76 main_v77 (addi : (⟨S512, .i32⟩ : BufTy).Contents (Elt F) → (⟨S512, .i32⟩ : BufTy).Contents (Elt F) → (⟨S512, .i32⟩ : BufTy).Contents (Elt F)),
    nullary main_c_25 (constantI S_ 32 0#32),
    nullary main_c_26 (constantI S_ 32 511#32),
    unary main_c_25 main_call4_v0 (id : (⟨S_, .i32⟩ : BufTy).Contents (Elt F) → (⟨S_, .i32⟩ : BufTy).Contents (Elt F)),
    unary main_call4_v0 main_call4_v1 ((broadcastInDim S512 ![] bcast_S_S512) : (⟨S_, .i32⟩ : BufTy).Contents (Elt F) → (⟨S512, .i32⟩ : BufTy).Contents (Elt F)),
    binary main_call4_v1 main_v77 main_call4_v2 (maxsi : (⟨S512, .i32⟩ : BufTy).Contents (Elt F) → (⟨S512, .i32⟩ : BufTy).Contents (Elt F) → (⟨S512, .i32⟩ : BufTy).Contents (Elt F)),
    unary main_c_26 main_call4_v3 (id : (⟨S_, .i32⟩ : BufTy).Contents (Elt F) → (⟨S_, .i32⟩ : BufTy).Contents (Elt F)),
    unary main_call4_v3 main_call4_v4 ((broadcastInDim S512 ![] bcast_S_S512) : (⟨S_, .i32⟩ : BufTy).Contents (Elt F) → (⟨S512, .i32⟩ : BufTy).Contents (Elt F)),
    binary main_call4_v4 main_call4_v2 main_v78 (minsi : (⟨S512, .i32⟩ : BufTy).Contents (Elt F) → (⟨S512, .i32⟩ : BufTy).Contents (Elt F) → (⟨S512, .i32⟩ : BufTy).Contents (Elt F)),
    nullary main_v79 (iotaInDim S512 32 0),
    nullary main_c_27 (constantI S_ 32 1#32),
    unary main_c_27 main_v80 (broadcastInDim S512 ![] bcast_S_S512 : (⟨S_, .i32⟩ : BufTy).Contents (Elt F) → (⟨S512, .i32⟩ : BufTy).Contents (Elt F)),
    binary main_v79 main_v80 main_v81 (addi : (⟨S512, .i32⟩ : BufTy).Contents (Elt F) → (⟨S512, .i32⟩ : BufTy).Contents (Elt F) → (⟨S512, .i32⟩ : BufTy).Contents (Elt F)),
    nullary main_c_28 (constantI S_ 32 0#32),
    nullary main_c_29 (constantI S_ 32 511#32),
    unary main_c_28 main_call5_v0 (id : (⟨S_, .i32⟩ : BufTy).Contents (Elt F) → (⟨S_, .i32⟩ : BufTy).Contents (Elt F)),
    unary main_call5_v0 main_call5_v1 ((broadcastInDim S512 ![] bcast_S_S512) : (⟨S_, .i32⟩ : BufTy).Contents (Elt F) → (⟨S512, .i32⟩ : BufTy).Contents (Elt F)),
    binary main_call5_v1 main_v81 main_call5_v2 (maxsi : (⟨S512, .i32⟩ : BufTy).Contents (Elt F) → (⟨S512, .i32⟩ : BufTy).Contents (Elt F) → (⟨S512, .i32⟩ : BufTy).Contents (Elt F)),
    unary main_c_29 main_call5_v3 (id : (⟨S_, .i32⟩ : BufTy).Contents (Elt F) → (⟨S_, .i32⟩ : BufTy).Contents (Elt F)),
    unary main_call5_v3 main_call5_v4 ((broadcastInDim S512 ![] bcast_S_S512) : (⟨S_, .i32⟩ : BufTy).Contents (Elt F) → (⟨S512, .i32⟩ : BufTy).Contents (Elt F)),
    binary main_call5_v4 main_call5_v2 main_v82 (minsi : (⟨S512, .i32⟩ : BufTy).Contents (Elt F) → (⟨S512, .i32⟩ : BufTy).Contents (Elt F) → (⟨S512, .i32⟩ : BufTy).Contents (Elt F)),
    nullary main_c_30 (constantI S_ 32 0#32),
    unary main_c_30 main_v83 (broadcastInDim S512 ![] bcast_S_S512 : (⟨S_, .i32⟩ : BufTy).Contents (Elt F) → (⟨S512, .i32⟩ : BufTy).Contents (Elt F)),
    binary main_v78 main_v83 main_v84 (cmpi .slt : (⟨S512, .i32⟩ : BufTy).Contents (Elt F) → (⟨S512, .i32⟩ : BufTy).Contents (Elt F) → (⟨S512, .i1⟩ : BufTy).Contents (Elt F)),
    nullary main_c_31 (constantI S_ 32 512#32),
    unary main_c_31 main_v85 (broadcastInDim S512 ![] bcast_S_S512 : (⟨S_, .i32⟩ : BufTy).Contents (Elt F) → (⟨S512, .i32⟩ : BufTy).Contents (Elt F)),
    binary main_v78 main_v85 main_v86 (addi : (⟨S512, .i32⟩ : BufTy).Contents (Elt F) → (⟨S512, .i32⟩ : BufTy).Contents (Elt F) → (⟨S512, .i32⟩ : BufTy).Contents (Elt F)),
    ternary main_v84 main_v86 main_v78 main_v87 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v87 main_v88 (broadcastInDim S512x1 ![0] bcast_S512_S512x1_0 : (⟨S512, .i32⟩ : BufTy).Contents (Elt F) → (⟨S512x1, .i32⟩ : BufTy).Contents (Elt F)),
    binary main_arg1 main_v88 main_v89 ((fun x i => Host.gather gather_S4x16x512x512_S512x1_S4x16x512x512_013_2_n_n_2_1_4161512 x i) : (⟨S4x16x512x512, .f32⟩ : BufTy).Contents (Elt F) → (⟨S512x1, .i32⟩ : BufTy).Contents (Elt F) → (⟨S4x16x512x512, .f32⟩ : BufTy).Contents (Elt F)),
    nullary main_c_32 (constantI S_ 32 0#32),
    unary main_c_32 main_v90 (broadcastInDim S512 ![] bcast_S_S512 : (⟨S_, .i32⟩ : BufTy).Contents (Elt F) → (⟨S512, .i32⟩ : BufTy).Contents (Elt F)),
    binary main_v82 main_v90 main_v91 (cmpi .slt : (⟨S512, .i32⟩ : BufTy).Contents (Elt F) → (⟨S512, .i32⟩ : BufTy).Contents (Elt F) → (⟨S512, .i1⟩ : BufTy).Contents (Elt F)),
    nullary main_c_33 (constantI S_ 32 512#32),
    unary main_c_33 main_v92 (broadcastInDim S512 ![] bcast_S_S512 : (⟨S_, .i32⟩ : BufTy).Contents (Elt F) → (⟨S512, .i32⟩ : BufTy).Contents (Elt F)),
    binary main_v82 main_v92 main_v93 (addi : (⟨S512, .i32⟩ : BufTy).Contents (Elt F) → (⟨S512, .i32⟩ : BufTy).Contents (Elt F) → (⟨S512, .i32⟩ : BufTy).Contents (Elt F)),
    ternary main_v91 main_v93 main_v82 main_v94 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v94 main_v95 (broadcastInDim S512x1 ![0] bcast_S512_S512x1_0 : (⟨S512, .i32⟩ : BufTy).Contents (Elt F) → (⟨S512x1, .i32⟩ : BufTy).Contents (Elt F)),
    binary main_v89 main_v95 main_v96 ((fun x i => Host.gather gather_S4x16x512x512_S512x1_S4x16x512x512_012_3_n_n_3_1_4165121 x i) : (⟨S4x16x512x512, .f32⟩ : BufTy).Contents (Elt F) → (⟨S512x1, .i32⟩ : BufTy).Contents (Elt F) → (⟨S4x16x512x512, .f32⟩ : BufTy).Contents (Elt F)),
    unary main_v17 main_v97 ((extractStridedSlice S4x1x512x512 ![0, 2, 0, 0] · slices_S4x9x512x512_S4x1x512x512_0_2_0_0) : (⟨S4x9x512x512, .f32⟩ : BufTy).Contents (Elt F) → (⟨S4x1x512x512, .f32⟩ : BufTy).Contents (Elt F)),
    reshape main_v97 main_v98 rfl shapeCasts_S4x1x512x512_S4x512x512,
    unary main_v98 main_v99 (broadcastInDim S4x1x512x512 ![0, 2, 3] bcast_S4x512x512_S4x1x512x512_0_2_3 : (⟨S4x512x512, .f32⟩ : BufTy).Contents (Elt F) → (⟨S4x1x512x512, .f32⟩ : BufTy).Contents (Elt F)),
    unary main_v99 main_v100 (broadcastInDim S4x16x512x512 ![0, 1, 2, 3] bcast_S4x1x512x512_S4x16x512x512_0_1_2_3 : (⟨S4x1x512x512, .f32⟩ : BufTy).Contents (Elt F) → (⟨S4x16x512x512, .f32⟩ : BufTy).Contents (Elt F)),
    binary main_v96 main_v100 main_v101 (mulf : (⟨S4x16x512x512, .f32⟩ : BufTy).Contents (Elt F) → (⟨S4x16x512x512, .f32⟩ : BufTy).Contents (Elt F) → (⟨S4x16x512x512, .f32⟩ : BufTy).Contents (Elt F)),
    binary main_v74 main_v101 main_v102 (addf : (⟨S4x16x512x512, .f32⟩ : BufTy).Contents (Elt F) → (⟨S4x16x512x512, .f32⟩ : BufTy).Contents (Elt F) → (⟨S4x16x512x512, .f32⟩ : BufTy).Contents (Elt F)),
    nullary main_v103 (iotaInDim S512 32 0),
    nullary main_c_34 (constantI S_ 32 0#32),
    unary main_c_34 main_v104 (broadcastInDim S512 ![] bcast_S_S512 : (⟨S_, .i32⟩ : BufTy).Contents (Elt F) → (⟨S512, .i32⟩ : BufTy).Contents (Elt F)),
    binary main_v103 main_v104 main_v105 (addi : (⟨S512, .i32⟩ : BufTy).Contents (Elt F) → (⟨S512, .i32⟩ : BufTy).Contents (Elt F) → (⟨S512, .i32⟩ : BufTy).Contents (Elt F)),
    nullary main_c_35 (constantI S_ 32 0#32),
    nullary main_c_36 (constantI S_ 32 511#32),
    unary main_c_35 main_call6_v0 (id : (⟨S_, .i32⟩ : BufTy).Contents (Elt F) → (⟨S_, .i32⟩ : BufTy).Contents (Elt F)),
    unary main_call6_v0 main_call6_v1 ((broadcastInDim S512 ![] bcast_S_S512) : (⟨S_, .i32⟩ : BufTy).Contents (Elt F) → (⟨S512, .i32⟩ : BufTy).Contents (Elt F)),
    binary main_call6_v1 main_v105 main_call6_v2 (maxsi : (⟨S512, .i32⟩ : BufTy).Contents (Elt F) → (⟨S512, .i32⟩ : BufTy).Contents (Elt F) → (⟨S512, .i32⟩ : BufTy).Contents (Elt F)),
    unary main_c_36 main_call6_v3 (id : (⟨S_, .i32⟩ : BufTy).Contents (Elt F) → (⟨S_, .i32⟩ : BufTy).Contents (Elt F)),
    unary main_call6_v3 main_call6_v4 ((broadcastInDim S512 ![] bcast_S_S512) : (⟨S_, .i32⟩ : BufTy).Contents (Elt F) → (⟨S512, .i32⟩ : BufTy).Contents (Elt F)),
    binary main_call6_v4 main_call6_v2 main_v106 (minsi : (⟨S512, .i32⟩ : BufTy).Contents (Elt F) → (⟨S512, .i32⟩ : BufTy).Contents (Elt F) → (⟨S512, .i32⟩ : BufTy).Contents (Elt F)),
    nullary main_v107 (iotaInDim S512 32 0),
    nullary main_c_37 (constantI S_ 32 4294967295#32),
    unary main_c_37 main_v108 (broadcastInDim S512 ![] bcast_S_S512 : (⟨S_, .i32⟩ : BufTy).Contents (Elt F) → (⟨S512, .i32⟩ : BufTy).Contents (Elt F)),
    binary main_v107 main_v108 main_v109 (addi : (⟨S512, .i32⟩ : BufTy).Contents (Elt F) → (⟨S512, .i32⟩ : BufTy).Contents (Elt F) → (⟨S512, .i32⟩ : BufTy).Contents (Elt F)),
    nullary main_c_38 (constantI S_ 32 0#32),
    nullary main_c_39 (constantI S_ 32 511#32),
    unary main_c_38 main_call7_v0 (id : (⟨S_, .i32⟩ : BufTy).Contents (Elt F) → (⟨S_, .i32⟩ : BufTy).Contents (Elt F)),
    unary main_call7_v0 main_call7_v1 ((broadcastInDim S512 ![] bcast_S_S512) : (⟨S_, .i32⟩ : BufTy).Contents (Elt F) → (⟨S512, .i32⟩ : BufTy).Contents (Elt F)),
    binary main_call7_v1 main_v109 main_call7_v2 (maxsi : (⟨S512, .i32⟩ : BufTy).Contents (Elt F) → (⟨S512, .i32⟩ : BufTy).Contents (Elt F) → (⟨S512, .i32⟩ : BufTy).Contents (Elt F)),
    unary main_c_39 main_call7_v3 (id : (⟨S_, .i32⟩ : BufTy).Contents (Elt F) → (⟨S_, .i32⟩ : BufTy).Contents (Elt F)),
    unary main_call7_v3 main_call7_v4 ((broadcastInDim S512 ![] bcast_S_S512) : (⟨S_, .i32⟩ : BufTy).Contents (Elt F) → (⟨S512, .i32⟩ : BufTy).Contents (Elt F)),
    binary main_call7_v4 main_call7_v2 main_v110 (minsi : (⟨S512, .i32⟩ : BufTy).Contents (Elt F) → (⟨S512, .i32⟩ : BufTy).Contents (Elt F) → (⟨S512, .i32⟩ : BufTy).Contents (Elt F)),
    nullary main_c_40 (constantI S_ 32 0#32),
    unary main_c_40 main_v111 (broadcastInDim S512 ![] bcast_S_S512 : (⟨S_, .i32⟩ : BufTy).Contents (Elt F) → (⟨S512, .i32⟩ : BufTy).Contents (Elt F)),
    binary main_v106 main_v111 main_v112 (cmpi .slt : (⟨S512, .i32⟩ : BufTy).Contents (Elt F) → (⟨S512, .i32⟩ : BufTy).Contents (Elt F) → (⟨S512, .i1⟩ : BufTy).Contents (Elt F)),
    nullary main_c_41 (constantI S_ 32 512#32),
    unary main_c_41 main_v113 (broadcastInDim S512 ![] bcast_S_S512 : (⟨S_, .i32⟩ : BufTy).Contents (Elt F) → (⟨S512, .i32⟩ : BufTy).Contents (Elt F)),
    binary main_v106 main_v113 main_v114 (addi : (⟨S512, .i32⟩ : BufTy).Contents (Elt F) → (⟨S512, .i32⟩ : BufTy).Contents (Elt F) → (⟨S512, .i32⟩ : BufTy).Contents (Elt F)),
    ternary main_v112 main_v114 main_v106 main_v115 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v115 main_v116 (broadcastInDim S512x1 ![0] bcast_S512_S512x1_0 : (⟨S512, .i32⟩ : BufTy).Contents (Elt F) → (⟨S512x1, .i32⟩ : BufTy).Contents (Elt F)),
    binary main_arg1 main_v116 main_v117 ((fun x i => Host.gather gather_S4x16x512x512_S512x1_S4x16x512x512_013_2_n_n_2_1_4161512 x i) : (⟨S4x16x512x512, .f32⟩ : BufTy).Contents (Elt F) → (⟨S512x1, .i32⟩ : BufTy).Contents (Elt F) → (⟨S4x16x512x512, .f32⟩ : BufTy).Contents (Elt F)),
    nullary main_c_42 (constantI S_ 32 0#32),
    unary main_c_42 main_v118 (broadcastInDim S512 ![] bcast_S_S512 : (⟨S_, .i32⟩ : BufTy).Contents (Elt F) → (⟨S512, .i32⟩ : BufTy).Contents (Elt F)),
    binary main_v110 main_v118 main_v119 (cmpi .slt : (⟨S512, .i32⟩ : BufTy).Contents (Elt F) → (⟨S512, .i32⟩ : BufTy).Contents (Elt F) → (⟨S512, .i1⟩ : BufTy).Contents (Elt F)),
    nullary main_c_43 (constantI S_ 32 512#32),
    unary main_c_43 main_v120 (broadcastInDim S512 ![] bcast_S_S512 : (⟨S_, .i32⟩ : BufTy).Contents (Elt F) → (⟨S512, .i32⟩ : BufTy).Contents (Elt F)),
    binary main_v110 main_v120 main_v121 (addi : (⟨S512, .i32⟩ : BufTy).Contents (Elt F) → (⟨S512, .i32⟩ : BufTy).Contents (Elt F) → (⟨S512, .i32⟩ : BufTy).Contents (Elt F)),
    ternary main_v119 main_v121 main_v110 main_v122 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v122 main_v123 (broadcastInDim S512x1 ![0] bcast_S512_S512x1_0 : (⟨S512, .i32⟩ : BufTy).Contents (Elt F) → (⟨S512x1, .i32⟩ : BufTy).Contents (Elt F)),
    binary main_v117 main_v123 main_v124 ((fun x i => Host.gather gather_S4x16x512x512_S512x1_S4x16x512x512_012_3_n_n_3_1_4165121 x i) : (⟨S4x16x512x512, .f32⟩ : BufTy).Contents (Elt F) → (⟨S512x1, .i32⟩ : BufTy).Contents (Elt F) → (⟨S4x16x512x512, .f32⟩ : BufTy).Contents (Elt F)),
    unary main_v17 main_v125 ((extractStridedSlice S4x1x512x512 ![0, 3, 0, 0] · slices_S4x9x512x512_S4x1x512x512_0_3_0_0) : (⟨S4x9x512x512, .f32⟩ : BufTy).Contents (Elt F) → (⟨S4x1x512x512, .f32⟩ : BufTy).Contents (Elt F)),
    reshape main_v125 main_v126 rfl shapeCasts_S4x1x512x512_S4x512x512,
    unary main_v126 main_v127 (broadcastInDim S4x1x512x512 ![0, 2, 3] bcast_S4x512x512_S4x1x512x512_0_2_3 : (⟨S4x512x512, .f32⟩ : BufTy).Contents (Elt F) → (⟨S4x1x512x512, .f32⟩ : BufTy).Contents (Elt F)),
    unary main_v127 main_v128 (broadcastInDim S4x16x512x512 ![0, 1, 2, 3] bcast_S4x1x512x512_S4x16x512x512_0_1_2_3 : (⟨S4x1x512x512, .f32⟩ : BufTy).Contents (Elt F) → (⟨S4x16x512x512, .f32⟩ : BufTy).Contents (Elt F)),
    binary main_v124 main_v128 main_v129 (mulf : (⟨S4x16x512x512, .f32⟩ : BufTy).Contents (Elt F) → (⟨S4x16x512x512, .f32⟩ : BufTy).Contents (Elt F) → (⟨S4x16x512x512, .f32⟩ : BufTy).Contents (Elt F)),
    binary main_v102 main_v129 main_v130 (addf : (⟨S4x16x512x512, .f32⟩ : BufTy).Contents (Elt F) → (⟨S4x16x512x512, .f32⟩ : BufTy).Contents (Elt F) → (⟨S4x16x512x512, .f32⟩ : BufTy).Contents (Elt F)),
    nullary main_v131 (iotaInDim S512 32 0),
    nullary main_c_44 (constantI S_ 32 0#32),
    unary main_c_44 main_v132 (broadcastInDim S512 ![] bcast_S_S512 : (⟨S_, .i32⟩ : BufTy).Contents (Elt F) → (⟨S512, .i32⟩ : BufTy).Contents (Elt F)),
    binary main_v131 main_v132 main_v133 (addi : (⟨S512, .i32⟩ : BufTy).Contents (Elt F) → (⟨S512, .i32⟩ : BufTy).Contents (Elt F) → (⟨S512, .i32⟩ : BufTy).Contents (Elt F)),
    nullary main_c_45 (constantI S_ 32 0#32),
    nullary main_c_46 (constantI S_ 32 511#32),
    unary main_c_45 main_call8_v0 (id : (⟨S_, .i32⟩ : BufTy).Contents (Elt F) → (⟨S_, .i32⟩ : BufTy).Contents (Elt F)),
    unary main_call8_v0 main_call8_v1 ((broadcastInDim S512 ![] bcast_S_S512) : (⟨S_, .i32⟩ : BufTy).Contents (Elt F) → (⟨S512, .i32⟩ : BufTy).Contents (Elt F)),
    binary main_call8_v1 main_v133 main_call8_v2 (maxsi : (⟨S512, .i32⟩ : BufTy).Contents (Elt F) → (⟨S512, .i32⟩ : BufTy).Contents (Elt F) → (⟨S512, .i32⟩ : BufTy).Contents (Elt F)),
    unary main_c_46 main_call8_v3 (id : (⟨S_, .i32⟩ : BufTy).Contents (Elt F) → (⟨S_, .i32⟩ : BufTy).Contents (Elt F)),
    unary main_call8_v3 main_call8_v4 ((broadcastInDim S512 ![] bcast_S_S512) : (⟨S_, .i32⟩ : BufTy).Contents (Elt F) → (⟨S512, .i32⟩ : BufTy).Contents (Elt F)),
    binary main_call8_v4 main_call8_v2 main_v134 (minsi : (⟨S512, .i32⟩ : BufTy).Contents (Elt F) → (⟨S512, .i32⟩ : BufTy).Contents (Elt F) → (⟨S512, .i32⟩ : BufTy).Contents (Elt F)),
    nullary main_v135 (iotaInDim S512 32 0),
    nullary main_c_47 (constantI S_ 32 0#32),
    unary main_c_47 main_v136 (broadcastInDim S512 ![] bcast_S_S512 : (⟨S_, .i32⟩ : BufTy).Contents (Elt F) → (⟨S512, .i32⟩ : BufTy).Contents (Elt F)),
    binary main_v135 main_v136 main_v137 (addi : (⟨S512, .i32⟩ : BufTy).Contents (Elt F) → (⟨S512, .i32⟩ : BufTy).Contents (Elt F) → (⟨S512, .i32⟩ : BufTy).Contents (Elt F)),
    nullary main_c_48 (constantI S_ 32 0#32),
    nullary main_c_49 (constantI S_ 32 511#32),
    unary main_c_48 main_call9_v0 (id : (⟨S_, .i32⟩ : BufTy).Contents (Elt F) → (⟨S_, .i32⟩ : BufTy).Contents (Elt F)),
    unary main_call9_v0 main_call9_v1 ((broadcastInDim S512 ![] bcast_S_S512) : (⟨S_, .i32⟩ : BufTy).Contents (Elt F) → (⟨S512, .i32⟩ : BufTy).Contents (Elt F)),
    binary main_call9_v1 main_v137 main_call9_v2 (maxsi : (⟨S512, .i32⟩ : BufTy).Contents (Elt F) → (⟨S512, .i32⟩ : BufTy).Contents (Elt F) → (⟨S512, .i32⟩ : BufTy).Contents (Elt F)),
    unary main_c_49 main_call9_v3 (id : (⟨S_, .i32⟩ : BufTy).Contents (Elt F) → (⟨S_, .i32⟩ : BufTy).Contents (Elt F)),
    unary main_call9_v3 main_call9_v4 ((broadcastInDim S512 ![] bcast_S_S512) : (⟨S_, .i32⟩ : BufTy).Contents (Elt F) → (⟨S512, .i32⟩ : BufTy).Contents (Elt F)),
    binary main_call9_v4 main_call9_v2 main_v138 (minsi : (⟨S512, .i32⟩ : BufTy).Contents (Elt F) → (⟨S512, .i32⟩ : BufTy).Contents (Elt F) → (⟨S512, .i32⟩ : BufTy).Contents (Elt F)),
    nullary main_c_50 (constantI S_ 32 0#32),
    unary main_c_50 main_v139 (broadcastInDim S512 ![] bcast_S_S512 : (⟨S_, .i32⟩ : BufTy).Contents (Elt F) → (⟨S512, .i32⟩ : BufTy).Contents (Elt F)),
    binary main_v134 main_v139 main_v140 (cmpi .slt : (⟨S512, .i32⟩ : BufTy).Contents (Elt F) → (⟨S512, .i32⟩ : BufTy).Contents (Elt F) → (⟨S512, .i1⟩ : BufTy).Contents (Elt F)),
    nullary main_c_51 (constantI S_ 32 512#32),
    unary main_c_51 main_v141 (broadcastInDim S512 ![] bcast_S_S512 : (⟨S_, .i32⟩ : BufTy).Contents (Elt F) → (⟨S512, .i32⟩ : BufTy).Contents (Elt F)),
    binary main_v134 main_v141 main_v142 (addi : (⟨S512, .i32⟩ : BufTy).Contents (Elt F) → (⟨S512, .i32⟩ : BufTy).Contents (Elt F) → (⟨S512, .i32⟩ : BufTy).Contents (Elt F)),
    ternary main_v140 main_v142 main_v134 main_v143 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v143 main_v144 (broadcastInDim S512x1 ![0] bcast_S512_S512x1_0 : (⟨S512, .i32⟩ : BufTy).Contents (Elt F) → (⟨S512x1, .i32⟩ : BufTy).Contents (Elt F)),
    binary main_arg1 main_v144 main_v145 ((fun x i => Host.gather gather_S4x16x512x512_S512x1_S4x16x512x512_013_2_n_n_2_1_4161512 x i) : (⟨S4x16x512x512, .f32⟩ : BufTy).Contents (Elt F) → (⟨S512x1, .i32⟩ : BufTy).Contents (Elt F) → (⟨S4x16x512x512, .f32⟩ : BufTy).Contents (Elt F)),
    nullary main_c_52 (constantI S_ 32 0#32),
    unary main_c_52 main_v146 (broadcastInDim S512 ![] bcast_S_S512 : (⟨S_, .i32⟩ : BufTy).Contents (Elt F) → (⟨S512, .i32⟩ : BufTy).Contents (Elt F)),
    binary main_v138 main_v146 main_v147 (cmpi .slt : (⟨S512, .i32⟩ : BufTy).Contents (Elt F) → (⟨S512, .i32⟩ : BufTy).Contents (Elt F) → (⟨S512, .i1⟩ : BufTy).Contents (Elt F)),
    nullary main_c_53 (constantI S_ 32 512#32),
    unary main_c_53 main_v148 (broadcastInDim S512 ![] bcast_S_S512 : (⟨S_, .i32⟩ : BufTy).Contents (Elt F) → (⟨S512, .i32⟩ : BufTy).Contents (Elt F)),
    binary main_v138 main_v148 main_v149 (addi : (⟨S512, .i32⟩ : BufTy).Contents (Elt F) → (⟨S512, .i32⟩ : BufTy).Contents (Elt F) → (⟨S512, .i32⟩ : BufTy).Contents (Elt F)),
    ternary main_v147 main_v149 main_v138 main_v150 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v150 main_v151 (broadcastInDim S512x1 ![0] bcast_S512_S512x1_0 : (⟨S512, .i32⟩ : BufTy).Contents (Elt F) → (⟨S512x1, .i32⟩ : BufTy).Contents (Elt F)),
    binary main_v145 main_v151 main_v152 ((fun x i => Host.gather gather_S4x16x512x512_S512x1_S4x16x512x512_012_3_n_n_3_1_4165121 x i) : (⟨S4x16x512x512, .f32⟩ : BufTy).Contents (Elt F) → (⟨S512x1, .i32⟩ : BufTy).Contents (Elt F) → (⟨S4x16x512x512, .f32⟩ : BufTy).Contents (Elt F)),
    unary main_v17 main_v153 ((extractStridedSlice S4x1x512x512 ![0, 4, 0, 0] · slices_S4x9x512x512_S4x1x512x512_0_4_0_0) : (⟨S4x9x512x512, .f32⟩ : BufTy).Contents (Elt F) → (⟨S4x1x512x512, .f32⟩ : BufTy).Contents (Elt F)),
    reshape main_v153 main_v154 rfl shapeCasts_S4x1x512x512_S4x512x512,
    unary main_v154 main_v155 (broadcastInDim S4x1x512x512 ![0, 2, 3] bcast_S4x512x512_S4x1x512x512_0_2_3 : (⟨S4x512x512, .f32⟩ : BufTy).Contents (Elt F) → (⟨S4x1x512x512, .f32⟩ : BufTy).Contents (Elt F)),
    unary main_v155 main_v156 (broadcastInDim S4x16x512x512 ![0, 1, 2, 3] bcast_S4x1x512x512_S4x16x512x512_0_1_2_3 : (⟨S4x1x512x512, .f32⟩ : BufTy).Contents (Elt F) → (⟨S4x16x512x512, .f32⟩ : BufTy).Contents (Elt F)),
    binary main_v152 main_v156 main_v157 (mulf : (⟨S4x16x512x512, .f32⟩ : BufTy).Contents (Elt F) → (⟨S4x16x512x512, .f32⟩ : BufTy).Contents (Elt F) → (⟨S4x16x512x512, .f32⟩ : BufTy).Contents (Elt F)),
    binary main_v130 main_v157 main_v158 (addf : (⟨S4x16x512x512, .f32⟩ : BufTy).Contents (Elt F) → (⟨S4x16x512x512, .f32⟩ : BufTy).Contents (Elt F) → (⟨S4x16x512x512, .f32⟩ : BufTy).Contents (Elt F)),
    nullary main_v159 (iotaInDim S512 32 0),
    nullary main_c_54 (constantI S_ 32 0#32),
    unary main_c_54 main_v160 (broadcastInDim S512 ![] bcast_S_S512 : (⟨S_, .i32⟩ : BufTy).Contents (Elt F) → (⟨S512, .i32⟩ : BufTy).Contents (Elt F)),
    binary main_v159 main_v160 main_v161 (addi : (⟨S512, .i32⟩ : BufTy).Contents (Elt F) → (⟨S512, .i32⟩ : BufTy).Contents (Elt F) → (⟨S512, .i32⟩ : BufTy).Contents (Elt F)),
    nullary main_c_55 (constantI S_ 32 0#32),
    nullary main_c_56 (constantI S_ 32 511#32),
    unary main_c_55 main_call10_v0 (id : (⟨S_, .i32⟩ : BufTy).Contents (Elt F) → (⟨S_, .i32⟩ : BufTy).Contents (Elt F)),
    unary main_call10_v0 main_call10_v1 ((broadcastInDim S512 ![] bcast_S_S512) : (⟨S_, .i32⟩ : BufTy).Contents (Elt F) → (⟨S512, .i32⟩ : BufTy).Contents (Elt F)),
    binary main_call10_v1 main_v161 main_call10_v2 (maxsi : (⟨S512, .i32⟩ : BufTy).Contents (Elt F) → (⟨S512, .i32⟩ : BufTy).Contents (Elt F) → (⟨S512, .i32⟩ : BufTy).Contents (Elt F)),
    unary main_c_56 main_call10_v3 (id : (⟨S_, .i32⟩ : BufTy).Contents (Elt F) → (⟨S_, .i32⟩ : BufTy).Contents (Elt F)),
    unary main_call10_v3 main_call10_v4 ((broadcastInDim S512 ![] bcast_S_S512) : (⟨S_, .i32⟩ : BufTy).Contents (Elt F) → (⟨S512, .i32⟩ : BufTy).Contents (Elt F)),
    binary main_call10_v4 main_call10_v2 main_v162 (minsi : (⟨S512, .i32⟩ : BufTy).Contents (Elt F) → (⟨S512, .i32⟩ : BufTy).Contents (Elt F) → (⟨S512, .i32⟩ : BufTy).Contents (Elt F)),
    nullary main_v163 (iotaInDim S512 32 0),
    nullary main_c_57 (constantI S_ 32 1#32),
    unary main_c_57 main_v164 (broadcastInDim S512 ![] bcast_S_S512 : (⟨S_, .i32⟩ : BufTy).Contents (Elt F) → (⟨S512, .i32⟩ : BufTy).Contents (Elt F)),
    binary main_v163 main_v164 main_v165 (addi : (⟨S512, .i32⟩ : BufTy).Contents (Elt F) → (⟨S512, .i32⟩ : BufTy).Contents (Elt F) → (⟨S512, .i32⟩ : BufTy).Contents (Elt F)),
    nullary main_c_58 (constantI S_ 32 0#32),
    nullary main_c_59 (constantI S_ 32 511#32),
    unary main_c_58 main_call11_v0 (id : (⟨S_, .i32⟩ : BufTy).Contents (Elt F) → (⟨S_, .i32⟩ : BufTy).Contents (Elt F)),
    unary main_call11_v0 main_call11_v1 ((broadcastInDim S512 ![] bcast_S_S512) : (⟨S_, .i32⟩ : BufTy).Contents (Elt F) → (⟨S512, .i32⟩ : BufTy).Contents (Elt F)),
    binary main_call11_v1 main_v165 main_call11_v2 (maxsi : (⟨S512, .i32⟩ : BufTy).Contents (Elt F) → (⟨S512, .i32⟩ : BufTy).Contents (Elt F) → (⟨S512, .i32⟩ : BufTy).Contents (Elt F)),
    unary main_c_59 main_call11_v3 (id : (⟨S_, .i32⟩ : BufTy).Contents (Elt F) → (⟨S_, .i32⟩ : BufTy).Contents (Elt F)),
    unary main_call11_v3 main_call11_v4 ((broadcastInDim S512 ![] bcast_S_S512) : (⟨S_, .i32⟩ : BufTy).Contents (Elt F) → (⟨S512, .i32⟩ : BufTy).Contents (Elt F)),
    binary main_call11_v4 main_call11_v2 main_v166 (minsi : (⟨S512, .i32⟩ : BufTy).Contents (Elt F) → (⟨S512, .i32⟩ : BufTy).Contents (Elt F) → (⟨S512, .i32⟩ : BufTy).Contents (Elt F)),
    nullary main_c_60 (constantI S_ 32 0#32),
    unary main_c_60 main_v167 (broadcastInDim S512 ![] bcast_S_S512 : (⟨S_, .i32⟩ : BufTy).Contents (Elt F) → (⟨S512, .i32⟩ : BufTy).Contents (Elt F)),
    binary main_v162 main_v167 main_v168 (cmpi .slt : (⟨S512, .i32⟩ : BufTy).Contents (Elt F) → (⟨S512, .i32⟩ : BufTy).Contents (Elt F) → (⟨S512, .i1⟩ : BufTy).Contents (Elt F)),
    nullary main_c_61 (constantI S_ 32 512#32),
    unary main_c_61 main_v169 (broadcastInDim S512 ![] bcast_S_S512 : (⟨S_, .i32⟩ : BufTy).Contents (Elt F) → (⟨S512, .i32⟩ : BufTy).Contents (Elt F)),
    binary main_v162 main_v169 main_v170 (addi : (⟨S512, .i32⟩ : BufTy).Contents (Elt F) → (⟨S512, .i32⟩ : BufTy).Contents (Elt F) → (⟨S512, .i32⟩ : BufTy).Contents (Elt F)),
    ternary main_v168 main_v170 main_v162 main_v171 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v171 main_v172 (broadcastInDim S512x1 ![0] bcast_S512_S512x1_0 : (⟨S512, .i32⟩ : BufTy).Contents (Elt F) → (⟨S512x1, .i32⟩ : BufTy).Contents (Elt F)),
    binary main_arg1 main_v172 main_v173 ((fun x i => Host.gather gather_S4x16x512x512_S512x1_S4x16x512x512_013_2_n_n_2_1_4161512 x i) : (⟨S4x16x512x512, .f32⟩ : BufTy).Contents (Elt F) → (⟨S512x1, .i32⟩ : BufTy).Contents (Elt F) → (⟨S4x16x512x512, .f32⟩ : BufTy).Contents (Elt F)),
    nullary main_c_62 (constantI S_ 32 0#32),
    unary main_c_62 main_v174 (broadcastInDim S512 ![] bcast_S_S512 : (⟨S_, .i32⟩ : BufTy).Contents (Elt F) → (⟨S512, .i32⟩ : BufTy).Contents (Elt F)),
    binary main_v166 main_v174 main_v175 (cmpi .slt : (⟨S512, .i32⟩ : BufTy).Contents (Elt F) → (⟨S512, .i32⟩ : BufTy).Contents (Elt F) → (⟨S512, .i1⟩ : BufTy).Contents (Elt F)),
    nullary main_c_63 (constantI S_ 32 512#32),
    unary main_c_63 main_v176 (broadcastInDim S512 ![] bcast_S_S512 : (⟨S_, .i32⟩ : BufTy).Contents (Elt F) → (⟨S512, .i32⟩ : BufTy).Contents (Elt F)),
    binary main_v166 main_v176 main_v177 (addi : (⟨S512, .i32⟩ : BufTy).Contents (Elt F) → (⟨S512, .i32⟩ : BufTy).Contents (Elt F) → (⟨S512, .i32⟩ : BufTy).Contents (Elt F)),
    ternary main_v175 main_v177 main_v166 main_v178 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v178 main_v179 (broadcastInDim S512x1 ![0] bcast_S512_S512x1_0 : (⟨S512, .i32⟩ : BufTy).Contents (Elt F) → (⟨S512x1, .i32⟩ : BufTy).Contents (Elt F)),
    binary main_v173 main_v179 main_v180 ((fun x i => Host.gather gather_S4x16x512x512_S512x1_S4x16x512x512_012_3_n_n_3_1_4165121 x i) : (⟨S4x16x512x512, .f32⟩ : BufTy).Contents (Elt F) → (⟨S512x1, .i32⟩ : BufTy).Contents (Elt F) → (⟨S4x16x512x512, .f32⟩ : BufTy).Contents (Elt F)),
    unary main_v17 main_v181 ((extractStridedSlice S4x1x512x512 ![0, 5, 0, 0] · slices_S4x9x512x512_S4x1x512x512_0_5_0_0) : (⟨S4x9x512x512, .f32⟩ : BufTy).Contents (Elt F) → (⟨S4x1x512x512, .f32⟩ : BufTy).Contents (Elt F)),
    reshape main_v181 main_v182 rfl shapeCasts_S4x1x512x512_S4x512x512,
    unary main_v182 main_v183 (broadcastInDim S4x1x512x512 ![0, 2, 3] bcast_S4x512x512_S4x1x512x512_0_2_3 : (⟨S4x512x512, .f32⟩ : BufTy).Contents (Elt F) → (⟨S4x1x512x512, .f32⟩ : BufTy).Contents (Elt F)),
    unary main_v183 main_v184 (broadcastInDim S4x16x512x512 ![0, 1, 2, 3] bcast_S4x1x512x512_S4x16x512x512_0_1_2_3 : (⟨S4x1x512x512, .f32⟩ : BufTy).Contents (Elt F) → (⟨S4x16x512x512, .f32⟩ : BufTy).Contents (Elt F)),
    binary main_v180 main_v184 main_v185 (mulf : (⟨S4x16x512x512, .f32⟩ : BufTy).Contents (Elt F) → (⟨S4x16x512x512, .f32⟩ : BufTy).Contents (Elt F) → (⟨S4x16x512x512, .f32⟩ : BufTy).Contents (Elt F)),
    binary main_v158 main_v185 main_v186 (addf : (⟨S4x16x512x512, .f32⟩ : BufTy).Contents (Elt F) → (⟨S4x16x512x512, .f32⟩ : BufTy).Contents (Elt F) → (⟨S4x16x512x512, .f32⟩ : BufTy).Contents (Elt F)),
    nullary main_v187 (iotaInDim S512 32 0),
    nullary main_c_64 (constantI S_ 32 1#32),
    unary main_c_64 main_v188 (broadcastInDim S512 ![] bcast_S_S512 : (⟨S_, .i32⟩ : BufTy).Contents (Elt F) → (⟨S512, .i32⟩ : BufTy).Contents (Elt F)),
    binary main_v187 main_v188 main_v189 (addi : (⟨S512, .i32⟩ : BufTy).Contents (Elt F) → (⟨S512, .i32⟩ : BufTy).Contents (Elt F) → (⟨S512, .i32⟩ : BufTy).Contents (Elt F)),
    nullary main_c_65 (constantI S_ 32 0#32),
    nullary main_c_66 (constantI S_ 32 511#32),
    unary main_c_65 main_call12_v0 (id : (⟨S_, .i32⟩ : BufTy).Contents (Elt F) → (⟨S_, .i32⟩ : BufTy).Contents (Elt F)),
    unary main_call12_v0 main_call12_v1 ((broadcastInDim S512 ![] bcast_S_S512) : (⟨S_, .i32⟩ : BufTy).Contents (Elt F) → (⟨S512, .i32⟩ : BufTy).Contents (Elt F)),
    binary main_call12_v1 main_v189 main_call12_v2 (maxsi : (⟨S512, .i32⟩ : BufTy).Contents (Elt F) → (⟨S512, .i32⟩ : BufTy).Contents (Elt F) → (⟨S512, .i32⟩ : BufTy).Contents (Elt F)),
    unary main_c_66 main_call12_v3 (id : (⟨S_, .i32⟩ : BufTy).Contents (Elt F) → (⟨S_, .i32⟩ : BufTy).Contents (Elt F)),
    unary main_call12_v3 main_call12_v4 ((broadcastInDim S512 ![] bcast_S_S512) : (⟨S_, .i32⟩ : BufTy).Contents (Elt F) → (⟨S512, .i32⟩ : BufTy).Contents (Elt F)),
    binary main_call12_v4 main_call12_v2 main_v190 (minsi : (⟨S512, .i32⟩ : BufTy).Contents (Elt F) → (⟨S512, .i32⟩ : BufTy).Contents (Elt F) → (⟨S512, .i32⟩ : BufTy).Contents (Elt F)),
    nullary main_v191 (iotaInDim S512 32 0),
    nullary main_c_67 (constantI S_ 32 4294967295#32),
    unary main_c_67 main_v192 (broadcastInDim S512 ![] bcast_S_S512 : (⟨S_, .i32⟩ : BufTy).Contents (Elt F) → (⟨S512, .i32⟩ : BufTy).Contents (Elt F)),
    binary main_v191 main_v192 main_v193 (addi : (⟨S512, .i32⟩ : BufTy).Contents (Elt F) → (⟨S512, .i32⟩ : BufTy).Contents (Elt F) → (⟨S512, .i32⟩ : BufTy).Contents (Elt F)),
    nullary main_c_68 (constantI S_ 32 0#32),
    nullary main_c_69 (constantI S_ 32 511#32),
    unary main_c_68 main_call13_v0 (id : (⟨S_, .i32⟩ : BufTy).Contents (Elt F) → (⟨S_, .i32⟩ : BufTy).Contents (Elt F)),
    unary main_call13_v0 main_call13_v1 ((broadcastInDim S512 ![] bcast_S_S512) : (⟨S_, .i32⟩ : BufTy).Contents (Elt F) → (⟨S512, .i32⟩ : BufTy).Contents (Elt F)),
    binary main_call13_v1 main_v193 main_call13_v2 (maxsi : (⟨S512, .i32⟩ : BufTy).Contents (Elt F) → (⟨S512, .i32⟩ : BufTy).Contents (Elt F) → (⟨S512, .i32⟩ : BufTy).Contents (Elt F)),
    unary main_c_69 main_call13_v3 (id : (⟨S_, .i32⟩ : BufTy).Contents (Elt F) → (⟨S_, .i32⟩ : BufTy).Contents (Elt F)),
    unary main_call13_v3 main_call13_v4 ((broadcastInDim S512 ![] bcast_S_S512) : (⟨S_, .i32⟩ : BufTy).Contents (Elt F) → (⟨S512, .i32⟩ : BufTy).Contents (Elt F)),
    binary main_call13_v4 main_call13_v2 main_v194 (minsi : (⟨S512, .i32⟩ : BufTy).Contents (Elt F) → (⟨S512, .i32⟩ : BufTy).Contents (Elt F) → (⟨S512, .i32⟩ : BufTy).Contents (Elt F)),
    nullary main_c_70 (constantI S_ 32 0#32),
    unary main_c_70 main_v195 (broadcastInDim S512 ![] bcast_S_S512 : (⟨S_, .i32⟩ : BufTy).Contents (Elt F) → (⟨S512, .i32⟩ : BufTy).Contents (Elt F)),
    binary main_v190 main_v195 main_v196 (cmpi .slt : (⟨S512, .i32⟩ : BufTy).Contents (Elt F) → (⟨S512, .i32⟩ : BufTy).Contents (Elt F) → (⟨S512, .i1⟩ : BufTy).Contents (Elt F)),
    nullary main_c_71 (constantI S_ 32 512#32),
    unary main_c_71 main_v197 (broadcastInDim S512 ![] bcast_S_S512 : (⟨S_, .i32⟩ : BufTy).Contents (Elt F) → (⟨S512, .i32⟩ : BufTy).Contents (Elt F)),
    binary main_v190 main_v197 main_v198 (addi : (⟨S512, .i32⟩ : BufTy).Contents (Elt F) → (⟨S512, .i32⟩ : BufTy).Contents (Elt F) → (⟨S512, .i32⟩ : BufTy).Contents (Elt F)),
    ternary main_v196 main_v198 main_v190 main_v199 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v199 main_v200 (broadcastInDim S512x1 ![0] bcast_S512_S512x1_0 : (⟨S512, .i32⟩ : BufTy).Contents (Elt F) → (⟨S512x1, .i32⟩ : BufTy).Contents (Elt F)),
    binary main_arg1 main_v200 main_v201 ((fun x i => Host.gather gather_S4x16x512x512_S512x1_S4x16x512x512_013_2_n_n_2_1_4161512 x i) : (⟨S4x16x512x512, .f32⟩ : BufTy).Contents (Elt F) → (⟨S512x1, .i32⟩ : BufTy).Contents (Elt F) → (⟨S4x16x512x512, .f32⟩ : BufTy).Contents (Elt F)),
    nullary main_c_72 (constantI S_ 32 0#32),
    unary main_c_72 main_v202 (broadcastInDim S512 ![] bcast_S_S512 : (⟨S_, .i32⟩ : BufTy).Contents (Elt F) → (⟨S512, .i32⟩ : BufTy).Contents (Elt F)),
    binary main_v194 main_v202 main_v203 (cmpi .slt : (⟨S512, .i32⟩ : BufTy).Contents (Elt F) → (⟨S512, .i32⟩ : BufTy).Contents (Elt F) → (⟨S512, .i1⟩ : BufTy).Contents (Elt F)),
    nullary main_c_73 (constantI S_ 32 512#32),
    unary main_c_73 main_v204 (broadcastInDim S512 ![] bcast_S_S512 : (⟨S_, .i32⟩ : BufTy).Contents (Elt F) → (⟨S512, .i32⟩ : BufTy).Contents (Elt F)),
    binary main_v194 main_v204 main_v205 (addi : (⟨S512, .i32⟩ : BufTy).Contents (Elt F) → (⟨S512, .i32⟩ : BufTy).Contents (Elt F) → (⟨S512, .i32⟩ : BufTy).Contents (Elt F)),
    ternary main_v203 main_v205 main_v194 main_v206 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v206 main_v207 (broadcastInDim S512x1 ![0] bcast_S512_S512x1_0 : (⟨S512, .i32⟩ : BufTy).Contents (Elt F) → (⟨S512x1, .i32⟩ : BufTy).Contents (Elt F)),
    binary main_v201 main_v207 main_v208 ((fun x i => Host.gather gather_S4x16x512x512_S512x1_S4x16x512x512_012_3_n_n_3_1_4165121 x i) : (⟨S4x16x512x512, .f32⟩ : BufTy).Contents (Elt F) → (⟨S512x1, .i32⟩ : BufTy).Contents (Elt F) → (⟨S4x16x512x512, .f32⟩ : BufTy).Contents (Elt F)),
    unary main_v17 main_v209 ((extractStridedSlice S4x1x512x512 ![0, 6, 0, 0] · slices_S4x9x512x512_S4x1x512x512_0_6_0_0) : (⟨S4x9x512x512, .f32⟩ : BufTy).Contents (Elt F) → (⟨S4x1x512x512, .f32⟩ : BufTy).Contents (Elt F)),
    reshape main_v209 main_v210 rfl shapeCasts_S4x1x512x512_S4x512x512,
    unary main_v210 main_v211 (broadcastInDim S4x1x512x512 ![0, 2, 3] bcast_S4x512x512_S4x1x512x512_0_2_3 : (⟨S4x512x512, .f32⟩ : BufTy).Contents (Elt F) → (⟨S4x1x512x512, .f32⟩ : BufTy).Contents (Elt F)),
    unary main_v211 main_v212 (broadcastInDim S4x16x512x512 ![0, 1, 2, 3] bcast_S4x1x512x512_S4x16x512x512_0_1_2_3 : (⟨S4x1x512x512, .f32⟩ : BufTy).Contents (Elt F) → (⟨S4x16x512x512, .f32⟩ : BufTy).Contents (Elt F)),
    binary main_v208 main_v212 main_v213 (mulf : (⟨S4x16x512x512, .f32⟩ : BufTy).Contents (Elt F) → (⟨S4x16x512x512, .f32⟩ : BufTy).Contents (Elt F) → (⟨S4x16x512x512, .f32⟩ : BufTy).Contents (Elt F)),
    binary main_v186 main_v213 main_v214 (addf : (⟨S4x16x512x512, .f32⟩ : BufTy).Contents (Elt F) → (⟨S4x16x512x512, .f32⟩ : BufTy).Contents (Elt F) → (⟨S4x16x512x512, .f32⟩ : BufTy).Contents (Elt F)),
    nullary main_v215 (iotaInDim S512 32 0),
    nullary main_c_74 (constantI S_ 32 1#32),
    unary main_c_74 main_v216 (broadcastInDim S512 ![] bcast_S_S512 : (⟨S_, .i32⟩ : BufTy).Contents (Elt F) → (⟨S512, .i32⟩ : BufTy).Contents (Elt F)),
    binary main_v215 main_v216 main_v217 (addi : (⟨S512, .i32⟩ : BufTy).Contents (Elt F) → (⟨S512, .i32⟩ : BufTy).Contents (Elt F) → (⟨S512, .i32⟩ : BufTy).Contents (Elt F)),
    nullary main_c_75 (constantI S_ 32 0#32),
    nullary main_c_76 (constantI S_ 32 511#32),
    unary main_c_75 main_call14_v0 (id : (⟨S_, .i32⟩ : BufTy).Contents (Elt F) → (⟨S_, .i32⟩ : BufTy).Contents (Elt F)),
    unary main_call14_v0 main_call14_v1 ((broadcastInDim S512 ![] bcast_S_S512) : (⟨S_, .i32⟩ : BufTy).Contents (Elt F) → (⟨S512, .i32⟩ : BufTy).Contents (Elt F)),
    binary main_call14_v1 main_v217 main_call14_v2 (maxsi : (⟨S512, .i32⟩ : BufTy).Contents (Elt F) → (⟨S512, .i32⟩ : BufTy).Contents (Elt F) → (⟨S512, .i32⟩ : BufTy).Contents (Elt F)),
    unary main_c_76 main_call14_v3 (id : (⟨S_, .i32⟩ : BufTy).Contents (Elt F) → (⟨S_, .i32⟩ : BufTy).Contents (Elt F)),
    unary main_call14_v3 main_call14_v4 ((broadcastInDim S512 ![] bcast_S_S512) : (⟨S_, .i32⟩ : BufTy).Contents (Elt F) → (⟨S512, .i32⟩ : BufTy).Contents (Elt F)),
    binary main_call14_v4 main_call14_v2 main_v218 (minsi : (⟨S512, .i32⟩ : BufTy).Contents (Elt F) → (⟨S512, .i32⟩ : BufTy).Contents (Elt F) → (⟨S512, .i32⟩ : BufTy).Contents (Elt F)),
    nullary main_v219 (iotaInDim S512 32 0),
    nullary main_c_77 (constantI S_ 32 0#32),
    unary main_c_77 main_v220 (broadcastInDim S512 ![] bcast_S_S512 : (⟨S_, .i32⟩ : BufTy).Contents (Elt F) → (⟨S512, .i32⟩ : BufTy).Contents (Elt F)),
    binary main_v219 main_v220 main_v221 (addi : (⟨S512, .i32⟩ : BufTy).Contents (Elt F) → (⟨S512, .i32⟩ : BufTy).Contents (Elt F) → (⟨S512, .i32⟩ : BufTy).Contents (Elt F)),
    nullary main_c_78 (constantI S_ 32 0#32),
    nullary main_c_79 (constantI S_ 32 511#32),
    unary main_c_78 main_call15_v0 (id : (⟨S_, .i32⟩ : BufTy).Contents (Elt F) → (⟨S_, .i32⟩ : BufTy).Contents (Elt F)),
    unary main_call15_v0 main_call15_v1 ((broadcastInDim S512 ![] bcast_S_S512) : (⟨S_, .i32⟩ : BufTy).Contents (Elt F) → (⟨S512, .i32⟩ : BufTy).Contents (Elt F)),
    binary main_call15_v1 main_v221 main_call15_v2 (maxsi : (⟨S512, .i32⟩ : BufTy).Contents (Elt F) → (⟨S512, .i32⟩ : BufTy).Contents (Elt F) → (⟨S512, .i32⟩ : BufTy).Contents (Elt F)),
    unary main_c_79 main_call15_v3 (id : (⟨S_, .i32⟩ : BufTy).Contents (Elt F) → (⟨S_, .i32⟩ : BufTy).Contents (Elt F)),
    unary main_call15_v3 main_call15_v4 ((broadcastInDim S512 ![] bcast_S_S512) : (⟨S_, .i32⟩ : BufTy).Contents (Elt F) → (⟨S512, .i32⟩ : BufTy).Contents (Elt F)),
    binary main_call15_v4 main_call15_v2 main_v222 (minsi : (⟨S512, .i32⟩ : BufTy).Contents (Elt F) → (⟨S512, .i32⟩ : BufTy).Contents (Elt F) → (⟨S512, .i32⟩ : BufTy).Contents (Elt F)),
    nullary main_c_80 (constantI S_ 32 0#32),
    unary main_c_80 main_v223 (broadcastInDim S512 ![] bcast_S_S512 : (⟨S_, .i32⟩ : BufTy).Contents (Elt F) → (⟨S512, .i32⟩ : BufTy).Contents (Elt F)),
    binary main_v218 main_v223 main_v224 (cmpi .slt : (⟨S512, .i32⟩ : BufTy).Contents (Elt F) → (⟨S512, .i32⟩ : BufTy).Contents (Elt F) → (⟨S512, .i1⟩ : BufTy).Contents (Elt F)),
    nullary main_c_81 (constantI S_ 32 512#32),
    unary main_c_81 main_v225 (broadcastInDim S512 ![] bcast_S_S512 : (⟨S_, .i32⟩ : BufTy).Contents (Elt F) → (⟨S512, .i32⟩ : BufTy).Contents (Elt F)),
    binary main_v218 main_v225 main_v226 (addi : (⟨S512, .i32⟩ : BufTy).Contents (Elt F) → (⟨S512, .i32⟩ : BufTy).Contents (Elt F) → (⟨S512, .i32⟩ : BufTy).Contents (Elt F)),
    ternary main_v224 main_v226 main_v218 main_v227 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v227 main_v228 (broadcastInDim S512x1 ![0] bcast_S512_S512x1_0 : (⟨S512, .i32⟩ : BufTy).Contents (Elt F) → (⟨S512x1, .i32⟩ : BufTy).Contents (Elt F)),
    binary main_arg1 main_v228 main_v229 ((fun x i => Host.gather gather_S4x16x512x512_S512x1_S4x16x512x512_013_2_n_n_2_1_4161512 x i) : (⟨S4x16x512x512, .f32⟩ : BufTy).Contents (Elt F) → (⟨S512x1, .i32⟩ : BufTy).Contents (Elt F) → (⟨S4x16x512x512, .f32⟩ : BufTy).Contents (Elt F)),
    nullary main_c_82 (constantI S_ 32 0#32),
    unary main_c_82 main_v230 (broadcastInDim S512 ![] bcast_S_S512 : (⟨S_, .i32⟩ : BufTy).Contents (Elt F) → (⟨S512, .i32⟩ : BufTy).Contents (Elt F)),
    binary main_v222 main_v230 main_v231 (cmpi .slt : (⟨S512, .i32⟩ : BufTy).Contents (Elt F) → (⟨S512, .i32⟩ : BufTy).Contents (Elt F) → (⟨S512, .i1⟩ : BufTy).Contents (Elt F)),
    nullary main_c_83 (constantI S_ 32 512#32),
    unary main_c_83 main_v232 (broadcastInDim S512 ![] bcast_S_S512 : (⟨S_, .i32⟩ : BufTy).Contents (Elt F) → (⟨S512, .i32⟩ : BufTy).Contents (Elt F)),
    binary main_v222 main_v232 main_v233 (addi : (⟨S512, .i32⟩ : BufTy).Contents (Elt F) → (⟨S512, .i32⟩ : BufTy).Contents (Elt F) → (⟨S512, .i32⟩ : BufTy).Contents (Elt F)),
    ternary main_v231 main_v233 main_v222 main_v234 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v234 main_v235 (broadcastInDim S512x1 ![0] bcast_S512_S512x1_0 : (⟨S512, .i32⟩ : BufTy).Contents (Elt F) → (⟨S512x1, .i32⟩ : BufTy).Contents (Elt F)),
    binary main_v229 main_v235 main_v236 ((fun x i => Host.gather gather_S4x16x512x512_S512x1_S4x16x512x512_012_3_n_n_3_1_4165121 x i) : (⟨S4x16x512x512, .f32⟩ : BufTy).Contents (Elt F) → (⟨S512x1, .i32⟩ : BufTy).Contents (Elt F) → (⟨S4x16x512x512, .f32⟩ : BufTy).Contents (Elt F)),
    unary main_v17 main_v237 ((extractStridedSlice S4x1x512x512 ![0, 7, 0, 0] · slices_S4x9x512x512_S4x1x512x512_0_7_0_0) : (⟨S4x9x512x512, .f32⟩ : BufTy).Contents (Elt F) → (⟨S4x1x512x512, .f32⟩ : BufTy).Contents (Elt F)),
    reshape main_v237 main_v238 rfl shapeCasts_S4x1x512x512_S4x512x512,
    unary main_v238 main_v239 (broadcastInDim S4x1x512x512 ![0, 2, 3] bcast_S4x512x512_S4x1x512x512_0_2_3 : (⟨S4x512x512, .f32⟩ : BufTy).Contents (Elt F) → (⟨S4x1x512x512, .f32⟩ : BufTy).Contents (Elt F)),
    unary main_v239 main_v240 (broadcastInDim S4x16x512x512 ![0, 1, 2, 3] bcast_S4x1x512x512_S4x16x512x512_0_1_2_3 : (⟨S4x1x512x512, .f32⟩ : BufTy).Contents (Elt F) → (⟨S4x16x512x512, .f32⟩ : BufTy).Contents (Elt F)),
    binary main_v236 main_v240 main_v241 (mulf : (⟨S4x16x512x512, .f32⟩ : BufTy).Contents (Elt F) → (⟨S4x16x512x512, .f32⟩ : BufTy).Contents (Elt F) → (⟨S4x16x512x512, .f32⟩ : BufTy).Contents (Elt F)),
    binary main_v214 main_v241 main_v242 (addf : (⟨S4x16x512x512, .f32⟩ : BufTy).Contents (Elt F) → (⟨S4x16x512x512, .f32⟩ : BufTy).Contents (Elt F) → (⟨S4x16x512x512, .f32⟩ : BufTy).Contents (Elt F)),
    nullary main_v243 (iotaInDim S512 32 0),
    nullary main_c_84 (constantI S_ 32 1#32),
    unary main_c_84 main_v244 (broadcastInDim S512 ![] bcast_S_S512 : (⟨S_, .i32⟩ : BufTy).Contents (Elt F) → (⟨S512, .i32⟩ : BufTy).Contents (Elt F)),
    binary main_v243 main_v244 main_v245 (addi : (⟨S512, .i32⟩ : BufTy).Contents (Elt F) → (⟨S512, .i32⟩ : BufTy).Contents (Elt F) → (⟨S512, .i32⟩ : BufTy).Contents (Elt F)),
    nullary main_c_85 (constantI S_ 32 0#32),
    nullary main_c_86 (constantI S_ 32 511#32),
    unary main_c_85 main_call16_v0 (id : (⟨S_, .i32⟩ : BufTy).Contents (Elt F) → (⟨S_, .i32⟩ : BufTy).Contents (Elt F)),
    unary main_call16_v0 main_call16_v1 ((broadcastInDim S512 ![] bcast_S_S512) : (⟨S_, .i32⟩ : BufTy).Contents (Elt F) → (⟨S512, .i32⟩ : BufTy).Contents (Elt F)),
    binary main_call16_v1 main_v245 main_call16_v2 (maxsi : (⟨S512, .i32⟩ : BufTy).Contents (Elt F) → (⟨S512, .i32⟩ : BufTy).Contents (Elt F) → (⟨S512, .i32⟩ : BufTy).Contents (Elt F)),
    unary main_c_86 main_call16_v3 (id : (⟨S_, .i32⟩ : BufTy).Contents (Elt F) → (⟨S_, .i32⟩ : BufTy).Contents (Elt F)),
    unary main_call16_v3 main_call16_v4 ((broadcastInDim S512 ![] bcast_S_S512) : (⟨S_, .i32⟩ : BufTy).Contents (Elt F) → (⟨S512, .i32⟩ : BufTy).Contents (Elt F)),
    binary main_call16_v4 main_call16_v2 main_v246 (minsi : (⟨S512, .i32⟩ : BufTy).Contents (Elt F) → (⟨S512, .i32⟩ : BufTy).Contents (Elt F) → (⟨S512, .i32⟩ : BufTy).Contents (Elt F)),
    nullary main_v247 (iotaInDim S512 32 0),
    nullary main_c_87 (constantI S_ 32 1#32),
    unary main_c_87 main_v248 (broadcastInDim S512 ![] bcast_S_S512 : (⟨S_, .i32⟩ : BufTy).Contents (Elt F) → (⟨S512, .i32⟩ : BufTy).Contents (Elt F)),
    binary main_v247 main_v248 main_v249 (addi : (⟨S512, .i32⟩ : BufTy).Contents (Elt F) → (⟨S512, .i32⟩ : BufTy).Contents (Elt F) → (⟨S512, .i32⟩ : BufTy).Contents (Elt F)),
    nullary main_c_88 (constantI S_ 32 0#32),
    nullary main_c_89 (constantI S_ 32 511#32),
    unary main_c_88 main_call17_v0 (id : (⟨S_, .i32⟩ : BufTy).Contents (Elt F) → (⟨S_, .i32⟩ : BufTy).Contents (Elt F)),
    unary main_call17_v0 main_call17_v1 ((broadcastInDim S512 ![] bcast_S_S512) : (⟨S_, .i32⟩ : BufTy).Contents (Elt F) → (⟨S512, .i32⟩ : BufTy).Contents (Elt F)),
    binary main_call17_v1 main_v249 main_call17_v2 (maxsi : (⟨S512, .i32⟩ : BufTy).Contents (Elt F) → (⟨S512, .i32⟩ : BufTy).Contents (Elt F) → (⟨S512, .i32⟩ : BufTy).Contents (Elt F)),
    unary main_c_89 main_call17_v3 (id : (⟨S_, .i32⟩ : BufTy).Contents (Elt F) → (⟨S_, .i32⟩ : BufTy).Contents (Elt F)),
    unary main_call17_v3 main_call17_v4 ((broadcastInDim S512 ![] bcast_S_S512) : (⟨S_, .i32⟩ : BufTy).Contents (Elt F) → (⟨S512, .i32⟩ : BufTy).Contents (Elt F)),
    binary main_call17_v4 main_call17_v2 main_v250 (minsi : (⟨S512, .i32⟩ : BufTy).Contents (Elt F) → (⟨S512, .i32⟩ : BufTy).Contents (Elt F) → (⟨S512, .i32⟩ : BufTy).Contents (Elt F)),
    nullary main_c_90 (constantI S_ 32 0#32),
    unary main_c_90 main_v251 (broadcastInDim S512 ![] bcast_S_S512 : (⟨S_, .i32⟩ : BufTy).Contents (Elt F) → (⟨S512, .i32⟩ : BufTy).Contents (Elt F)),
    binary main_v246 main_v251 main_v252 (cmpi .slt : (⟨S512, .i32⟩ : BufTy).Contents (Elt F) → (⟨S512, .i32⟩ : BufTy).Contents (Elt F) → (⟨S512, .i1⟩ : BufTy).Contents (Elt F)),
    nullary main_c_91 (constantI S_ 32 512#32),
    unary main_c_91 main_v253 (broadcastInDim S512 ![] bcast_S_S512 : (⟨S_, .i32⟩ : BufTy).Contents (Elt F) → (⟨S512, .i32⟩ : BufTy).Contents (Elt F)),
    binary main_v246 main_v253 main_v254 (addi : (⟨S512, .i32⟩ : BufTy).Contents (Elt F) → (⟨S512, .i32⟩ : BufTy).Contents (Elt F) → (⟨S512, .i32⟩ : BufTy).Contents (Elt F)),
    ternary main_v252 main_v254 main_v246 main_v255 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v255 main_v256 (broadcastInDim S512x1 ![0] bcast_S512_S512x1_0 : (⟨S512, .i32⟩ : BufTy).Contents (Elt F) → (⟨S512x1, .i32⟩ : BufTy).Contents (Elt F)),
    binary main_arg1 main_v256 main_v257 ((fun x i => Host.gather gather_S4x16x512x512_S512x1_S4x16x512x512_013_2_n_n_2_1_4161512 x i) : (⟨S4x16x512x512, .f32⟩ : BufTy).Contents (Elt F) → (⟨S512x1, .i32⟩ : BufTy).Contents (Elt F) → (⟨S4x16x512x512, .f32⟩ : BufTy).Contents (Elt F)),
    nullary main_c_92 (constantI S_ 32 0#32),
    unary main_c_92 main_v258 (broadcastInDim S512 ![] bcast_S_S512 : (⟨S_, .i32⟩ : BufTy).Contents (Elt F) → (⟨S512, .i32⟩ : BufTy).Contents (Elt F)),
    binary main_v250 main_v258 main_v259 (cmpi .slt : (⟨S512, .i32⟩ : BufTy).Contents (Elt F) → (⟨S512, .i32⟩ : BufTy).Contents (Elt F) → (⟨S512, .i1⟩ : BufTy).Contents (Elt F)),
    nullary main_c_93 (constantI S_ 32 512#32),
    unary main_c_93 main_v260 (broadcastInDim S512 ![] bcast_S_S512 : (⟨S_, .i32⟩ : BufTy).Contents (Elt F) → (⟨S512, .i32⟩ : BufTy).Contents (Elt F)),
    binary main_v250 main_v260 main_v261 (addi : (⟨S512, .i32⟩ : BufTy).Contents (Elt F) → (⟨S512, .i32⟩ : BufTy).Contents (Elt F) → (⟨S512, .i32⟩ : BufTy).Contents (Elt F)),
    ternary main_v259 main_v261 main_v250 main_v262 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v262 main_v263 (broadcastInDim S512x1 ![0] bcast_S512_S512x1_0 : (⟨S512, .i32⟩ : BufTy).Contents (Elt F) → (⟨S512x1, .i32⟩ : BufTy).Contents (Elt F)),
    binary main_v257 main_v263 main_v264 ((fun x i => Host.gather gather_S4x16x512x512_S512x1_S4x16x512x512_012_3_n_n_3_1_4165121 x i) : (⟨S4x16x512x512, .f32⟩ : BufTy).Contents (Elt F) → (⟨S512x1, .i32⟩ : BufTy).Contents (Elt F) → (⟨S4x16x512x512, .f32⟩ : BufTy).Contents (Elt F)),
    unary main_v17 main_v265 ((extractStridedSlice S4x1x512x512 ![0, 8, 0, 0] · slices_S4x9x512x512_S4x1x512x512_0_8_0_0) : (⟨S4x9x512x512, .f32⟩ : BufTy).Contents (Elt F) → (⟨S4x1x512x512, .f32⟩ : BufTy).Contents (Elt F)),
    reshape main_v265 main_v266 rfl shapeCasts_S4x1x512x512_S4x512x512,
    unary main_v266 main_v267 (broadcastInDim S4x1x512x512 ![0, 2, 3] bcast_S4x512x512_S4x1x512x512_0_2_3 : (⟨S4x512x512, .f32⟩ : BufTy).Contents (Elt F) → (⟨S4x1x512x512, .f32⟩ : BufTy).Contents (Elt F)),
    unary main_v267 main_v268 (broadcastInDim S4x16x512x512 ![0, 1, 2, 3] bcast_S4x1x512x512_S4x16x512x512_0_1_2_3 : (⟨S4x1x512x512, .f32⟩ : BufTy).Contents (Elt F) → (⟨S4x16x512x512, .f32⟩ : BufTy).Contents (Elt F)),
    binary main_v264 main_v268 main_v269 (mulf : (⟨S4x16x512x512, .f32⟩ : BufTy).Contents (Elt F) → (⟨S4x16x512x512, .f32⟩ : BufTy).Contents (Elt F) → (⟨S4x16x512x512, .f32⟩ : BufTy).Contents (Elt F)),
    binary main_v242 main_v269 main_v270 (addf : (⟨S4x16x512x512, .f32⟩ : BufTy).Contents (Elt F) → (⟨S4x16x512x512, .f32⟩ : BufTy).Contents (Elt F) → (⟨S4x16x512x512, .f32⟩ : BufTy).Contents (Elt F)) ]

set_option maxRecDepth 65536 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 65536 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., nullary_bufs_sub .., unary_bufs_sub .., nullary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., unary_bufs_sub .., binary_bufs_sub .., binary_bufs_sub .., nullary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., unary_bufs_sub .., binary_bufs_sub .., binary_bufs_sub .., nullary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., unary_bufs_sub .., binary_bufs_sub .., binary_bufs_sub .., nullary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., unary_bufs_sub .., binary_bufs_sub .., binary_bufs_sub .., nullary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., unary_bufs_sub .., binary_bufs_sub .., binary_bufs_sub .., nullary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., unary_bufs_sub .., binary_bufs_sub .., binary_bufs_sub .., nullary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., unary_bufs_sub .., binary_bufs_sub .., binary_bufs_sub .., nullary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., unary_bufs_sub .., binary_bufs_sub .., binary_bufs_sub .., nullary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., unary_bufs_sub .., binary_bufs_sub .., binary_bufs_sub ..⟩

end Cert.ReferenceIdeal.Ops

end
-- ==== Proof.RefRunResult.lean ====
/-
  The value the reference's operations leave in the result buffer: folding the 457 operations over any contents of the
  buffers, the last buffer written holds the last stage of the stage-by-stage reading of the program, as a function of the two
  argument buffers' contents (every intermediate buffer is written once, before it is read).
-/
import proofs.«165728_j69587060129919_1_alg».proof.Proof.RefOps
import proofs.«165728_j69587060129919_1_alg».proof.Proof.ReadP

noncomputable section

namespace Cert.ReferenceIdeal.Whole

open Cert.ReferenceIdeal Cert.ReferenceIdeal.Gen Cert.ReferenceIdeal.Ops
open Idealize.ShloMosaic Idealize.ShloMosaic.TcCoe Idealize.SL.Sem Idealize.ShloMosaic.StableHlo
open Cert.ReferenceIdeal.ReadP

set_option maxRecDepth 65536 in
set_option maxHeartbeats 200000000 in
theorem after_result (V : Valuation τ sig (Elt Ideal)) :
    after (ops (F := Ideal)) V (Proc.devRef .tc main_v270)
      = val_main_v270 (F := Ideal) (V (Proc.devRef .tc main_arg0)) (V (Proc.devRef .tc main_arg1)) := by
  after_results_simp
  rfl

end Cert.ReferenceIdeal.Whole

end
-- ==== Proof.RefRunArgs.lean ====
/-
  No operation of the reference writes an argument buffer: folding the operations over any contents leaves both as they were.
-/
import proofs.«165728_j69587060129919_1_alg».proof.Proof.RefOps
import Idealize.ShloMosaic.PureOps.Ideal

noncomputable section

namespace Cert.ReferenceIdeal.Whole

open Cert.ReferenceIdeal Cert.ReferenceIdeal.Gen Cert.ReferenceIdeal.Ops
open Idealize.ShloMosaic Idealize.ShloMosaic.TcCoe Idealize.SL.Sem Idealize.ShloMosaic.StableHlo

set_option maxRecDepth 65536 in
set_option maxHeartbeats 200000000 in
theorem after_arg0 (V : Valuation τ sig (Elt Ideal)) :
    after (ops (F := Ideal)) V (Proc.devRef .tc main_arg0) = V (Proc.devRef .tc main_arg0) := by
  after_results_simp

set_option maxRecDepth 65536 in
set_option maxHeartbeats 200000000 in
theorem after_arg1 (V : Valuation τ sig (Elt Ideal)) :
    after (ops (F := Ideal)) V (Proc.devRef .tc main_arg1) = V (Proc.devRef .tc main_arg1) := by
  after_results_simp

end Cert.ReferenceIdeal.Whole

end
-- ==== Proof.RefWeights.lean ====
/-
  The reference's weights. Its first eighteen operations are the softmax over the nine affinity planes and the L¹
  normalisation, each reduction over axis 1 of the whole [4, 9, 512, 512] array and each result broadcast back over that
  axis. Read at (b, k, h, w) the eighteenth is the weight Aₖ of the nine entries at (b, ·, h, w). Two spellings differ from the
  kernel's and cost nothing: the maximum is taken once more against −∞ (the fold already starts there), and each sum starts
  from the zero word.
-/
import proofs.«165728_j69587060129919_1_alg».proof.Proof.ReadP
import proofs.«165728_j69587060129919_1_alg».proof.Proof.Spec
import Idealize.ShloMosaic.Lib.Pipeline.Value
import Idealize.ShloMosaic.Lib.ValueIdx
import Idealize.ShloMosaic.PureOps.Ideal.Laws

noncomputable section

namespace Cert.ReferenceIdeal.Weights

open Cert.ReferenceIdeal Cert.ReferenceIdeal.Gen Cert.ReferenceIdeal.ReadP Cert.Affinity
open Idealize.ShloMosaic Idealize.ShloMosaic.ValueIdx

theorem lift_batch (hr : S4x9x512x512.Reduces [1] S4x512x512) (b : Fin 4) (h w : Fin 512) (k : Fin 9) :
    hr.lift (ix3 b h w) k = ix4 b k h w := by
  funext a; apply Fin.ext
  match a with
  | ⟨0, _⟩ => rfl
  | ⟨1, _⟩ => rfl
  | ⟨2, _⟩ => rfl
  | ⟨3, _⟩ => rfl

theorem reduces_batch : S4x9x512x512.Reduces [1] S4x512x512 := by decide

/-- Taking the maximum with −∞ once more changes nothing: the fold starts there. -/
theorem max_negInf_max9 (a : Fin 9 → EReal) : max negInf (max9 a) = max9 a :=
  max_eq_right ((Finset.le_fold_max negInf).mpr (Or.inl le_rfl))

/-- The maximum over the nine, broadcast back, at (b, k', h, w): the largest of the nine entries there, folded from −∞. -/
theorem max_apply (x0 : (⟨S4x9x512x512, .f32⟩ : BufTy).Contents (Elt Ideal)) (b : Fin 4) (k' : Fin 9) (h w : Fin 512) :
    val_main_v4 (F := Ideal) x0 (ix4 b k' h w) = max9 (fun k'' => x0 (ix4 b k'' h w)) := by
  rw [val_main_v4_apply, val_main_v3_apply]
  have e3 : idx_main_v3 (idx_main_v4 (ix4 b k' h w)) = ix3 b h w := by
    funext a'; apply Fin.ext
    match a' with
    | ⟨0, _⟩ => rfl
    | ⟨1, _⟩ => rfl
    | ⟨2, _⟩ => rfl
  rw [e3, val_main_v2_apply, val_main_v1_apply]
  show max negInf (val_main_v0 (F := Ideal) x0 (ix3 b h w)) = _
  have e0 : val_main_v0 (F := Ideal) x0 (ix3 b h w) = max9 (fun k'' => x0 (ix4 b k'' h w)) := by
    unfold val_main_v0
    refine (Host.reduce_eq_fold_single (α := EReal) (FloatOps.maximumf (F := Ideal) (φ := .f32)) x0 _ reducesTo_S4x9x512x512_S4x512x512_d1 reduces_batch h_S_ (ix3 b h w)).trans ?_
    unfold max9
    exact congrArg (fun f => Finset.fold max negInf f (Finset.univ : Finset (Fin 9)))
      (funext fun k'' => congrArg x0 (lift_batch reduces_batch b h w k''))
  rw [e0]
  exact max_negInf_max9 _

/-- The exponentials at (b, k', h, w). -/
theorem exp_apply (x0 : (⟨S4x9x512x512, .f32⟩ : BufTy).Contents (Elt Ideal)) (b : Fin 4) (k' : Fin 9) (h w : Fin 512) :
    val_main_v6 (F := Ideal) x0 (ix4 b k' h w) = expShift (fun k'' => x0 (ix4 b k'' h w)) k' := by
  show Ideal.exp (x0 (ix4 b k' h w) - val_main_v4 (F := Ideal) x0 (ix4 b k' h w)) = _
  rw [max_apply]; rfl

/-- Their sum over the nine, broadcast back. -/
theorem sum_apply (x0 : (⟨S4x9x512x512, .f32⟩ : BufTy).Contents (Elt Ideal)) (b : Fin 4) (k' : Fin 9) (h w : Fin 512) :
    val_main_v9 (F := Ideal) x0 (ix4 b k' h w) = ∑ j : Fin 9, expShift (fun k'' => x0 (ix4 b k'' h w)) j := by
  rw [val_main_v9_apply, val_main_v8_apply, val_main_v7_apply]
  show Ideal.ofBits .f32 0x00000000#32 + _ = _
  rw [Ideal.ofBits_zero_f32, zero_add]
  refine Finset.sum_congr rfl fun k'' _ => ?_
  refine (congrArg (val_main_v6 (F := Ideal) x0) ?_).trans (exp_apply x0 b k'' h w)
  funext a'; apply Fin.ext
  match a' with
  | ⟨0, _⟩ => rfl
  | ⟨1, _⟩ => rfl
  | ⟨2, _⟩ => rfl
  | ⟨3, _⟩ => rfl

/-- The softmax at (b, k', h, w). -/
theorem soft_apply (x0 : (⟨S4x9x512x512, .f32⟩ : BufTy).Contents (Elt Ideal)) (b : Fin 4) (k' : Fin 9) (h w : Fin 512) :
    val_main_v10 (F := Ideal) x0 (ix4 b k' h w) = soft (fun k'' => x0 (ix4 b k'' h w)) k' := by
  show Ideal.div (val_main_v6 (F := Ideal) x0 (ix4 b k' h w)) (val_main_v9 (F := Ideal) x0 (ix4 b k' h w)) = _
  rw [exp_apply, sum_apply]; rfl

/-- The floored L¹ norm, broadcast back. -/
theorem floor_apply (x0 : (⟨S4x9x512x512, .f32⟩ : BufTy).Contents (Elt Ideal)) (b : Fin 4) (k : Fin 9) (h w : Fin 512) :
    val_main_v16 (F := Ideal) x0 (ix4 b k h w)
      = max (∑ j : Fin 9, max (soft (fun k'' => x0 (ix4 b k'' h w)) j) (-(soft (fun k'' => x0 (ix4 b k'' h w)) j))) epsW := by
  rw [val_main_v16_apply, val_main_v15_apply, val_main_v13_apply, val_main_v12_apply, val_main_v14_apply]
  show max (Ideal.ofBits .f32 0x00000000#32 + _) epsW = _
  rw [Ideal.ofBits_zero_f32, zero_add]
  refine congrArg (fun s => max s epsW) (Finset.sum_congr rfl fun k'' _ => ?_)
  have e : idx_main_v12 (idx_main_v13 (idx_main_v16 (ix4 b k h w))) k'' = ix4 b k'' h w := by
    funext a'; apply Fin.ext
    match a' with
    | ⟨0, _⟩ => rfl
    | ⟨1, _⟩ => rfl
    | ⟨2, _⟩ => rfl
    | ⟨3, _⟩ => rfl
  rw [e]
  show max (val_main_v10 (F := Ideal) x0 (ix4 b k'' h w)) (-(val_main_v10 (F := Ideal) x0 (ix4 b k'' h w))) = _
  rw [soft_apply]

/-- The eighteenth operation at (b, k, h, w): the weight of entry k among the nine at (b, ·, h, w). -/
theorem weights_apply (x0 : (⟨S4x9x512x512, .f32⟩ : BufTy).Contents (Elt Ideal)) (b : Fin 4) (k : Fin 9) (h w : Fin 512) :
    val_main_v17 (F := Ideal) x0 (ix4 b k h w) = weight (fun k' => x0 (ix4 b k' h w)) k := by
  show Ideal.div (val_main_v10 (F := Ideal) x0 (ix4 b k h w)) (val_main_v16 (F := Ideal) x0 (ix4 b k h w)) = _
  rw [soft_apply, floor_apply]; rfl

end Cert.ReferenceIdeal.Weights

end
-- ==== Proof.Gather.lean ====
/-
  The host's gather along one axis of a rank-four array, read at an index: with a vector of 512 start indices (shaped
  [512, 1]) and whole slices on the other three axes, result element (b, c, h, w) is the operand at (b, c, idx h, w) for the
  row gather (the operand's axis 2 indexed) and at (b, c, h, idx w) for the column gather (axis 3), the start index read as a
  signed number and clamped into the axis.
-/
import Idealize.ShloMosaic.Lib.Pipeline.Value
import Idealize.ShloMosaic.Lib.ValueIdx
import proofs.«165728_j69587060129919_1_alg».proof.Proof.Spec

noncomputable section

namespace Cert.Affinity

open Idealize.ShloMosaic Idealize.ShloMosaic.ValueIdx

abbrev E4 : Shape := ⟨4, ![4, 16, 512, 512]⟩
abbrev I2 : Shape := ⟨2, ![512, 1]⟩

variable {α : Type}

/-- The row gather's dimension numbers: whole slices but one row, the start index naming the row. -/
abbrev rowDims (wf : GatherDims.WF E4 I2 E4 [0, 1, 3] [2] [] [2] [] 1 ![4, 16, 1, 512]) : GatherDims E4 I2 E4 where
  offsetDims := [0, 1, 3]
  collapsedSliceDims := [2]
  operandBatchingDims := []
  startIndicesBatchingDims := []
  startIndexMap := [2]
  indexVectorDim := 1
  sliceSizes := ![4, 16, 1, 512]
  wf := wf

/-- The row gather read at (b, c, h, w): the operand's row named by start index h, clamped into the axis. -/
theorem gather_rows_apply (wf : GatherDims.WF E4 I2 E4 [0, 1, 3] [2] [] [2] [] 1 ![4, 16, 1, 512])
    (x : E4.Idx → α) (idx : IVec I2 32) (b : Fin 4) (c : Fin 16) (h w : Fin 512) :
    Host.gather (rowDims wf) x idx (ix4 b c h w)
      = x (ix4 b c ⟨min (idx (ix2 h ⟨0, Nat.one_pos⟩)).toInt.toNat 511, by omega⟩ w) := by
  unfold Host.gather
  refine congrArg x (funext fun a => Fin.ext ?_)
  show (rowDims wf).start (ix4 b c h w) idx a + (rowDims wf).batchCoord (ix4 b c h w) a + (rowDims wf).offCoord (ix4 b c h w) a = _
  match a with
  | ⟨0, _⟩ =>
    have hs : (rowDims wf).start (ix4 b c h w) idx ⟨0, by decide⟩ = 0 := by
      unfold GatherDims.start; exact dif_neg (by show (⟨0, by decide⟩ : Fin 4) ∉ ([2] : List (Fin 4)); decide)
    have hb : (rowDims wf).batchCoord (ix4 b c h w) ⟨0, by decide⟩ = 0 := GatherDims.batchCoord_eq_zero _ _ _ List.not_mem_nil
    have ho : (rowDims wf).offCoord (ix4 b c h w) ⟨0, by decide⟩ = b.val := by
      unfold GatherDims.offCoord
      have hm : (⟨0, by decide⟩ : Fin E4.rank) ∈ (rowDims wf).sKept := by
        show (⟨0, by decide⟩ : Fin 4) ∈ E4.kept ([2] ++ []); decide
      rw [dif_pos hm]
      have hi : (rowDims wf).sKept.idxOf (⟨0, by decide⟩ : Fin E4.rank) = 0 := by
        show (E4.kept ([2] ++ [])).idxOf (⟨0, by decide⟩ : Fin 4) = 0; decide
      simp only [hi]
      rfl
    rw [hs, hb, ho]; show 0 + 0 + b.val = b.val; omega
  | ⟨1, _⟩ =>
    have hs : (rowDims wf).start (ix4 b c h w) idx ⟨1, by decide⟩ = 0 := by
      unfold GatherDims.start; exact dif_neg (by show (⟨1, by decide⟩ : Fin 4) ∉ ([2] : List (Fin 4)); decide)
    have hb : (rowDims wf).batchCoord (ix4 b c h w) ⟨1, by decide⟩ = 0 := GatherDims.batchCoord_eq_zero _ _ _ List.not_mem_nil
    have ho : (rowDims wf).offCoord (ix4 b c h w) ⟨1, by decide⟩ = c.val := by
      unfold GatherDims.offCoord
      have hm : (⟨1, by decide⟩ : Fin E4.rank) ∈ (rowDims wf).sKept := by
        show (⟨1, by decide⟩ : Fin 4) ∈ E4.kept ([2] ++ []); decide
      rw [dif_pos hm]
      have hi : (rowDims wf).sKept.idxOf (⟨1, by decide⟩ : Fin E4.rank) = 1 := by
        show (E4.kept ([2] ++ [])).idxOf (⟨1, by decide⟩ : Fin 4) = 1; decide
      simp only [hi]
      rfl
    rw [hs, hb, ho]; show 0 + 0 + c.val = c.val; omega
  | ⟨3, _⟩ =>
    have hs : (rowDims wf).start (ix4 b c h w) idx ⟨3, by decide⟩ = 0 := by
      unfold GatherDims.start; exact dif_neg (by show (⟨3, by decide⟩ : Fin 4) ∉ ([2] : List (Fin 4)); decide)
    have hb : (rowDims wf).batchCoord (ix4 b c h w) ⟨3, by decide⟩ = 0 := GatherDims.batchCoord_eq_zero _ _ _ List.not_mem_nil
    have ho : (rowDims wf).offCoord (ix4 b c h w) ⟨3, by decide⟩ = w.val := by
      unfold GatherDims.offCoord
      have hm : (⟨3, by decide⟩ : Fin E4.rank) ∈ (rowDims wf).sKept := by
        show (⟨3, by decide⟩ : Fin 4) ∈ E4.kept ([2] ++ []); decide
      rw [dif_pos hm]
      have hi : (rowDims wf).sKept.idxOf (⟨3, by decide⟩ : Fin E4.rank) = 2 := by
        show (E4.kept ([2] ++ [])).idxOf (⟨3, by decide⟩ : Fin 4) = 2; decide
      simp only [hi]
      rfl
    rw [hs, hb, ho]; show 0 + 0 + w.val = w.val; omega
  | ⟨2, _⟩ =>
    have e : (rowDims wf).siIdx (ix4 b c h w) ⟨0, Nat.one_pos⟩ = ix2 h ⟨0, Nat.one_pos⟩ :=
      funext fun b' => Fin.ext (by match b' with | ⟨0, _⟩ => rfl | ⟨1, _⟩ => rfl)
    show min (idx ((rowDims wf).siIdx (ix4 b c h w) ⟨0, Nat.one_pos⟩)).toInt.toNat (512 - 1) + 0 + 0 = min (idx (ix2 h ⟨0, Nat.one_pos⟩)).toInt.toNat 511
    rw [e]; rfl

/-- The column gather's dimension numbers: whole slices but one column, the start index naming the column. -/
abbrev colDims (wf : GatherDims.WF E4 I2 E4 [0, 1, 2] [3] [] [3] [] 1 ![4, 16, 512, 1]) : GatherDims E4 I2 E4 where
  offsetDims := [0, 1, 2]
  collapsedSliceDims := [3]
  operandBatchingDims := []
  startIndicesBatchingDims := []
  startIndexMap := [3]
  indexVectorDim := 1
  sliceSizes := ![4, 16, 512, 1]
  wf := wf

/-- The column gather read at (b, c, h, w): the operand's column named by start index w, clamped into the axis. -/
theorem gather_cols_apply (wf : GatherDims.WF E4 I2 E4 [0, 1, 2] [3] [] [3] [] 1 ![4, 16, 512, 1])
    (x : E4.Idx → α) (idx : IVec I2 32) (b : Fin 4) (c : Fin 16) (h w : Fin 512) :
    Host.gather (colDims wf) x idx (ix4 b c h w)
      = x (ix4 b c h ⟨min (idx (ix2 w ⟨0, Nat.one_pos⟩)).toInt.toNat 511, by omega⟩) := by
  unfold Host.gather
  refine congrArg x (funext fun a => Fin.ext ?_)
  show (colDims wf).start (ix4 b c h w) idx a + (colDims wf).batchCoord (ix4 b c h w) a + (colDims wf).offCoord (ix4 b c h w) a = _
  match a with
  | ⟨0, _⟩ =>
    have hs : (colDims wf).start (ix4 b c h w) idx ⟨0, by decide⟩ = 0 := by
      unfold GatherDims.start; exact dif_neg (by show (⟨0, by decide⟩ : Fin 4) ∉ ([3] : List (Fin 4)); decide)
    have hb : (colDims wf).batchCoord (ix4 b c h w) ⟨0, by decide⟩ = 0 := GatherDims.batchCoord_eq_zero _ _ _ List.not_mem_nil
    have ho : (colDims wf).offCoord (ix4 b c h w) ⟨0, by decide⟩ = b.val := by
      unfold GatherDims.offCoord
      have hm : (⟨0, by decide⟩ : Fin E4.rank) ∈ (colDims wf).sKept := by
        show (⟨0, by decide⟩ : Fin 4) ∈ E4.kept ([3] ++ []); decide
      rw [dif_pos hm]
      have hi : (colDims wf).sKept.idxOf (⟨0, by decide⟩ : Fin E4.rank) = 0 := by
        show (E4.kept ([3] ++ [])).idxOf (⟨0, by decide⟩ : Fin 4) = 0; decide
      simp only [hi]
      rfl
    rw [hs, hb, ho]; show 0 + 0 + b.val = b.val; omega
  | ⟨1, _⟩ =>
    have hs : (colDims wf).start (ix4 b c h w) idx ⟨1, by decide⟩ = 0 := by
      unfold GatherDims.start; exact dif_neg (by show (⟨1, by decide⟩ : Fin 4) ∉ ([3] : List (Fin 4)); decide)
    have hb : (colDims wf).batchCoord (ix4 b c h w) ⟨1, by decide⟩ = 0 := GatherDims.batchCoord_eq_zero _ _ _ List.not_mem_nil
    have ho : (colDims wf).offCoord (ix4 b c h w) ⟨1, by decide⟩ = c.val := by
      unfold GatherDims.offCoord
      have hm : (⟨1, by decide⟩ : Fin E4.rank) ∈ (colDims wf).sKept := by
        show (⟨1, by decide⟩ : Fin 4) ∈ E4.kept ([3] ++ []); decide
      rw [dif_pos hm]
      have hi : (colDims wf).sKept.idxOf (⟨1, by decide⟩ : Fin E4.rank) = 1 := by
        show (E4.kept ([3] ++ [])).idxOf (⟨1, by decide⟩ : Fin 4) = 1; decide
      simp only [hi]
      rfl
    rw [hs, hb, ho]; show 0 + 0 + c.val = c.val; omega
  | ⟨2, _⟩ =>
    have hs : (colDims wf).start (ix4 b c h w) idx ⟨2, by decide⟩ = 0 := by
      unfold GatherDims.start; exact dif_neg (by show (⟨2, by decide⟩ : Fin 4) ∉ ([3] : List (Fin 4)); decide)
    have hb : (colDims wf).batchCoord (ix4 b c h w) ⟨2, by decide⟩ = 0 := GatherDims.batchCoord_eq_zero _ _ _ List.not_mem_nil
    have ho : (colDims wf).offCoord (ix4 b c h w) ⟨2, by decide⟩ = h.val := by
      unfold GatherDims.offCoord
      have hm : (⟨2, by decide⟩ : Fin E4.rank) ∈ (colDims wf).sKept := by
        show (⟨2, by decide⟩ : Fin 4) ∈ E4.kept ([3] ++ []); decide
      rw [dif_pos hm]
      have hi : (colDims wf).sKept.idxOf (⟨2, by decide⟩ : Fin E4.rank) = 2 := by
        show (E4.kept ([3] ++ [])).idxOf (⟨2, by decide⟩ : Fin 4) = 2; decide
      simp only [hi]
      rfl
    rw [hs, hb, ho]; show 0 + 0 + h.val = h.val; omega
  | ⟨3, _⟩ =>
    have e : (colDims wf).siIdx (ix4 b c h w) ⟨0, Nat.one_pos⟩ = ix2 w ⟨0, Nat.one_pos⟩ :=
      funext fun b' => Fin.ext (by match b' with | ⟨0, _⟩ => rfl | ⟨1, _⟩ => rfl)
    show min (idx ((colDims wf).siIdx (ix4 b c h w) ⟨0, Nat.one_pos⟩)).toInt.toNat (512 - 1) + 0 + 0 = min (idx (ix2 w ⟨0, Nat.one_pos⟩)).toInt.toNat 511
    rw [e]; rfl

/-- One start index as jax computes it for a move by δ: i + δ clipped into [0, 511], then 512 added if negative (it never is). -/
def clampWord (δ i : BitVec 32) : BitVec 32 :=
  Scalar.select (IntOp.cmpi .slt (IntOp.minsi 511#32 (IntOp.maxsi 0#32 (IntOp.addi i δ))) 0#32)
    (IntOp.addi (IntOp.minsi 511#32 (IntOp.maxsi 0#32 (IntOp.addi i δ))) 512#32)
    (IntOp.minsi 511#32 (IntOp.maxsi 0#32 (IntOp.addi i δ)))

theorem clampWord_prev : ∀ i : Fin 512, min (clampWord 4294967295#32 (BitVec.ofNat 32 i.val)).toInt.toNat 511 = (prev i).val := by
  decide +kernel
theorem clampWord_same : ∀ i : Fin 512, min (clampWord 0#32 (BitVec.ofNat 32 i.val)).toInt.toNat 511 = i.val := by
  decide +kernel
theorem clampWord_next : ∀ i : Fin 512, min (clampWord 1#32 (BitVec.ofNat 32 i.val)).toInt.toNat 511 = (next i).val := by
  decide +kernel

end Cert.Affinity

end
-- ==== Proof.RefTaps.lean ====
/-
  The reference's nine neighbours and nine weight planes. For each of the nine offsets the reference gathers the embedding's
  rows at clip (iota + dy, 0, 511) and then the result's columns at clip (iota + dx, 0, 511) — at (b, c, h, w) the embedding
  at the clamped neighbour —, and cuts weight plane k out of the weights and broadcasts it over the channels.
-/
import proofs.«165728_j69587060129919_1_alg».proof.Proof.ReadP
import proofs.«165728_j69587060129919_1_alg».proof.Proof.Spec
import proofs.«165728_j69587060129919_1_alg».proof.Proof.Gather
import Idealize.ShloMosaic.Lib.Pipeline.Value
import Idealize.ShloMosaic.Lib.ValueIdx

noncomputable section

namespace Cert.ReferenceIdeal.Taps

open Cert.ReferenceIdeal Cert.ReferenceIdeal.Gen Cert.ReferenceIdeal.ReadP Cert.Affinity
open Idealize.ShloMosaic Idealize.ShloMosaic.ValueIdx

/-- Neighbour 0 (row offset -1, column offset -1): the two gathers, rows then columns, read the embedding at the clamped
    neighbour coordinates. -/
theorem neighbour0 (x1 : (⟨S4x16x512x512, .f32⟩ : BufTy).Contents (Elt Ideal)) (b : Fin 4) (c : Fin 16) (h w : Fin 512) :
    val_main_v40 (F := Ideal) x1 (ix4 b c h w) = x1 (ix4 b c (prev h) (prev w)) := by
  have hx : (⟨min (val_main_v39 (F := Ideal) (ix2 w ⟨0, Nat.one_pos⟩)).toInt.toNat 511, by omega⟩ : Fin 512) = prev w :=
    Fin.ext (by
      have e : val_main_v39 (F := Ideal) (ix2 w ⟨0, Nat.one_pos⟩) = clampWord 4294967295#32 (BitVec.ofNat 32 w.val) := rfl
      show min (val_main_v39 (F := Ideal) (ix2 w ⟨0, Nat.one_pos⟩)).toInt.toNat 511 = _
      rw [e]; exact clampWord_prev w)
  have hy : (⟨min (val_main_v32 (F := Ideal) (ix2 h ⟨0, Nat.one_pos⟩)).toInt.toNat 511, by omega⟩ : Fin 512) = prev h :=
    Fin.ext (by
      have e : val_main_v32 (F := Ideal) (ix2 h ⟨0, Nat.one_pos⟩) = clampWord 4294967295#32 (BitVec.ofNat 32 h.val) := rfl
      show min (val_main_v32 (F := Ideal) (ix2 h ⟨0, Nat.one_pos⟩)).toInt.toNat 511 = _
      rw [e]; exact clampWord_prev h)
  show Host.gather (colDims _) (val_main_v33 (F := Ideal) x1) (val_main_v39 (F := Ideal)) (ix4 b c h w) = _
  refine (gather_cols_apply _ _ _ b c h w).trans ?_
  refine (congrArg (fun r => val_main_v33 (F := Ideal) x1 (ix4 b c h r)) hx).trans ?_
  show Host.gather (rowDims _) x1 (val_main_v32 (F := Ideal)) (ix4 b c h (prev w)) = _
  refine (gather_rows_apply _ _ _ b c h (prev w)).trans ?_
  exact congrArg (fun r => x1 (ix4 b c r (prev w))) hy

/-- Weight plane 0, cut out of the weights, re-shaped and broadcast over the sixteen channels: at (b, c, h, w) it is the weight
    at (b, 0, h, w). -/
theorem weightPlane0 (x0 : (⟨S4x9x512x512, .f32⟩ : BufTy).Contents (Elt Ideal)) (b : Fin 4) (c : Fin 16) (h w : Fin 512) :
    val_main_v44 (F := Ideal) x0 (ix4 b c h w) = val_main_v17 (F := Ideal) x0 (ix4 b ⟨0, by decide⟩ h w) := by
  rw [val_main_v44_apply, val_main_v43_apply, val_main_v42_apply, val_main_v41_apply]
  refine congrArg _ (funext fun a => Fin.ext ?_)
  have hb := b.isLt; have hh := h.isLt; have hw := w.isLt
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

/-- Neighbour 1 (row offset -1, column offset 0): the two gathers, rows then columns, read the embedding at the clamped
    neighbour coordinates. -/
theorem neighbour1 (x1 : (⟨S4x16x512x512, .f32⟩ : BufTy).Contents (Elt Ideal)) (b : Fin 4) (c : Fin 16) (h w : Fin 512) :
    val_main_v68 (F := Ideal) x1 (ix4 b c h w) = x1 (ix4 b c (prev h) (w)) := by
  have hx : (⟨min (val_main_v67 (F := Ideal) (ix2 w ⟨0, Nat.one_pos⟩)).toInt.toNat 511, by omega⟩ : Fin 512) = w :=
    Fin.ext (by
      have e : val_main_v67 (F := Ideal) (ix2 w ⟨0, Nat.one_pos⟩) = clampWord 0#32 (BitVec.ofNat 32 w.val) := rfl
      show min (val_main_v67 (F := Ideal) (ix2 w ⟨0, Nat.one_pos⟩)).toInt.toNat 511 = _
      rw [e]; exact clampWord_same w)
  have hy : (⟨min (val_main_v60 (F := Ideal) (ix2 h ⟨0, Nat.one_pos⟩)).toInt.toNat 511, by omega⟩ : Fin 512) = prev h :=
    Fin.ext (by
      have e : val_main_v60 (F := Ideal) (ix2 h ⟨0, Nat.one_pos⟩) = clampWord 4294967295#32 (BitVec.ofNat 32 h.val) := rfl
      show min (val_main_v60 (F := Ideal) (ix2 h ⟨0, Nat.one_pos⟩)).toInt.toNat 511 = _
      rw [e]; exact clampWord_prev h)
  show Host.gather (colDims _) (val_main_v61 (F := Ideal) x1) (val_main_v67 (F := Ideal)) (ix4 b c h w) = _
  refine (gather_cols_apply _ _ _ b c h w).trans ?_
  refine (congrArg (fun r => val_main_v61 (F := Ideal) x1 (ix4 b c h r)) hx).trans ?_
  show Host.gather (rowDims _) x1 (val_main_v60 (F := Ideal)) (ix4 b c h (w)) = _
  refine (gather_rows_apply _ _ _ b c h (w)).trans ?_
  exact congrArg (fun r => x1 (ix4 b c r (w))) hy

/-- Weight plane 1, cut out of the weights, re-shaped and broadcast over the sixteen channels: at (b, c, h, w) it is the weight
    at (b, 1, h, w). -/
theorem weightPlane1 (x0 : (⟨S4x9x512x512, .f32⟩ : BufTy).Contents (Elt Ideal)) (b : Fin 4) (c : Fin 16) (h w : Fin 512) :
    val_main_v72 (F := Ideal) x0 (ix4 b c h w) = val_main_v17 (F := Ideal) x0 (ix4 b ⟨1, by decide⟩ h w) := by
  rw [val_main_v72_apply, val_main_v71_apply, val_main_v70_apply, val_main_v69_apply]
  refine congrArg _ (funext fun a => Fin.ext ?_)
  have hb := b.isLt; have hh := h.isLt; have hw := w.isLt
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

/-- Neighbour 2 (row offset -1, column offset 1): the two gathers, rows then columns, read the embedding at the clamped
    neighbour coordinates. -/
theorem neighbour2 (x1 : (⟨S4x16x512x512, .f32⟩ : BufTy).Contents (Elt Ideal)) (b : Fin 4) (c : Fin 16) (h w : Fin 512) :
    val_main_v96 (F := Ideal) x1 (ix4 b c h w) = x1 (ix4 b c (prev h) (next w)) := by
  have hx : (⟨min (val_main_v95 (F := Ideal) (ix2 w ⟨0, Nat.one_pos⟩)).toInt.toNat 511, by omega⟩ : Fin 512) = next w :=
    Fin.ext (by
      have e : val_main_v95 (F := Ideal) (ix2 w ⟨0, Nat.one_pos⟩) = clampWord 1#32 (BitVec.ofNat 32 w.val) := rfl
      show min (val_main_v95 (F := Ideal) (ix2 w ⟨0, Nat.one_pos⟩)).toInt.toNat 511 = _
      rw [e]; exact clampWord_next w)
  have hy : (⟨min (val_main_v88 (F := Ideal) (ix2 h ⟨0, Nat.one_pos⟩)).toInt.toNat 511, by omega⟩ : Fin 512) = prev h :=
    Fin.ext (by
      have e : val_main_v88 (F := Ideal) (ix2 h ⟨0, Nat.one_pos⟩) = clampWord 4294967295#32 (BitVec.ofNat 32 h.val) := rfl
      show min (val_main_v88 (F := Ideal) (ix2 h ⟨0, Nat.one_pos⟩)).toInt.toNat 511 = _
      rw [e]; exact clampWord_prev h)
  show Host.gather (colDims _) (val_main_v89 (F := Ideal) x1) (val_main_v95 (F := Ideal)) (ix4 b c h w) = _
  refine (gather_cols_apply _ _ _ b c h w).trans ?_
  refine (congrArg (fun r => val_main_v89 (F := Ideal) x1 (ix4 b c h r)) hx).trans ?_
  show Host.gather (rowDims _) x1 (val_main_v88 (F := Ideal)) (ix4 b c h (next w)) = _
  refine (gather_rows_apply _ _ _ b c h (next w)).trans ?_
  exact congrArg (fun r => x1 (ix4 b c r (next w))) hy

/-- Weight plane 2, cut out of the weights, re-shaped and broadcast over the sixteen channels: at (b, c, h, w) it is the weight
    at (b, 2, h, w). -/
theorem weightPlane2 (x0 : (⟨S4x9x512x512, .f32⟩ : BufTy).Contents (Elt Ideal)) (b : Fin 4) (c : Fin 16) (h w : Fin 512) :
    val_main_v100 (F := Ideal) x0 (ix4 b c h w) = val_main_v17 (F := Ideal) x0 (ix4 b ⟨2, by decide⟩ h w) := by
  rw [val_main_v100_apply, val_main_v99_apply, val_main_v98_apply, val_main_v97_apply]
  refine congrArg _ (funext fun a => Fin.ext ?_)
  have hb := b.isLt; have hh := h.isLt; have hw := w.isLt
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

/-- Neighbour 3 (row offset 0, column offset -1): the two gathers, rows then columns, read the embedding at the clamped
    neighbour coordinates. -/
theorem neighbour3 (x1 : (⟨S4x16x512x512, .f32⟩ : BufTy).Contents (Elt Ideal)) (b : Fin 4) (c : Fin 16) (h w : Fin 512) :
    val_main_v124 (F := Ideal) x1 (ix4 b c h w) = x1 (ix4 b c (h) (prev w)) := by
  have hx : (⟨min (val_main_v123 (F := Ideal) (ix2 w ⟨0, Nat.one_pos⟩)).toInt.toNat 511, by omega⟩ : Fin 512) = prev w :=
    Fin.ext (by
      have e : val_main_v123 (F := Ideal) (ix2 w ⟨0, Nat.one_pos⟩) = clampWord 4294967295#32 (BitVec.ofNat 32 w.val) := rfl
      show min (val_main_v123 (F := Ideal) (ix2 w ⟨0, Nat.one_pos⟩)).toInt.toNat 511 = _
      rw [e]; exact clampWord_prev w)
  have hy : (⟨min (val_main_v116 (F := Ideal) (ix2 h ⟨0, Nat.one_pos⟩)).toInt.toNat 511, by omega⟩ : Fin 512) = h :=
    Fin.ext (by
      have e : val_main_v116 (F := Ideal) (ix2 h ⟨0, Nat.one_pos⟩) = clampWord 0#32 (BitVec.ofNat 32 h.val) := rfl
      show min (val_main_v116 (F := Ideal) (ix2 h ⟨0, Nat.one_pos⟩)).toInt.toNat 511 = _
      rw [e]; exact clampWord_same h)
  show Host.gather (colDims _) (val_main_v117 (F := Ideal) x1) (val_main_v123 (F := Ideal)) (ix4 b c h w) = _
  refine (gather_cols_apply _ _ _ b c h w).trans ?_
  refine (congrArg (fun r => val_main_v117 (F := Ideal) x1 (ix4 b c h r)) hx).trans ?_
  show Host.gather (rowDims _) x1 (val_main_v116 (F := Ideal)) (ix4 b c h (prev w)) = _
  refine (gather_rows_apply _ _ _ b c h (prev w)).trans ?_
  exact congrArg (fun r => x1 (ix4 b c r (prev w))) hy

/-- Weight plane 3, cut out of the weights, re-shaped and broadcast over the sixteen channels: at (b, c, h, w) it is the weight
    at (b, 3, h, w). -/
theorem weightPlane3 (x0 : (⟨S4x9x512x512, .f32⟩ : BufTy).Contents (Elt Ideal)) (b : Fin 4) (c : Fin 16) (h w : Fin 512) :
    val_main_v128 (F := Ideal) x0 (ix4 b c h w) = val_main_v17 (F := Ideal) x0 (ix4 b ⟨3, by decide⟩ h w) := by
  rw [val_main_v128_apply, val_main_v127_apply, val_main_v126_apply, val_main_v125_apply]
  refine congrArg _ (funext fun a => Fin.ext ?_)
  have hb := b.isLt; have hh := h.isLt; have hw := w.isLt
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

/-- Neighbour 4 (row offset 0, column offset 0): the two gathers, rows then columns, read the embedding at the clamped
    neighbour coordinates. -/
theorem neighbour4 (x1 : (⟨S4x16x512x512, .f32⟩ : BufTy).Contents (Elt Ideal)) (b : Fin 4) (c : Fin 16) (h w : Fin 512) :
    val_main_v152 (F := Ideal) x1 (ix4 b c h w) = x1 (ix4 b c (h) (w)) := by
  have hx : (⟨min (val_main_v151 (F := Ideal) (ix2 w ⟨0, Nat.one_pos⟩)).toInt.toNat 511, by omega⟩ : Fin 512) = w :=
    Fin.ext (by
      have e : val_main_v151 (F := Ideal) (ix2 w ⟨0, Nat.one_pos⟩) = clampWord 0#32 (BitVec.ofNat 32 w.val) := rfl
      show min (val_main_v151 (F := Ideal) (ix2 w ⟨0, Nat.one_pos⟩)).toInt.toNat 511 = _
      rw [e]; exact clampWord_same w)
  have hy : (⟨min (val_main_v144 (F := Ideal) (ix2 h ⟨0, Nat.one_pos⟩)).toInt.toNat 511, by omega⟩ : Fin 512) = h :=
    Fin.ext (by
      have e : val_main_v144 (F := Ideal) (ix2 h ⟨0, Nat.one_pos⟩) = clampWord 0#32 (BitVec.ofNat 32 h.val) := rfl
      show min (val_main_v144 (F := Ideal) (ix2 h ⟨0, Nat.one_pos⟩)).toInt.toNat 511 = _
      rw [e]; exact clampWord_same h)
  show Host.gather (colDims _) (val_main_v145 (F := Ideal) x1) (val_main_v151 (F := Ideal)) (ix4 b c h w) = _
  refine (gather_cols_apply _ _ _ b c h w).trans ?_
  refine (congrArg (fun r => val_main_v145 (F := Ideal) x1 (ix4 b c h r)) hx).trans ?_
  show Host.gather (rowDims _) x1 (val_main_v144 (F := Ideal)) (ix4 b c h (w)) = _
  refine (gather_rows_apply _ _ _ b c h (w)).trans ?_
  exact congrArg (fun r => x1 (ix4 b c r (w))) hy

/-- Weight plane 4, cut out of the weights, re-shaped and broadcast over the sixteen channels: at (b, c, h, w) it is the weight
    at (b, 4, h, w). -/
theorem weightPlane4 (x0 : (⟨S4x9x512x512, .f32⟩ : BufTy).Contents (Elt Ideal)) (b : Fin 4) (c : Fin 16) (h w : Fin 512) :
    val_main_v156 (F := Ideal) x0 (ix4 b c h w) = val_main_v17 (F := Ideal) x0 (ix4 b ⟨4, by decide⟩ h w) := by
  rw [val_main_v156_apply, val_main_v155_apply, val_main_v154_apply, val_main_v153_apply]
  refine congrArg _ (funext fun a => Fin.ext ?_)
  have hb := b.isLt; have hh := h.isLt; have hw := w.isLt
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

/-- Neighbour 5 (row offset 0, column offset 1): the two gathers, rows then columns, read the embedding at the clamped
    neighbour coordinates. -/
theorem neighbour5 (x1 : (⟨S4x16x512x512, .f32⟩ : BufTy).Contents (Elt Ideal)) (b : Fin 4) (c : Fin 16) (h w : Fin 512) :
    val_main_v180 (F := Ideal) x1 (ix4 b c h w) = x1 (ix4 b c (h) (next w)) := by
  have hx : (⟨min (val_main_v179 (F := Ideal) (ix2 w ⟨0, Nat.one_pos⟩)).toInt.toNat 511, by omega⟩ : Fin 512) = next w :=
    Fin.ext (by
      have e : val_main_v179 (F := Ideal) (ix2 w ⟨0, Nat.one_pos⟩) = clampWord 1#32 (BitVec.ofNat 32 w.val) := rfl
      show min (val_main_v179 (F := Ideal) (ix2 w ⟨0, Nat.one_pos⟩)).toInt.toNat 511 = _
      rw [e]; exact clampWord_next w)
  have hy : (⟨min (val_main_v172 (F := Ideal) (ix2 h ⟨0, Nat.one_pos⟩)).toInt.toNat 511, by omega⟩ : Fin 512) = h :=
    Fin.ext (by
      have e : val_main_v172 (F := Ideal) (ix2 h ⟨0, Nat.one_pos⟩) = clampWord 0#32 (BitVec.ofNat 32 h.val) := rfl
      show min (val_main_v172 (F := Ideal) (ix2 h ⟨0, Nat.one_pos⟩)).toInt.toNat 511 = _
      rw [e]; exact clampWord_same h)
  show Host.gather (colDims _) (val_main_v173 (F := Ideal) x1) (val_main_v179 (F := Ideal)) (ix4 b c h w) = _
  refine (gather_cols_apply _ _ _ b c h w).trans ?_
  refine (congrArg (fun r => val_main_v173 (F := Ideal) x1 (ix4 b c h r)) hx).trans ?_
  show Host.gather (rowDims _) x1 (val_main_v172 (F := Ideal)) (ix4 b c h (next w)) = _
  refine (gather_rows_apply _ _ _ b c h (next w)).trans ?_
  exact congrArg (fun r => x1 (ix4 b c r (next w))) hy

/-- Weight plane 5, cut out of the weights, re-shaped and broadcast over the sixteen channels: at (b, c, h, w) it is the weight
    at (b, 5, h, w). -/
theorem weightPlane5 (x0 : (⟨S4x9x512x512, .f32⟩ : BufTy).Contents (Elt Ideal)) (b : Fin 4) (c : Fin 16) (h w : Fin 512) :
    val_main_v184 (F := Ideal) x0 (ix4 b c h w) = val_main_v17 (F := Ideal) x0 (ix4 b ⟨5, by decide⟩ h w) := by
  rw [val_main_v184_apply, val_main_v183_apply, val_main_v182_apply, val_main_v181_apply]
  refine congrArg _ (funext fun a => Fin.ext ?_)
  have hb := b.isLt; have hh := h.isLt; have hw := w.isLt
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

/-- Neighbour 6 (row offset 1, column offset -1): the two gathers, rows then columns, read the embedding at the clamped
    neighbour coordinates. -/
theorem neighbour6 (x1 : (⟨S4x16x512x512, .f32⟩ : BufTy).Contents (Elt Ideal)) (b : Fin 4) (c : Fin 16) (h w : Fin 512) :
    val_main_v208 (F := Ideal) x1 (ix4 b c h w) = x1 (ix4 b c (next h) (prev w)) := by
  have hx : (⟨min (val_main_v207 (F := Ideal) (ix2 w ⟨0, Nat.one_pos⟩)).toInt.toNat 511, by omega⟩ : Fin 512) = prev w :=
    Fin.ext (by
      have e : val_main_v207 (F := Ideal) (ix2 w ⟨0, Nat.one_pos⟩) = clampWord 4294967295#32 (BitVec.ofNat 32 w.val) := rfl
      show min (val_main_v207 (F := Ideal) (ix2 w ⟨0, Nat.one_pos⟩)).toInt.toNat 511 = _
      rw [e]; exact clampWord_prev w)
  have hy : (⟨min (val_main_v200 (F := Ideal) (ix2 h ⟨0, Nat.one_pos⟩)).toInt.toNat 511, by omega⟩ : Fin 512) = next h :=
    Fin.ext (by
      have e : val_main_v200 (F := Ideal) (ix2 h ⟨0, Nat.one_pos⟩) = clampWord 1#32 (BitVec.ofNat 32 h.val) := rfl
      show min (val_main_v200 (F := Ideal) (ix2 h ⟨0, Nat.one_pos⟩)).toInt.toNat 511 = _
      rw [e]; exact clampWord_next h)
  show Host.gather (colDims _) (val_main_v201 (F := Ideal) x1) (val_main_v207 (F := Ideal)) (ix4 b c h w) = _
  refine (gather_cols_apply _ _ _ b c h w).trans ?_
  refine (congrArg (fun r => val_main_v201 (F := Ideal) x1 (ix4 b c h r)) hx).trans ?_
  show Host.gather (rowDims _) x1 (val_main_v200 (F := Ideal)) (ix4 b c h (prev w)) = _
  refine (gather_rows_apply _ _ _ b c h (prev w)).trans ?_
  exact congrArg (fun r => x1 (ix4 b c r (prev w))) hy

/-- Weight plane 6, cut out of the weights, re-shaped and broadcast over the sixteen channels: at (b, c, h, w) it is the weight
    at (b, 6, h, w). -/
theorem weightPlane6 (x0 : (⟨S4x9x512x512, .f32⟩ : BufTy).Contents (Elt Ideal)) (b : Fin 4) (c : Fin 16) (h w : Fin 512) :
    val_main_v212 (F := Ideal) x0 (ix4 b c h w) = val_main_v17 (F := Ideal) x0 (ix4 b ⟨6, by decide⟩ h w) := by
  rw [val_main_v212_apply, val_main_v211_apply, val_main_v210_apply, val_main_v209_apply]
  refine congrArg _ (funext fun a => Fin.ext ?_)
  have hb := b.isLt; have hh := h.isLt; have hw := w.isLt
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

/-- Neighbour 7 (row offset 1, column offset 0): the two gathers, rows then columns, read the embedding at the clamped
    neighbour coordinates. -/
theorem neighbour7 (x1 : (⟨S4x16x512x512, .f32⟩ : BufTy).Contents (Elt Ideal)) (b : Fin 4) (c : Fin 16) (h w : Fin 512) :
    val_main_v236 (F := Ideal) x1 (ix4 b c h w) = x1 (ix4 b c (next h) (w)) := by
  have hx : (⟨min (val_main_v235 (F := Ideal) (ix2 w ⟨0, Nat.one_pos⟩)).toInt.toNat 511, by omega⟩ : Fin 512) = w :=
    Fin.ext (by
      have e : val_main_v235 (F := Ideal) (ix2 w ⟨0, Nat.one_pos⟩) = clampWord 0#32 (BitVec.ofNat 32 w.val) := rfl
      show min (val_main_v235 (F := Ideal) (ix2 w ⟨0, Nat.one_pos⟩)).toInt.toNat 511 = _
      rw [e]; exact clampWord_same w)
  have hy : (⟨min (val_main_v228 (F := Ideal) (ix2 h ⟨0, Nat.one_pos⟩)).toInt.toNat 511, by omega⟩ : Fin 512) = next h :=
    Fin.ext (by
      have e : val_main_v228 (F := Ideal) (ix2 h ⟨0, Nat.one_pos⟩) = clampWord 1#32 (BitVec.ofNat 32 h.val) := rfl
      show min (val_main_v228 (F := Ideal) (ix2 h ⟨0, Nat.one_pos⟩)).toInt.toNat 511 = _
      rw [e]; exact clampWord_next h)
  show Host.gather (colDims _) (val_main_v229 (F := Ideal) x1) (val_main_v235 (F := Ideal)) (ix4 b c h w) = _
  refine (gather_cols_apply _ _ _ b c h w).trans ?_
  refine (congrArg (fun r => val_main_v229 (F := Ideal) x1 (ix4 b c h r)) hx).trans ?_
  show Host.gather (rowDims _) x1 (val_main_v228 (F := Ideal)) (ix4 b c h (w)) = _
  refine (gather_rows_apply _ _ _ b c h (w)).trans ?_
  exact congrArg (fun r => x1 (ix4 b c r (w))) hy

/-- Weight plane 7, cut out of the weights, re-shaped and broadcast over the sixteen channels: at (b, c, h, w) it is the weight
    at (b, 7, h, w). -/
theorem weightPlane7 (x0 : (⟨S4x9x512x512, .f32⟩ : BufTy).Contents (Elt Ideal)) (b : Fin 4) (c : Fin 16) (h w : Fin 512) :
    val_main_v240 (F := Ideal) x0 (ix4 b c h w) = val_main_v17 (F := Ideal) x0 (ix4 b ⟨7, by decide⟩ h w) := by
  rw [val_main_v240_apply, val_main_v239_apply, val_main_v238_apply, val_main_v237_apply]
  refine congrArg _ (funext fun a => Fin.ext ?_)
  have hb := b.isLt; have hh := h.isLt; have hw := w.isLt
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

/-- Neighbour 8 (row offset 1, column offset 1): the two gathers, rows then columns, read the embedding at the clamped
    neighbour coordinates. -/
theorem neighbour8 (x1 : (⟨S4x16x512x512, .f32⟩ : BufTy).Contents (Elt Ideal)) (b : Fin 4) (c : Fin 16) (h w : Fin 512) :
    val_main_v264 (F := Ideal) x1 (ix4 b c h w) = x1 (ix4 b c (next h) (next w)) := by
  have hx : (⟨min (val_main_v263 (F := Ideal) (ix2 w ⟨0, Nat.one_pos⟩)).toInt.toNat 511, by omega⟩ : Fin 512) = next w :=
    Fin.ext (by
      have e : val_main_v263 (F := Ideal) (ix2 w ⟨0, Nat.one_pos⟩) = clampWord 1#32 (BitVec.ofNat 32 w.val) := rfl
      show min (val_main_v263 (F := Ideal) (ix2 w ⟨0, Nat.one_pos⟩)).toInt.toNat 511 = _
      rw [e]; exact clampWord_next w)
  have hy : (⟨min (val_main_v256 (F := Ideal) (ix2 h ⟨0, Nat.one_pos⟩)).toInt.toNat 511, by omega⟩ : Fin 512) = next h :=
    Fin.ext (by
      have e : val_main_v256 (F := Ideal) (ix2 h ⟨0, Nat.one_pos⟩) = clampWord 1#32 (BitVec.ofNat 32 h.val) := rfl
      show min (val_main_v256 (F := Ideal) (ix2 h ⟨0, Nat.one_pos⟩)).toInt.toNat 511 = _
      rw [e]; exact clampWord_next h)
  show Host.gather (colDims _) (val_main_v257 (F := Ideal) x1) (val_main_v263 (F := Ideal)) (ix4 b c h w) = _
  refine (gather_cols_apply _ _ _ b c h w).trans ?_
  refine (congrArg (fun r => val_main_v257 (F := Ideal) x1 (ix4 b c h r)) hx).trans ?_
  show Host.gather (rowDims _) x1 (val_main_v256 (F := Ideal)) (ix4 b c h (next w)) = _
  refine (gather_rows_apply _ _ _ b c h (next w)).trans ?_
  exact congrArg (fun r => x1 (ix4 b c r (next w))) hy

/-- Weight plane 8, cut out of the weights, re-shaped and broadcast over the sixteen channels: at (b, c, h, w) it is the weight
    at (b, 8, h, w). -/
theorem weightPlane8 (x0 : (⟨S4x9x512x512, .f32⟩ : BufTy).Contents (Elt Ideal)) (b : Fin 4) (c : Fin 16) (h w : Fin 512) :
    val_main_v268 (F := Ideal) x0 (ix4 b c h w) = val_main_v17 (F := Ideal) x0 (ix4 b ⟨8, by decide⟩ h w) := by
  rw [val_main_v268_apply, val_main_v267_apply, val_main_v266_apply, val_main_v265_apply]
  refine congrArg _ (funext fun a => Fin.ext ?_)
  have hb := b.isLt; have hh := h.isLt; have hw := w.isLt
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

end Cert.ReferenceIdeal.Taps

end
-- ==== Proof.RefValue.lean ====
/-
  The reference's result is the specification. Its last operation is the ninth of nine additions, each adding the product of a
  gathered neighbour plane and a broadcast weight plane to the running sum, which starts from the zero word; with the
  neighbours (RefTaps) and the weights (RefWeights) read at an index, the sum at (b, c, h, w) is, term for term and in the same
  order, the nine-neighbour weighted sum of the specification.
-/
import proofs.«165728_j69587060129919_1_alg».proof.Proof.ReadP
import proofs.«165728_j69587060129919_1_alg».proof.Proof.Spec
import proofs.«165728_j69587060129919_1_alg».proof.Proof.RefWeights
import proofs.«165728_j69587060129919_1_alg».proof.Proof.RefTaps
import Idealize.ShloMosaic.Lib.ValueIdx

noncomputable section

namespace Cert.ReferenceIdeal.Whole

open Cert.ReferenceIdeal Cert.ReferenceIdeal.Gen Cert.ReferenceIdeal.ReadP Cert.ReferenceIdeal.Weights Cert.ReferenceIdeal.Taps Cert.Affinity
open Idealize.ShloMosaic Idealize.ShloMosaic.ValueIdx

/-- The reference's last stage, as a function of the two argument arrays, is the specification. -/
theorem result_eq (x0 : (⟨S4x9x512x512, .f32⟩ : BufTy).Contents (Elt Ideal)) (x1 : (⟨S4x16x512x512, .f32⟩ : BufTy).Contents (Elt Ideal)) :
    val_main_v270 (F := Ideal) x0 x1 = G x0 x1 := by
  funext i
  obtain ⟨b, c, h, w, rfl⟩ : ∃ (b : Fin 4) (c : Fin 16) (h w : Fin 512), i = ix4 b c h w := ⟨i 0, i 1, i 2, i 3, eq_ix4 i⟩
  show val_main_v18 (F := Ideal) (ix4 b c h w)
      + val_main_v40 (F := Ideal) x1 (ix4 b c h w) * val_main_v44 (F := Ideal) x0 (ix4 b c h w)
      + val_main_v68 (F := Ideal) x1 (ix4 b c h w) * val_main_v72 (F := Ideal) x0 (ix4 b c h w)
      + val_main_v96 (F := Ideal) x1 (ix4 b c h w) * val_main_v100 (F := Ideal) x0 (ix4 b c h w)
      + val_main_v124 (F := Ideal) x1 (ix4 b c h w) * val_main_v128 (F := Ideal) x0 (ix4 b c h w)
      + val_main_v152 (F := Ideal) x1 (ix4 b c h w) * val_main_v156 (F := Ideal) x0 (ix4 b c h w)
      + val_main_v180 (F := Ideal) x1 (ix4 b c h w) * val_main_v184 (F := Ideal) x0 (ix4 b c h w)
      + val_main_v208 (F := Ideal) x1 (ix4 b c h w) * val_main_v212 (F := Ideal) x0 (ix4 b c h w)
      + val_main_v236 (F := Ideal) x1 (ix4 b c h w) * val_main_v240 (F := Ideal) x0 (ix4 b c h w)
      + val_main_v264 (F := Ideal) x1 (ix4 b c h w) * val_main_v268 (F := Ideal) x0 (ix4 b c h w)
    = stencil (fun h' w' => x1 (ix4 b c h' w')) (weight fun k => x0 (ix4 b k h w)) h w
  rw [neighbour0, neighbour1, neighbour2, neighbour3, neighbour4, neighbour5, neighbour6, neighbour7, neighbour8,
    weightPlane0, weightPlane1, weightPlane2, weightPlane3, weightPlane4, weightPlane5, weightPlane6, weightPlane7, weightPlane8]
  simp only [weights_apply]
  rfl

end Cert.ReferenceIdeal.Whole

end
-- ==== Proof.RefRun.lean ====
/-
  The reference's run, read: every weakly fair execution of its @main terminates with the result buffer at the
  specification G of the two argument arrays as launched, and the argument arrays unchanged — the library's run of a
  straight-line host program, its fold read at the three buffers (RefRunResult, RefRunArgs), and the last stage identified
  with the specification (RefValue).
-/
import proofs.«165728_j69587060129919_1_alg».proof.Proof.RefOps
import proofs.«165728_j69587060129919_1_alg».proof.Proof.RefRunResult
import proofs.«165728_j69587060129919_1_alg».proof.Proof.RefRunArgs
import proofs.«165728_j69587060129919_1_alg».proof.Proof.RefValue

noncomputable section

namespace Cert.ReferenceIdeal.Whole

open Cert.ReferenceIdeal Cert.ReferenceIdeal.Gen Cert.ReferenceIdeal.Ops
open Idealize.ShloMosaic Idealize.ShloMosaic.TcCoe Idealize.SL.Sem Idealize.ShloMosaic.StableHlo
open Cert.Affinity

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v270)
          = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v270).trans ((after_result _).trans (result_eq _ _)),
      (h c main_arg0).trans (after_arg0 _), (h c main_arg1).trans (after_arg1 _)⟩)
    (run_seq scopedRefs_eq scopedSems_eq defs main (fun _ => ops) main_eq (fun _ => ops_sub) m ρ)

end Cert.ReferenceIdeal.Whole

end
-- ==== Proof.lean ====
/-
  The certificate of the affinity-weighted 3×3 averaging kernel against its jnp reference.

  Both programs turn the nine affinity planes of a batch into weights — a softmax over the nine, then an L¹ normalisation
  floored at ε — and add up, over the nine offsets of a 3 × 3 window, the embedding at the neighbour pixel (clamped into
  the plane: replicate padding) times the weight of that offset. The kernel does it one batch and one channel pair at a time,
  taking a neighbour plane by rotating the block along rows or columns and selecting the edge row or column in at the edge;
  the reference gathers rows and columns at clipped indices over the whole array. On the extended reals the two are one
  expression tree (Spec: the function G), so no algebra joins them, only the reading of each side at an index:
  KernelPixel / KernelValue for the kernel (the stored block, then the 32 blocks tiling the output), RefWeights / RefTaps /
  RefValue for the reference's stages, RefOps / RefRunResult / RefRunArgs / RefRun for its run. The kernel's two frames are the generated ones, the reference's is its run with the result dropped; the idealization
  rewrote nothing.
-/
import proofs.«165728_j69587060129919_1_alg».proof.Defs
import proofs.«165728_j69587060129919_1_alg».proof.Proof.Gen.Kernel
import proofs.«165728_j69587060129919_1_alg».proof.Proof.Gen.Kernel.Skeleton
import proofs.«165728_j69587060129919_1_alg».proof.Proof.Gen.Kernel.Launch
import proofs.«165728_j69587060129919_1_alg».proof.Proof.Gen.Kernel.Points
import proofs.«165728_j69587060129919_1_alg».proof.Proof.Gen.Kernel.Frame
import proofs.«165728_j69587060129919_1_alg».proof.Proof.Gen.KernelIdeal
import proofs.«165728_j69587060129919_1_alg».proof.Proof.Gen.KernelIdeal.Skeleton
import proofs.«165728_j69587060129919_1_alg».proof.Proof.Gen.KernelIdeal.Launch
import proofs.«165728_j69587060129919_1_alg».proof.Proof.Gen.KernelIdeal.Points
import proofs.«165728_j69587060129919_1_alg».proof.Proof.Gen.KernelIdeal.Frame
import proofs.«165728_j69587060129919_1_alg».proof.Proof.Gen.ReferenceIdeal
import proofs.«165728_j69587060129919_1_alg».proof.Proof.Gen.Pre_finite_inputs
import proofs.«165728_j69587060129919_1_alg».proof.Proof.Gen.KernelIdeal.Value
import proofs.«165728_j69587060129919_1_alg».proof.Proof.KernelValue
import proofs.«165728_j69587060129919_1_alg».proof.Proof.RefRun
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Whole.run m ρ)

/-- Both runs end with the result at the specification G of the argument arrays, which agree. -/
theorem algebraic : Cert.algebraic_KernelIdeal_ReferenceIdeal := by
  intro m ρ m' ρ' _ hagree
  refine ⟨fun c => Cert.Affinity.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Whole.run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
